-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x128 : Shape := ⟨2, ![16384, 128]⟩
abbrev S2048 : Shape := ⟨1, ![2048]⟩
abbrev S128x128 : Shape := ⟨2, ![128, 128]⟩
abbrev S128 : Shape := ⟨1, ![128]⟩
abbrev S256 : Shape := ⟨1, ![256]⟩
abbrev S_ : Shape := ⟨0, ![]⟩
abbrev S16 : Shape := ⟨1, ![16]⟩
abbrev S1x16 : Shape := ⟨2, ![1, 16]⟩
abbrev S16384 : Shape := ⟨1, ![16384]⟩
abbrev S4096x128 : Shape := ⟨2, ![4096, 128]⟩
abbrev S4096 : Shape := ⟨1, ![4096]⟩

abbrev nBuf : Table → Nat
  | .hbm => 8
  | .local .tc .vmem => 10
  | .local .scVector .vmem => 4
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S2048, .f32⟩
  | .hbm, ⟨3, _⟩ => ⟨S16384x128, .f32⟩
  | .hbm, ⟨4, _⟩ => ⟨S16384x128, .f32⟩
  | .hbm, ⟨5, _⟩ => ⟨S16384, .f32⟩
  | .hbm, ⟨6, _⟩ => ⟨S_, .i32⟩
  | .hbm, ⟨7, _⟩ => ⟨S16384, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S4096x128, .f32⟩
  | .local .tc .vmem, ⟨5, _⟩ => ⟨S4096x128, .f32⟩
  | .local .tc .vmem, ⟨6, _⟩ => ⟨S4096x128, .f32⟩
  | .local .tc .vmem, ⟨7, _⟩ => ⟨S4096x128, .f32⟩
  | .local .tc .vmem, ⟨8, _⟩ => ⟨S4096, .f32⟩
  | .local .tc .vmem, ⟨9, _⟩ => ⟨S4096, .f32⟩
  | .local .scVector .vmem, ⟨0, _⟩ => ⟨S128x128, .f32⟩
  | .local .scVector .vmem, ⟨1, _⟩ => ⟨S128x128, .f32⟩
  | .local .scVector .vmem, ⟨2, _⟩ => ⟨S128, .f32⟩
  | .local .scVector .vmem, ⟨3, _⟩ => ⟨S256, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_c : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
@[reducible] def k0_t1_loop : Scf.Loop 32 :=
  let c0_i32_8 : BitVec 32 := 0#32
  let c8_i32 : BitVec 32 := 8#32
  let v14 : BitVec 32 := Scalar.addi c0_i32_8 c8_i32
  let c1_i32_9 : BitVec 32 := 1#32
  ⟨c0_i32_8, v14, c1_i32_9⟩
@[reducible] def k0_t2_loop : Scf.Loop 32 :=
  let c0_i32_12 : BitVec 32 := 0#32
  let c4_i32 : BitVec 32 := 4#32
  let v15 : BitVec 32 := Scalar.addi c0_i32_12 c4_i32
  let c1_i32_13 : BitVec 32 := 1#32
  ⟨c0_i32_12, v15, c1_i32_13⟩
def k0_off2 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v86 : Index := Scalar.indexCast v85
  let c0 : Index := 0#32
  ![v86.toNat, 0]
def k0_off3 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v91 : Index := Scalar.indexCast v85
  let c16 : Index := 16#32
  ![v91.toNat, 16]
def k0_off4 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v96 : Index := Scalar.indexCast v85
  let c32 : Index := 32#32
  ![v96.toNat, 32]
def k0_off5 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v101 : Index := Scalar.indexCast v85
  let c48 : Index := 48#32
  ![v101.toNat, 48]
def k0_off6 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v106 : Index := Scalar.indexCast v85
  let c64 : Index := 64#32
  ![v106.toNat, 64]
def k0_off7 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v111 : Index := Scalar.indexCast v85
  let c80 : Index := 80#32
  ![v111.toNat, 80]
def k0_off8 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v116 : Index := Scalar.indexCast v85
  let c96 : Index := 96#32
  ![v116.toNat, 96]
def k0_off9 (k0_t1 : Fin k0_t1_loop.trips) (k0_t2 : Fin k0_t2_loop.trips) (c0_i32_22 : BitVec 32) : Fin 2 → Nat :=
  let c0_i32_8 : BitVec 32 := 0#32
  let c1_i32_9 : BitVec 32 := 1#32
  let arg11 : BitVec 32 := Scf.iv c0_i32_8 c1_i32_9 k0_t1
  let c16_i32_20 : BitVec 32 := 16#32
  let v82 : BitVec 32 := Scalar.muli arg11 c16_i32_20
  let c0_i32_12 : BitVec 32 := 0#32
  let c1_i32_13 : BitVec 32 := 1#32
  let arg12 : BitVec 32 := Scf.iv c0_i32_12 c1_i32_13 k0_t2
  let c4_i32_21 : BitVec 32 := 4#32
  let v83 : BitVec 32 := Scalar.muli arg12 c4_i32_21
  let v84 : BitVec 32 := Scalar.addi v82 v83
  let v85 : BitVec 32 := Scalar.addi v84 c0_i32_22
  let v121 : Index := Scalar.indexCast v85
  let c112 : Index := 112#32
  ![v121.toNat, 112]
def k0_off10 (k0_t2 : Fin k0_t2_loop.trips) (c0_i32_32 : BitVec 32) : Fin 1 → Nat :=
  let c0_i32_12 : BitVec 32 := 0#32
  let c1_i32_13 : BitVec 32 := 1#32
  let arg12 : BitVec 32 := Scf.iv c0_i32_12 c1_i32_13 k0_t2
  let c4_i32_31 : BitVec 32 := 4#32
  let v133 : BitVec 32 := Scalar.muli arg12 c4_i32_31
  let v134 : BitVec 32 := Scalar.addi v133 c0_i32_32
  let c16_i32_33 : BitVec 32 := 16#32
  let v135 : BitVec 32 := Scalar.muli v134 c16_i32_33
  let v136 : Index := Scalar.indexCast v135
  ![v136.toNat]

def k0_chk1 (v17 : IVec S16 32) : Prop :=
  (∀ a x, ((![v17] : Fin 1 → IVec S16 32) a x).toNat < S256.size a)
instance k0_chk1.dec : ∀ (v17 : IVec S16 32), Decidable (k0_chk1 v17) := fun v17 => decidable_of_iff' _ (Iff.of_eq (k0_chk1.eq_1 v17))
theorem k0_idx1_inb : ∀ (v17 : IVec S16 32) (k0_hw1 : k0_chk1 v17), ∀ a x, ((![v17] : Fin 1 → IVec S16 32) a x).toNat < S256.size a := fun v17 k0_hw1 => k0_hw1

def k0_chk2 (v20 : IVec S16 32) : Prop :=
  (∀ a x, ((![v20] : Fin 1 → IVec S16 32) a x).toNat < S256.size a)
instance k0_chk2.dec : ∀ (v20 : IVec S16 32), Decidable (k0_chk2 v20) := fun v20 => decidable_of_iff' _ (Iff.of_eq (k0_chk2.eq_1 v20))
theorem k0_idx2_inb : ∀ (v20 : IVec S16 32) (k0_hw2 : k0_chk2 v20), ∀ a x, ((![v20] : Fin 1 → IVec S16 32) a x).toNat < S256.size a := fun v20 k0_hw2 => k0_hw2

def k0_chk3 (v23 : IVec S16 32) : Prop :=
  (∀ a x, ((![v23] : Fin 1 → IVec S16 32) a x).toNat < S256.size a)
instance k0_chk3.dec : ∀ (v23 : IVec S16 32), Decidable (k0_chk3 v23) := fun v23 => decidable_of_iff' _ (Iff.of_eq (k0_chk3.eq_1 v23))
theorem k0_idx3_inb : ∀ (v23 : IVec S16 32) (k0_hw3 : k0_chk3 v23), ∀ a x, ((![v23] : Fin 1 → IVec S16 32) a x).toNat < S256.size a := fun v23 k0_hw3 => k0_hw3

def k0_chk4 (v26 : IVec S16 32) : Prop :=
  (∀ a x, ((![v26] : Fin 1 → IVec S16 32) a x).toNat < S256.size a)
instance k0_chk4.dec : ∀ (v26 : IVec S16 32), Decidable (k0_chk4 v26) := fun v26 => decidable_of_iff' _ (Iff.of_eq (k0_chk4.eq_1 v26))
theorem k0_idx4_inb : ∀ (v26 : IVec S16 32) (k0_hw4 : k0_chk4 v26), ∀ a x, ((![v26] : Fin 1 → IVec S16 32) a x).toNat < S256.size a := fun v26 k0_hw4 => k0_hw4

def k0_chk5 (v29 : IVec S16 32) : Prop :=
  (∀ a x, ((![v29] : Fin 1 → IVec S16 32) a x).toNat < S256.size a)
instance k0_chk5.dec : ∀ (v29 : IVec S16 32), Decidable (k0_chk5 v29) := fun v29 => decidable_of_iff' _ (Iff.of_eq (k0_chk5.eq_1 v29))
theorem k0_idx5_inb : ∀ (v29 : IVec S16 32) (k0_hw5 : k0_chk5 v29), ∀ a x, ((![v29] : Fin 1 → IVec S16 32) a x).toNat < S256.size a := fun v29 k0_hw5 => k0_hw5

def k0_chk6 (v32 : IVec S16 32) : Prop :=
  (∀ a x, ((![v32] : Fin 1 → IVec S16 32) a x).toNat < S256.size a)
instance k0_chk6.dec : ∀ (v32 : IVec S16 32), Decidable (k0_chk6 v32) := fun v32 => decidable_of_iff' _ (Iff.of_eq (k0_chk6.eq_1 v32))
theorem k0_idx6_inb : ∀ (v32 : IVec S16 32) (k0_hw6 : k0_chk6 v32), ∀ a x, ((![v32] : Fin 1 → IVec S16 32) a x).toNat < S256.size a := fun v32 k0_hw6 => k0_hw6

def k0_chk7 (v35 : IVec S16 32) : Prop :=
  (∀ a x, ((![v35] : Fin 1 → IVec S16 32) a x).toNat < S256.size a)
instance k0_chk7.dec : ∀ (v35 : IVec S16 32), Decidable (k0_chk7 v35) := fun v35 => decidable_of_iff' _ (Iff.of_eq (k0_chk7.eq_1 v35))
theorem k0_idx7_inb : ∀ (v35 : IVec S16 32) (k0_hw7 : k0_chk7 v35), ∀ a x, ((![v35] : Fin 1 → IVec S16 32) a x).toNat < S256.size a := fun v35 k0_hw7 => k0_hw7

def k0_chk8 (v38 : IVec S16 32) : Prop :=
  (∀ a x, ((![v38] : Fin 1 → IVec S16 32) a x).toNat < S256.size a)
instance k0_chk8.dec : ∀ (v38 : IVec S16 32), Decidable (k0_chk8 v38) := fun v38 => decidable_of_iff' _ (Iff.of_eq (k0_chk8.eq_1 v38))
theorem k0_idx8_inb : ∀ (v38 : IVec S16 32) (k0_hw8 : k0_chk8 v38), ∀ a x, ((![v38] : Fin 1 → IVec S16 32) a x).toNat < S256.size a := fun v38 k0_hw8 => k0_hw8

def k0_chk9 (v41 : IVec S16 32) : Prop :=
  (∀ a x, ((![v41] : Fin 1 → IVec S16 32) a x).toNat < S256.size a)
instance k0_chk9.dec : ∀ (v41 : IVec S16 32), Decidable (k0_chk9 v41) := fun v41 => decidable_of_iff' _ (Iff.of_eq (k0_chk9.eq_1 v41))
theorem k0_idx9_inb : ∀ (v41 : IVec S16 32) (k0_hw9 : k0_chk9 v41), ∀ a x, ((![v41] : Fin 1 → IVec S16 32) a x).toNat < S256.size a := fun v41 k0_hw9 => k0_hw9

def k0_chk10 (v44 : IVec S16 32) : Prop :=
  (∀ a x, ((![v44] : Fin 1 → IVec S16 32) a x).toNat < S256.size a)
instance k0_chk10.dec : ∀ (v44 : IVec S16 32), Decidable (k0_chk10 v44) := fun v44 => decidable_of_iff' _ (Iff.of_eq (k0_chk10.eq_1 v44))
theorem k0_idx10_inb : ∀ (v44 : IVec S16 32) (k0_hw10 : k0_chk10 v44), ∀ a x, ((![v44] : Fin 1 → IVec S16 32) a x).toNat < S256.size a := fun v44 k0_hw10 => k0_hw10

def k0_chk11 (v47 : IVec S16 32) : Prop :=
  (∀ a x, ((![v47] : Fin 1 → IVec S16 32) a x).toNat < S256.size a)
instance k0_chk11.dec : ∀ (v47 : IVec S16 32), Decidable (k0_chk11 v47) := fun v47 => decidable_of_iff' _ (Iff.of_eq (k0_chk11.eq_1 v47))
theorem k0_idx11_inb : ∀ (v47 : IVec S16 32) (k0_hw11 : k0_chk11 v47), ∀ a x, ((![v47] : Fin 1 → IVec S16 32) a x).toNat < S256.size a := fun v47 k0_hw11 => k0_hw11

def k0_chk12 (v50 : IVec S16 32) : Prop :=
  (∀ a x, ((![v50] : Fin 1 → IVec S16 32) a x).toNat < S256.size a)
instance k0_chk12.dec : ∀ (v50 : IVec S16 32), Decidable (k0_chk12 v50) := fun v50 => decidable_of_iff' _ (Iff.of_eq (k0_chk12.eq_1 v50))
theorem k0_idx12_inb : ∀ (v50 : IVec S16 32) (k0_hw12 : k0_chk12 v50), ∀ a x, ((![v50] : Fin 1 → IVec S16 32) a x).toNat < S256.size a := fun v50 k0_hw12 => k0_hw12

def k0_chk13 (v53 : IVec S16 32) : Prop :=
  (∀ a x, ((![v53] : Fin 1 → IVec S16 32) a x).toNat < S256.size a)
instance k0_chk13.dec : ∀ (v53 : IVec S16 32), Decidable (k0_chk13 v53) := fun v53 => decidable_of_iff' _ (Iff.of_eq (k0_chk13.eq_1 v53))
theorem k0_idx13_inb : ∀ (v53 : IVec S16 32) (k0_hw13 : k0_chk13 v53), ∀ a x, ((![v53] : Fin 1 → IVec S16 32) a x).toNat < S256.size a := fun v53 k0_hw13 => k0_hw13

def k0_chk14 (v56 : IVec S16 32) : Prop :=
  (∀ a x, ((![v56] : Fin 1 → IVec S16 32) a x).toNat < S256.size a)
instance k0_chk14.dec : ∀ (v56 : IVec S16 32), Decidable (k0_chk14 v56) := fun v56 => decidable_of_iff' _ (Iff.of_eq (k0_chk14.eq_1 v56))
theorem k0_idx14_inb : ∀ (v56 : IVec S16 32) (k0_hw14 : k0_chk14 v56), ∀ a x, ((![v56] : Fin 1 → IVec S16 32) a x).toNat < S256.size a := fun v56 k0_hw14 => k0_hw14

def k0_chk15 (v59 : IVec S16 32) : Prop :=
  (∀ a x, ((![v59] : Fin 1 → IVec S16 32) a x).toNat < S256.size a)
instance k0_chk15.dec : ∀ (v59 : IVec S16 32), Decidable (k0_chk15 v59) := fun v59 => decidable_of_iff' _ (Iff.of_eq (k0_chk15.eq_1 v59))
theorem k0_idx15_inb : ∀ (v59 : IVec S16 32) (k0_hw15 : k0_chk15 v59), ∀ a x, ((![v59] : Fin 1 → IVec S16 32) a x).toNat < S256.size a := fun v59 k0_hw15 => k0_hw15

def k0_chk16 (v62 : IVec S16 32) : Prop :=
  (∀ a x, ((![v62] : Fin 1 → IVec S16 32) a x).toNat < S256.size a)
instance k0_chk16.dec : ∀ (v62 : IVec S16 32), Decidable (k0_chk16 v62) := fun v62 => decidable_of_iff' _ (Iff.of_eq (k0_chk16.eq_1 v62))
theorem k0_idx16_inb : ∀ (v62 : IVec S16 32) (k0_hw16 : k0_chk16 v62), ∀ a x, ((![v62] : Fin 1 → IVec S16 32) a x).toNat < S256.size a := fun v62 k0_hw16 => k0_hw16
def k0_off11 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let c16_i32_19 : BitVec 32 := 16#32
  let v79 : BitVec 32 := Scalar.muli arg11 c16_i32_19
  let v80 : Index := Scalar.indexCast v79
  ![v80.toNat]
def k0_off12 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S1x16 : 0 < S1x16.numel
  shapeCasts_S1x16_S16 : S1x16.ShapeCasts S16
  h_S16 : 0 < S16.numel
  h_S256 : 0 < S256.numel
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  inb_S4096_S4096_0 : ∀ a, (![0] : Fin 1 → Nat) a + S4096.size a ≤ S4096.size a
  h_S4096 : 0 < S4096.numel
  updateFits_S16384_S2048 : S16384.Slices (fun _ => 0) S2048
  h_S_ : 0 < S_.numel
  hcc0_scratch4 : 0 + S_.numel ≤ 13
  hcc0_scratch5 : 1 + S_.numel ≤ 13
  hcc0_scoped0 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x128.size a ≤ S16384x128.size a
  k0_t1_ok : k0_t1_loop.OK
  k0_t2_ok : k0_t2_loop.OK
  k0_off2_inb : ∀ (k0_t1 : Fin k0_t1_loop.trips) (k0_t2 : Fin k0_t2_loop.trips), ∀ (r : Fin 4), ∀ a, (k0_off2 k0_t1 k0_t2 (BitVec.ofNat 32 r.val)) a + S1x16.size a ≤ S128x128.size a
  k0_off3_inb : ∀ (k0_t1 : Fin k0_t1_loop.trips) (k0_t2 : Fin k0_t2_loop.trips), ∀ (r : Fin 4), ∀ a, (k0_off3 k0_t1 k0_t2 (BitVec.ofNat 32 r.val)) a + S1x16.size a ≤ S128x128.size a
  k0_off4_inb : ∀ (k0_t1 : Fin k0_t1_loop.trips) (k0_t2 : Fin k0_t2_loop.trips), ∀ (r : Fin 4), ∀ a, (k0_off4 k0_t1 k0_t2 (BitVec.ofNat 32 r.val)) a + S1x16.size a ≤ S128x128.size a
  k0_off5_inb : ∀ (k0_t1 : Fin k0_t1_loop.trips) (k0_t2 : Fin k0_t2_loop.trips), ∀ (r : Fin 4), ∀ a, (k0_off5 k0_t1 k0_t2 (BitVec.ofNat 32 r.val)) a + S1x16.size a ≤ S128x128.size a
  k0_off6_inb : ∀ (k0_t1 : Fin k0_t1_loop.trips) (k0_t2 : Fin k0_t2_loop.trips), ∀ (r : Fin 4), ∀ a, (k0_off6 k0_t1 k0_t2 (BitVec.ofNat 32 r.val)) a + S1x16.size a ≤ S128x128.size a
  k0_off7_inb : ∀ (k0_t1 : Fin k0_t1_loop.trips) (k0_t2 : Fin k0_t2_loop.trips), ∀ (r : Fin 4), ∀ a, (k0_off7 k0_t1 k0_t2 (BitVec.ofNat 32 r.val)) a + S1x16.size a ≤ S128x128.size a
  k0_off8_inb : ∀ (k0_t1 : Fin k0_t1_loop.trips) (k0_t2 : Fin k0_t2_loop.trips), ∀ (r : Fin 4), ∀ a, (k0_off8 k0_t1 k0_t2 (BitVec.ofNat 32 r.val)) a + S1x16.size a ≤ S128x128.size a
  k0_off9_inb : ∀ (k0_t1 : Fin k0_t1_loop.trips) (k0_t2 : Fin k0_t2_loop.trips), ∀ (r : Fin 4), ∀ a, (k0_off9 k0_t1 k0_t2 (BitVec.ofNat 32 r.val)) a + S1x16.size a ≤ S128x128.size a
  k0_off10_inb : ∀ k0_t2 : Fin k0_t2_loop.trips, ∀ (r : Fin 4), ∀ a, (k0_off10 k0_t2 (BitVec.ofNat 32 r.val)) a + S16.size a ≤ S256.size a
  k0_off11_inb : ∀ k0_t1 : Fin k0_t1_loop.trips, ∀ a, (k0_off11 k0_t1) a + S16.size a ≤ S128.size a
  k0_off12_inb : ∀ i : grid0.Coords, ∀ a, (k0_off12 i) a + S128.size a ≤ S2048.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .f32 = 32 ∨ (Rect.block (s := S16384x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S16384x128.size a
  hwx1_2 : ∀ i : grid1.Coords, EltTy.bits .f32 = 32 ∨ (Rect.block (s := S16384x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S16384x128.size a
  hwx1_3 : ∀ i : grid1.Coords, EltTy.bits .f32 = 32 ∨ (Rect.block (s := S16384x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S16384.size a
  hwx1_4 : ∀ i : grid1.Coords, EltTy.bits .f32 = 32 ∨ (Rect.block (s := S16384) S4096.size (cc1_transform_4 i) (hinb1_4 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S4096x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S4096x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_2) S4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S_, .f32⟩
  | .hbm, ⟨4, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel

variable [Facts₀]

class Facts : Prop extends Facts₀ where

variable [Facts]
-- ==== Proof.KBCommon.lean ====
/-
  The set-up shared by every part of the kernel program's run: the program as the SparseCore launch theorem
  sees it (one vector-subcore call on one SparseCore's sixteen tiles, then one TensorCore pipeline of four points,
  then two host operations), the ghost state (the launch handshakes' rounds, the pipeline's staging cells' rounds,
  the tiles' own transfer counters), the arrays' locations and the memrefs the tiles address them through.
-/
import proofs.«209947_g87935160418510_cont_sun_m_973_20_alg».proof.Proof.Gen.Kernel
import proofs.«209947_g87935160418510_cont_sun_m_973_20_alg».proof.Proof.Gen.Kernel.Launch
import proofs.«209947_g87935160418510_cont_sun_m_973_20_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's staging cells' rounds, the tiles' transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev aLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

end Cert.Proof.KB

end
-- ==== Proof.Spec.lean ====
/-
  What the kernel program computes, as functions of its two argument arrays, at any float instance.
  A tile's row dot: the row's 128 products are summed first over the eight 16-wide column chunks (lane by lane,
  as a balanced tree of eight), then over the sixteen lanes (a balanced tree of sixteen). The TensorCore's row
  sum is the lane reduction of the products. The program's first result is the TensorCore's row sums with rows
  0 … 2047 replaced by the tiles' row dots; its other two results are the arguments.
-/
import Idealize.ShloMosaic.PureOps
import Idealize.ShloMosaic.Lib.ValueIdx

noncomputable section

namespace Cert.Spec

open Idealize.ShloMosaic Idealize.ShloMosaic.ValueIdx

variable {F : FTy → Type} [FloatOps F]

abbrev SA : Shape := ⟨2, ![16384, 128]⟩
abbrev SO : Shape := ⟨1, ![2048]⟩
abbrev SR : Shape := ⟨1, ![16384]⟩

/-- The balanced sum of eight: ((p0 + p1) + (p2 + p3)) + ((p4 + p5) + (p6 + p7)). -/
def sum8 (p : Fin 8 → F .f32) : F .f32 :=
  FloatOps.addf (FloatOps.addf (FloatOps.addf (p 0) (p 1)) (FloatOps.addf (p 2) (p 3)))
    (FloatOps.addf (FloatOps.addf (p 4) (p 5)) (FloatOps.addf (p 6) (p 7)))

/-- The balanced sum of sixteen: the balanced sum of the first eight plus that of the last eight. -/
def sum16 (p : Fin 16 → F .f32) : F .f32 :=
  FloatOps.addf (sum8 fun k => p ⟨k.val, by omega⟩) (sum8 fun k => p ⟨8 + k.val, by omega⟩)

/-- Column `16 k + j` of a 128-wide row. -/
def col (k : Fin 8) (j : Fin 16) : Fin 128 := ⟨16 * k.val + j.val, by omega⟩

/-- Lane `j` of a row's partial sums: the products at columns `j, 16 + j, …, 112 + j`, summed as a tree of eight. -/
def lanePart (u v : Fin 128 → F .f32) (j : Fin 16) : F .f32 :=
  sum8 fun k => FloatOps.mulf (u (col k j)) (v (col k j))

/-- A tile's dot of two rows: the sixteen lanes' partial sums, summed as a tree of sixteen. -/
def rowDot (u v : Fin 128 → F .f32) : F .f32 := sum16 (lanePart u v)

/-- Row `R` of an argument array. -/
def rowOf (a : SA.Idx → F .f32) (R : Fin 16384) : Fin 128 → F .f32 := fun c => a (ix2 R c)

/-- What the sixteen tiles leave in the SparseCore call's result: the row dots of rows 0 … 2047. -/
def tilesOut (a b : SA.Idx → F .f32) : SO.Idx → F .f32 :=
  fun r => rowDot (rowOf a ⟨(r 0).val, lt_of_lt_of_le (r 0).isLt (by decide)⟩) (rowOf b ⟨(r 0).val, lt_of_lt_of_le (r 0).isLt (by decide)⟩)

end Cert.Spec

end
-- ==== Proof.KBTileVal.lean ====
/-
  Pure facts about one tile's task: what a word of a rank-one scratch reads after a store of sixteen words at an
  offset (the store's lane, or what was there); what a sixteen-wide load of a row scratch reads (sixteen consecutive
  columns of one row); that each of a trip's four stored vectors is, lane by lane, the balanced sum of eight of its
  row's products; that the group's stored vector is, lane by lane, the balanced sum of sixteen of the transposed
  reads; the words of the sixteen index vectors (lane i of the j-th is 16·i + j); and the two loops' invariants'
  steps over these.
-/
import proofs.«209947_g87935160418510_cont_sun_m_973_20_alg».proof.Proof.Spec
import proofs.«209947_g87935160418510_cont_sun_m_973_20_alg».proof.Proof.Gen.Kernel
import proofs.«209947_g87935160418510_cont_sun_m_973_20_alg».proof.Proof.Gen.Kernel.Skeleton
import Idealize.ShloMosaic.Lib.Writes
import Idealize.ShloMosaic.Lib.ValueLayout
import Idealize.ShloMosaic.Lib.ValueIdx

noncomputable section

namespace Cert.Proof.KB

open Cert.Kernel Cert.Kernel.Gen
open Idealize.ShloMosaic Idealize.ShloMosaic.ValueIdx

/-! ## A rank-one buffer after a store of sixteen words -/

section Writes1

variable {sig : RefSig} {κ : Kind} {sp : Space} {N : Nat} {e : EltTy} {Val : EltTy → Type}
variable (v : View sig κ sp ⟨1, ![N]⟩ e) (f : v.ty.Contents Val)

/-- Word n, under the last store (n = off + i): the store's lane i. -/
theorem read_writes_unit_hit (off : Fin 1 → Nat) (inb : ∀ a, off a + S16.size a ≤ (⟨1, ![N]⟩ : Shape).size a)
    (w : (Rect.unit (s := ⟨1, ![N]⟩) off S16.size inb).shape.Idx → Val e) (L : List (View.Piece Val ⟨1, ![N]⟩ e))
    (n : Fin N) (i : Fin 16) (h : n.val = off 0 + i.val) :
    v.read Val (v.writes Val f (⟨Rect.unit (s := ⟨1, ![N]⟩) off S16.size inb, w⟩ :: L)) (ix1 n) = w (ix1 i) := by
  have e : (ix1 n : (⟨1, ![N]⟩ : Shape).Idx) = (Rect.unit (s := ⟨1, ![N]⟩) off S16.size inb).emb (ix1 i) := by
    funext a; apply Fin.ext
    obtain rfl : a = 0 := Subsingleton.elim _ _
    show n.val = off 0 + 1 * i.val
    omega
  rw [e]; exact View.read_writes_cons_emb v f _ w L _

/-- Word n, clear of the last store: what the earlier stores left. -/
theorem read_writes_unit_miss (off : Fin 1 → Nat) (inb : ∀ a, off a + S16.size a ≤ (⟨1, ![N]⟩ : Shape).size a)
    (w : (Rect.unit (s := ⟨1, ![N]⟩) off S16.size inb).shape.Idx → Val e) (L : List (View.Piece Val ⟨1, ![N]⟩ e))
    (n : Fin N) (h : n.val < off 0 ∨ off 0 + 16 ≤ n.val) :
    v.read Val (v.writes Val f (⟨Rect.unit (s := ⟨1, ![N]⟩) off S16.size inb, w⟩ :: L)) (ix1 n) = v.read Val (v.writes Val f L) (ix1 n) := by
  rw [View.writes_cons]
  refine View.read_slice_write_of_not_mem _ _ _ _ ?_
  rw [Rect.map_emb_univ, Rect.mem_set_unit]
  intro hm
  have h0 : off 0 ≤ n.val ∧ n.val < off 0 + 16 := hm 0
  omega

end Writes1

/-! ## A sixteen-wide load of a row scratch -/

section Rows

variable {sig : RefSig} {κ : Kind} {sp : Space} {F : FTy → Type}

/-- Row R of a 128 × 128 buffer, as its view reads it. -/
def vrow (v : View sig κ sp S128x128 .f32) (f : v.ty.Contents (Elt F)) (R : Fin 128) : Fin 128 → F .f32 :=
  fun c => v.read (Elt F) f (ix2 R c)

theorem readAt_row (v : View sig κ sp S128x128 .f32) (f : v.ty.Contents (Elt F)) (off : Fin 2 → Nat)
    (inb : ∀ a, off a + S1x16.size a ≤ S128x128.size a) (R : Fin 128) (c0 : Nat) (j : Fin 16) (hc : c0 + j.val < 128)
    (h0 : off 0 = R.val) (h1 : off 1 = c0) :
    v.readAt (Elt F) (Rect.unit (s := S128x128) off S1x16.size inb).toLoadRect f (ix2 (0 : Fin 1) j) = vrow v f R ⟨c0 + j.val, hc⟩ := by
  unfold vrow
  rw [View.readAt_apply]; congr 1
  funext a; apply Fin.ext
  match a with
  | ⟨0, _⟩ => show off 0 + 1 * ((0 : Fin 1) : Nat) = R.val; rw [h0]; simp
  | ⟨1, _⟩ => show off 1 + 1 * j.val = c0 + j.val; rw [h1]; omega

end Rows

variable {F : FTy → Type} [FloatOps F]

/-! ## The stored vectors -/

section Pay

variable {sig : RefSig} {κ κ' : Kind} {sp sp' : Space}
variable (vA : View sig κ sp S128x128 .f32) (fA : vA.ty.Contents (Elt F)) (vB : View sig κ' sp' S128x128 .f32) (fB : vB.ty.Contents (Elt F))

/-- Row 0 of a trip's four: the stored vector's lane j is the lane sum of row 16·g + 4·q + 0 of the two scratches. -/
theorem row0_eq (g : Fin k0_t1_loop.trips) (q : Fin k0_t2_loop.trips) (R : Fin 128) (hR : R.val = 16 * g.val + 4 * q.val + 0) (j : Fin 16) :
    (k0_pay14 (k0_pay8 (vA.readAt (Elt F) (Rect.unit (s := S128x128) (k0_off2 g q 0#32) S1x16.size (k0_off2_inb g q 0)).toLoadRect fA) (vB.readAt (Elt F) (Rect.unit (s := S128x128) (k0_off2 g q 0#32) S1x16.size (k0_off2_inb g q 0)).toLoadRect fB)) (k0_pay9 (vA.readAt (Elt F) (Rect.unit (s := S128x128) (k0_off3 g q 0#32) S1x16.size (k0_off3_inb g q 0)).toLoadRect fA) (vB.readAt (Elt F) (Rect.unit (s := S128x128) (k0_off3 g q 0#32) S1x16.size (k0_off3_inb g q 0)).toLoadRect fB)) (k0_pay10 (vA.readAt (Elt F) (Rect.unit (s := S128x128) (k0_off4 g q 0#32) S1x16.size (k0_off4_inb g q 0)).toLoadRect fA) (vB.readAt (Elt F) (Rect.unit (s := S128x128) (k0_off4 g q 0#32) S1x16.size (k0_off4_inb g q 0)).toLoadRect fB)) (k0_pay11 (vA.readAt (Elt F) (Rect.unit (s := S128x128) (k0_off5 g q 0#32) S1x16.size (k0_off5_inb g q 0)).toLoadRect fA) (vB.readAt (Elt F) (Rect.unit (s := S128x128) (k0_off5 g q 0#32) S1x16.size (k0_off5_inb g q 0)).toLoadRect fB)) (k0_pay12 (vA.readAt (Elt F) (Rect.unit (s := S128x128) (k0_off6 g q 0#32) S1x16.size (k0_off6_inb g q 0)).toLoadRect fA) (vB.readAt (Elt F) (Rect.unit (s := S128x128) (k0_off6 g q 0#32) S1x16.size (k0_off6_inb g q 0)).toLoadRect fB)) (k0_pay13 (vA.readAt (Elt F) (Rect.unit (s := S128x128) (k0_off7 g q 0#32) S1x16.size (k0_off7_inb g q 0)).toLoadRect fA)) (vB.readAt (Elt F) (Rect.unit (s := S128x128) (k0_off7 g q 0#32) S1x16.size (k0_off7_inb g q 0)).toLoadRect fB) (vA.readAt (Elt F) (Rect.unit (s := S128x128) (k0_off8 g q 0#32) S1x16.size (k0_off8_inb g q 0)).toLoadRect fA) (vB.readAt (Elt F) (Rect.unit (s := S128x128) (k0_off8 g q 0#32) S1x16.size (k0_off8_inb g q 0)).toLoadRect fB) (vA.readAt (Elt F) (Rect.unit (s := S128x128) (k0_off9 g q 0#32) S1x16.size (k0_off9_inb g q 0)).toLoadRect fA) (vB.readAt (Elt F) (Rect.unit (s := S128x128) (k0_off9 g q 0#32) S1x16.size (k0_off9_inb g q 0)).toLoadRect fB)) (ix1 j)
      = Cert.Spec.lanePart (vrow vA fA R) (vrow vB fB R) j := by
  have ea0 := readAt_row vA fA (k0_off2 g q 0#32) (k0_off2_inb g q 0) R (16 * 0) j (by have := j.isLt; omega) (hR ▸ congrFun (k0_off2_eq g q ⟨0, by decide⟩) 0) (congrFun (k0_off2_eq g q ⟨0, by decide⟩) 1)
  have eb0 := readAt_row vB fB (k0_off2 g q 0#32) (k0_off2_inb g q 0) R (16 * 0) j (by have := j.isLt; omega) (hR ▸ congrFun (k0_off2_eq g q ⟨0, by decide⟩) 0) (congrFun (k0_off2_eq g q ⟨0, by decide⟩) 1)
  have ea1 := readAt_row vA fA (k0_off3 g q 0#32) (k0_off3_inb g q 0) R (16 * 1) j (by have := j.isLt; omega) (hR ▸ congrFun (k0_off3_eq g q ⟨0, by decide⟩) 0) (congrFun (k0_off3_eq g q ⟨0, by decide⟩) 1)
  have eb1 := readAt_row vB fB (k0_off3 g q 0#32) (k0_off3_inb g q 0) R (16 * 1) j (by have := j.isLt; omega) (hR ▸ congrFun (k0_off3_eq g q ⟨0, by decide⟩) 0) (congrFun (k0_off3_eq g q ⟨0, by decide⟩) 1)
  have ea2 := readAt_row vA fA (k0_off4 g q 0#32) (k0_off4_inb g q 0) R (16 * 2) j (by have := j.isLt; omega) (hR ▸ congrFun (k0_off4_eq g q ⟨0, by decide⟩) 0) (congrFun (k0_off4_eq g q ⟨0, by decide⟩) 1)
  have eb2 := readAt_row vB fB (k0_off4 g q 0#32) (k0_off4_inb g q 0) R (16 * 2) j (by have := j.isLt; omega) (hR ▸ congrFun (k0_off4_eq g q ⟨0, by decide⟩) 0) (congrFun (k0_off4_eq g q ⟨0, by decide⟩) 1)
  have ea3 := readAt_row vA fA (k0_off5 g q 0#32) (k0_off5_inb g q 0) R (16 * 3) j (by have := j.isLt; omega) (hR ▸ congrFun (k0_off5_eq g q ⟨0, by decide⟩) 0) (congrFun (k0_off5_eq g q ⟨0, by decide⟩) 1)
  have eb3 := readAt_row vB fB (k0_off5 g q 0#32) (k0_off5_inb g q 0) R (16 * 3) j (by have := j.isLt; omega) (hR ▸ congrFun (k0_off5_eq g q ⟨0, by decide⟩) 0) (congrFun (k0_off5_eq g q ⟨0, by decide⟩) 1)
  have ea4 := readAt_row vA fA (k0_off6 g q 0#32) (k0_off6_inb g q 0) R (16 * 4) j (by have := j.isLt; omega) (hR ▸ congrFun (k0_off6_eq g q ⟨0, by decide⟩) 0) (congrFun (k0_off6_eq g q ⟨0, by decide⟩) 1)
  have eb4 := readAt_row vB fB (k0_off6 g q 0#32) (k0_off6_inb g q 0) R (16 * 4) j (by have := j.isLt; omega) (hR ▸ congrFun (k0_off6_eq g q ⟨0, by decide⟩) 0) (congrFun (k0_off6_eq g q ⟨0, by decide⟩) 1)
  have ea5 := readAt_row vA fA (k0_off7 g q 0#32) (k0_off7_inb g q 0) R (16 * 5) j (by have := j.isLt; omega) (hR ▸ congrFun (k0_off7_eq g q ⟨0, by decide⟩) 0) (congrFun (k0_off7_eq g q ⟨0, by decide⟩) 1)
  have eb5 := readAt_row vB fB (k0_off7 g q 0#32) (k0_off7_inb g q 0) R (16 * 5) j (by have := j.isLt; omega) (hR ▸ congrFun (k0_off7_eq g q ⟨0, by decide⟩) 0) (congrFun (k0_off7_eq g q ⟨0, by decide⟩) 1)
  have ea6 := readAt_row vA fA (k0_off8 g q 0#32) (k0_off8_inb g q 0) R (16 * 6) j (by have := j.isLt; omega) (hR ▸ congrFun (k0_off8_eq g q ⟨0, by decide⟩) 0) (congrFun (k0_off8_eq g q ⟨0, by decide⟩) 1)
  have eb6 := readAt_row vB fB (k0_off8 g q 0#32) (k0_off8_inb g q 0) R (16 * 6) j (by have := j.isLt; omega) (hR ▸ congrFun (k0_off8_eq g q ⟨0, by decide⟩) 0) (congrFun (k0_off8_eq g q ⟨0, by decide⟩) 1)
  have ea7 := readAt_row vA fA (k0_off9 g q 0#32) (k0_off9_inb g q 0) R (16 * 7) j (by have := j.isLt; omega) (hR ▸ congrFun (k0_off9_eq g q ⟨0, by decide⟩) 0) (congrFun (k0_off9_eq g q ⟨0, by decide⟩) 1)
  have eb7 := readAt_row vB fB (k0_off9 g q 0#32) (k0_off9_inb g q 0) R (16 * 7) j (by have := j.isLt; omega) (hR ▸ congrFun (k0_off9_eq g q ⟨0, by decide⟩) 0) (congrFun (k0_off9_eq g q ⟨0, by decide⟩) 1)
  simp only [k0_pay14, k0_pay8, k0_pay9, k0_pay10, k0_pay11, k0_pay12, k0_pay13, mulf, addf, shapeCast_1a_a_apply, ea0, ea1, ea2, ea3, ea4, ea5, ea6, ea7, eb0, eb1, eb2, eb3, eb4, eb5, eb6, eb7]
  rfl

/-- Row 1 of a trip's four: the stored vector's lane j is the lane sum of row 16·g + 4·q + 1 of the two scratches. -/
theorem row1_eq (g : Fin k0_t1_loop.trips) (q : Fin k0_t2_loop.trips) (R : Fin 128) (hR : R.val = 16 * g.val + 4 * q.val + 1) (j : Fin 16) :
    (k0_pay21 (k0_pay18 (vA.readAt (Elt F) (Rect.unit (s := S128x128) (k0_off6 g q 1#32) S1x16.size (k0_off6_inb g q 1)).toLoadRect fA) (vB.readAt (Elt F) (Rect.unit (s := S128x128) (k0_off6 g q 1#32) S1x16.size (k0_off6_inb g q 1)).toLoadRect fB) (vA.readAt (Elt F) (Rect.unit (s := S128x128) (k0_off7 g q 1#32) S1x16.size (k0_off7_inb g q 1)).toLoadRect fA) (vB.readAt (Elt F) (Rect.unit (s := S128x128) (k0_off7 g q 1#32) S1x16.size (k0_off7_inb g q 1)).toLoadRect fB)) (k0_pay19 (vA.readAt (Elt F) (Rect.unit (s := S128x128) (k0_off8 g q 1#32) S1x16.size (k0_off8_inb g q 1)).toLoadRect fA) (vB.readAt (Elt F) (Rect.unit (s := S128x128) (k0_off8 g q 1#32) S1x16.size (k0_off8_inb g q 1)).toLoadRect fB) (vA.readAt (Elt F) (Rect.unit (s := S128x128) (k0_off9 g q 1#32) S1x16.size (k0_off9_inb g q 1)).toLoadRect fA) (vB.readAt (Elt F) (Rect.unit (s := S128x128) (k0_off9 g q 1#32) S1x16.size (k0_off9_inb g q 1)).toLoadRect fB)) (k0_pay20 (k0_pay15 (vA.readAt (Elt F) (Rect.unit (s := S128x128) (k0_off2 g q 1#32) S1x16.size (k0_off2_inb g q 1)).toLoadRect fA) (vB.readAt (Elt F) (Rect.unit (s := S128x128) (k0_off2 g q 1#32) S1x16.size (k0_off2_inb g q 1)).toLoadRect fB)) (k0_pay16 (vA.readAt (Elt F) (Rect.unit (s := S128x128) (k0_off3 g q 1#32) S1x16.size (k0_off3_inb g q 1)).toLoadRect fA)) (k0_pay17 (vB.readAt (Elt F) (Rect.unit (s := S128x128) (k0_off3 g q 1#32) S1x16.size (k0_off3_inb g q 1)).toLoadRect fB)) (vA.readAt (Elt F) (Rect.unit (s := S128x128) (k0_off4 g q 1#32) S1x16.size (k0_off4_inb g q 1)).toLoadRect fA) (vB.readAt (Elt F) (Rect.unit (s := S128x128) (k0_off4 g q 1#32) S1x16.size (k0_off4_inb g q 1)).toLoadRect fB) (vA.readAt (Elt F) (Rect.unit (s := S128x128) (k0_off5 g q 1#32) S1x16.size (k0_off5_inb g q 1)).toLoadRect fA) (vB.readAt (Elt F) (Rect.unit (s := S128x128) (k0_off5 g q 1#32) S1x16.size (k0_off5_inb g q 1)).toLoadRect fB))) (ix1 j)
      = Cert.Spec.lanePart (vrow vA fA R) (vrow vB fB R) j := by
  have ea0 := readAt_row vA fA (k0_off2 g q 1#32) (k0_off2_inb g q 1) R (16 * 0) j (by have := j.isLt; omega) (hR ▸ congrFun (k0_off2_eq g q ⟨1, by decide⟩) 0) (congrFun (k0_off2_eq g q ⟨1, by decide⟩) 1)
  have eb0 := readAt_row vB fB (k0_off2 g q 1#32) (k0_off2_inb g q 1) R (16 * 0) j (by have := j.isLt; omega) (hR ▸ congrFun (k0_off2_eq g q ⟨1, by decide⟩) 0) (congrFun (k0_off2_eq g q ⟨1, by decide⟩) 1)
  have ea1 := readAt_row vA fA (k0_off3 g q 1#32) (k0_off3_inb g q 1) R (16 * 1) j (by have := j.isLt; omega) (hR ▸ congrFun (k0_off3_eq g q ⟨1, by decide⟩) 0) (congrFun (k0_off3_eq g q ⟨1, by decide⟩) 1)
  have eb1 := readAt_row vB fB (k0_off3 g q 1#32) (k0_off3_inb g q 1) R (16 * 1) j (by have := j.isLt; omega) (hR ▸ congrFun (k0_off3_eq g q ⟨1, by decide⟩) 0) (congrFun (k0_off3_eq g q ⟨1, by decide⟩) 1)
  have ea2 := readAt_row vA fA (k0_off4 g q 1#32) (k0_off4_inb g q 1) R (16 * 2) j (by have := j.isLt; omega) (hR ▸ congrFun (k0_off4_eq g q ⟨1, by decide⟩) 0) (congrFun (k0_off4_eq g q ⟨1, by decide⟩) 1)
  have eb2 := readAt_row vB fB (k0_off4 g q 1#32) (k0_off4_inb g q 1) R (16 * 2) j (by have := j.isLt; omega) (hR ▸ congrFun (k0_off4_eq g q ⟨1, by decide⟩) 0) (congrFun (k0_off4_eq g q ⟨1, by decide⟩) 1)
  have ea3 := readAt_row vA fA (k0_off5 g q 1#32) (k0_off5_inb g q 1) R (16 * 3) j (by have := j.isLt; omega) (hR ▸ congrFun (k0_off5_eq g q ⟨1, by decide⟩) 0) (congrFun (k0_off5_eq g q ⟨1, by decide⟩) 1)
  have eb3 := readAt_row vB fB (k0_off5 g q 1#32) (k0_off5_inb g q 1) R (16 * 3) j (by have := j.isLt; omega) (hR ▸ congrFun (k0_off5_eq g q ⟨1, by decide⟩) 0) (congrFun (k0_off5_eq g q ⟨1, by decide⟩) 1)
  have ea4 := readAt_row vA fA (k0_off6 g q 1#32) (k0_off6_inb g q 1) R (16 * 4) j (by have := j.isLt; omega) (hR ▸ congrFun (k0_off6_eq g q ⟨1, by decide⟩) 0) (congrFun (k0_off6_eq g q ⟨1, by decide⟩) 1)
  have eb4 := readAt_row vB fB (k0_off6 g q 1#32) (k0_off6_inb g q 1) R (16 * 4) j (by have := j.isLt; omega) (hR ▸ congrFun (k0_off6_eq g q ⟨1, by decide⟩) 0) (congrFun (k0_off6_eq g q ⟨1, by decide⟩) 1)
  have ea5 := readAt_row vA fA (k0_off7 g q 1#32) (k0_off7_inb g q 1) R (16 * 5) j (by have := j.isLt; omega) (hR ▸ congrFun (k0_off7_eq g q ⟨1, by decide⟩) 0) (congrFun (k0_off7_eq g q ⟨1, by decide⟩) 1)
  have eb5 := readAt_row vB fB (k0_off7 g q 1#32) (k0_off7_inb g q 1) R (16 * 5) j (by have := j.isLt; omega) (hR ▸ congrFun (k0_off7_eq g q ⟨1, by decide⟩) 0) (congrFun (k0_off7_eq g q ⟨1, by decide⟩) 1)
  have ea6 := readAt_row vA fA (k0_off8 g q 1#32) (k0_off8_inb g q 1) R (16 * 6) j (by have := j.isLt; omega) (hR ▸ congrFun (k0_off8_eq g q ⟨1, by decide⟩) 0) (congrFun (k0_off8_eq g q ⟨1, by decide⟩) 1)
  have eb6 := readAt_row vB fB (k0_off8 g q 1#32) (k0_off8_inb g q 1) R (16 * 6) j (by have := j.isLt; omega) (hR ▸ congrFun (k0_off8_eq g q ⟨1, by decide⟩) 0) (congrFun (k0_off8_eq g q ⟨1, by decide⟩) 1)
  have ea7 := readAt_row vA fA (k0_off9 g q 1#32) (k0_off9_inb g q 1) R (16 * 7) j (by have := j.isLt; omega) (hR ▸ congrFun (k0_off9_eq g q ⟨1, by decide⟩) 0) (congrFun (k0_off9_eq g q ⟨1, by decide⟩) 1)
  have eb7 := readAt_row vB fB (k0_off9 g q 1#32) (k0_off9_inb g q 1) R (16 * 7) j (by have := j.isLt; omega) (hR ▸ congrFun (k0_off9_eq g q ⟨1, by decide⟩) 0) (congrFun (k0_off9_eq g q ⟨1, by decide⟩) 1)
  simp only [k0_pay21, k0_pay18, k0_pay19, k0_pay20, k0_pay15, k0_pay16, k0_pay17, mulf, addf, shapeCast_1a_a_apply, ea0, ea1, ea2, ea3, ea4, ea5, ea6, ea7, eb0, eb1, eb2, eb3, eb4, eb5, eb6, eb7]
  rfl

/-- Row 2 of a trip's four: the stored vector's lane j is the lane sum of row 16·g + 4·q + 2 of the two scratches. -/
theorem row2_eq (g : Fin k0_t1_loop.trips) (q : Fin k0_t2_loop.trips) (R : Fin 128) (hR : R.val = 16 * g.val + 4 * q.val + 2) (j : Fin 16) :
    (k0_pay27 (k0_pay22 (vA.readAt (Elt F) (Rect.unit (s := S128x128) (k0_off2 g q 2#32) S1x16.size (k0_off2_inb g q 2)).toLoadRect fA) (vB.readAt (Elt F) (Rect.unit (s := S128x128) (k0_off2 g q 2#32) S1x16.size (k0_off2_inb g q 2)).toLoadRect fB)) (k0_pay23 (vA.readAt (Elt F) (Rect.unit (s := S128x128) (k0_off3 g q 2#32) S1x16.size (k0_off3_inb g q 2)).toLoadRect fA) (vB.readAt (Elt F) (Rect.unit (s := S128x128) (k0_off3 g q 2#32) S1x16.size (k0_off3_inb g q 2)).toLoadRect fB)) (k0_pay24 (vA.readAt (Elt F) (Rect.unit (s := S128x128) (k0_off4 g q 2#32) S1x16.size (k0_off4_inb g q 2)).toLoadRect fA) (vB.readAt (Elt F) (Rect.unit (s := S128x128) (k0_off4 g q 2#32) S1x16.size (k0_off4_inb g q 2)).toLoadRect fB)) (k0_pay25 (vA.readAt (Elt F) (Rect.unit (s := S128x128) (k0_off5 g q 2#32) S1x16.size (k0_off5_inb g q 2)).toLoadRect fA) (vB.readAt (Elt F) (Rect.unit (s := S128x128) (k0_off5 g q 2#32) S1x16.size (k0_off5_inb g q 2)).toLoadRect fB)) (k0_pay26 (vA.readAt (Elt F) (Rect.unit (s := S128x128) (k0_off6 g q 2#32) S1x16.size (k0_off6_inb g q 2)).toLoadRect fA)) (vB.readAt (Elt F) (Rect.unit (s := S128x128) (k0_off6 g q 2#32) S1x16.size (k0_off6_inb g q 2)).toLoadRect fB) (vA.readAt (Elt F) (Rect.unit (s := S128x128) (k0_off7 g q 2#32) S1x16.size (k0_off7_inb g q 2)).toLoadRect fA) (vB.readAt (Elt F) (Rect.unit (s := S128x128) (k0_off7 g q 2#32) S1x16.size (k0_off7_inb g q 2)).toLoadRect fB) (vA.readAt (Elt F) (Rect.unit (s := S128x128) (k0_off8 g q 2#32) S1x16.size (k0_off8_inb g q 2)).toLoadRect fA) (vB.readAt (Elt F) (Rect.unit (s := S128x128) (k0_off8 g q 2#32) S1x16.size (k0_off8_inb g q 2)).toLoadRect fB) (vA.readAt (Elt F) (Rect.unit (s := S128x128) (k0_off9 g q 2#32) S1x16.size (k0_off9_inb g q 2)).toLoadRect fA) (vB.readAt (Elt F) (Rect.unit (s := S128x128) (k0_off9 g q 2#32) S1x16.size (k0_off9_inb g q 2)).toLoadRect fB)) (ix1 j)
      = Cert.Spec.lanePart (vrow vA fA R) (vrow vB fB R) j := by
  have ea0 := readAt_row vA fA (k0_off2 g q 2#32) (k0_off2_inb g q 2) R (16 * 0) j (by have := j.isLt; omega) (hR ▸ congrFun (k0_off2_eq g q ⟨2, by decide⟩) 0) (congrFun (k0_off2_eq g q ⟨2, by decide⟩) 1)
  have eb0 := readAt_row vB fB (k0_off2 g q 2#32) (k0_off2_inb g q 2) R (16 * 0) j (by have := j.isLt; omega) (hR ▸ congrFun (k0_off2_eq g q ⟨2, by decide⟩) 0) (congrFun (k0_off2_eq g q ⟨2, by decide⟩) 1)
  have ea1 := readAt_row vA fA (k0_off3 g q 2#32) (k0_off3_inb g q 2) R (16 * 1) j (by have := j.isLt; omega) (hR ▸ congrFun (k0_off3_eq g q ⟨2, by decide⟩) 0) (congrFun (k0_off3_eq g q ⟨2, by decide⟩) 1)
  have eb1 := readAt_row vB fB (k0_off3 g q 2#32) (k0_off3_inb g q 2) R (16 * 1) j (by have := j.isLt; omega) (hR ▸ congrFun (k0_off3_eq g q ⟨2, by decide⟩) 0) (congrFun (k0_off3_eq g q ⟨2, by decide⟩) 1)
  have ea2 := readAt_row vA fA (k0_off4 g q 2#32) (k0_off4_inb g q 2) R (16 * 2) j (by have := j.isLt; omega) (hR ▸ congrFun (k0_off4_eq g q ⟨2, by decide⟩) 0) (congrFun (k0_off4_eq g q ⟨2, by decide⟩) 1)
  have eb2 := readAt_row vB fB (k0_off4 g q 2#32) (k0_off4_inb g q 2) R (16 * 2) j (by have := j.isLt; omega) (hR ▸ congrFun (k0_off4_eq g q ⟨2, by decide⟩) 0) (congrFun (k0_off4_eq g q ⟨2, by decide⟩) 1)
  have ea3 := readAt_row vA fA (k0_off5 g q 2#32) (k0_off5_inb g q 2) R (16 * 3) j (by have := j.isLt; omega) (hR ▸ congrFun (k0_off5_eq g q ⟨2, by decide⟩) 0) (congrFun (k0_off5_eq g q ⟨2, by decide⟩) 1)
  have eb3 := readAt_row vB fB (k0_off5 g q 2#32) (k0_off5_inb g q 2) R (16 * 3) j (by have := j.isLt; omega) (hR ▸ congrFun (k0_off5_eq g q ⟨2, by decide⟩) 0) (congrFun (k0_off5_eq g q ⟨2, by decide⟩) 1)
  have ea4 := readAt_row vA fA (k0_off6 g q 2#32) (k0_off6_inb g q 2) R (16 * 4) j (by have := j.isLt; omega) (hR ▸ congrFun (k0_off6_eq g q ⟨2, by decide⟩) 0) (congrFun (k0_off6_eq g q ⟨2, by decide⟩) 1)
  have eb4 := readAt_row vB fB (k0_off6 g q 2#32) (k0_off6_inb g q 2) R (16 * 4) j (by have := j.isLt; omega) (hR ▸ congrFun (k0_off6_eq g q ⟨2, by decide⟩) 0) (congrFun (k0_off6_eq g q ⟨2, by decide⟩) 1)
  have ea5 := readAt_row vA fA (k0_off7 g q 2#32) (k0_off7_inb g q 2) R (16 * 5) j (by have := j.isLt; omega) (hR ▸ congrFun (k0_off7_eq g q ⟨2, by decide⟩) 0) (congrFun (k0_off7_eq g q ⟨2, by decide⟩) 1)
  have eb5 := readAt_row vB fB (k0_off7 g q 2#32) (k0_off7_inb g q 2) R (16 * 5) j (by have := j.isLt; omega) (hR ▸ congrFun (k0_off7_eq g q ⟨2, by decide⟩) 0) (congrFun (k0_off7_eq g q ⟨2, by decide⟩) 1)
  have ea6 := readAt_row vA fA (k0_off8 g q 2#32) (k0_off8_inb g q 2) R (16 * 6) j (by have := j.isLt; omega) (hR ▸ congrFun (k0_off8_eq g q ⟨2, by decide⟩) 0) (congrFun (k0_off8_eq g q ⟨2, by decide⟩) 1)
  have eb6 := readAt_row vB fB (k0_off8 g q 2#32) (k0_off8_inb g q 2) R (16 * 6) j (by have := j.isLt; omega) (hR ▸ congrFun (k0_off8_eq g q ⟨2, by decide⟩) 0) (congrFun (k0_off8_eq g q ⟨2, by decide⟩) 1)
  have ea7 := readAt_row vA fA (k0_off9 g q 2#32) (k0_off9_inb g q 2) R (16 * 7) j (by have := j.isLt; omega) (hR ▸ congrFun (k0_off9_eq g q ⟨2, by decide⟩) 0) (congrFun (k0_off9_eq g q ⟨2, by decide⟩) 1)
  have eb7 := readAt_row vB fB (k0_off9 g q 2#32) (k0_off9_inb g q 2) R (16 * 7) j (by have := j.isLt; omega) (hR ▸ congrFun (k0_off9_eq g q ⟨2, by decide⟩) 0) (congrFun (k0_off9_eq g q ⟨2, by decide⟩) 1)
  simp only [k0_pay27, k0_pay22, k0_pay23, k0_pay24, k0_pay25, k0_pay26, mulf, addf, shapeCast_1a_a_apply, ea0, ea1, ea2, ea3, ea4, ea5, ea6, ea7, eb0, eb1, eb2, eb3, eb4, eb5, eb6, eb7]
  rfl

/-- Row 3 of a trip's four: the stored vector's lane j is the lane sum of row 16·g + 4·q + 3 of the two scratches. -/
theorem row3_eq (g : Fin k0_t1_loop.trips) (q : Fin k0_t2_loop.trips) (R : Fin 128) (hR : R.val = 16 * g.val + 4 * q.val + 3) (j : Fin 16) :
    (k0_pay37 (k0_pay29 (k0_pay28 (vA.readAt (Elt F) (Rect.unit (s := S128x128) (k0_off2 g q 3#32) S1x16.size (k0_off2_inb g q 3)).toLoadRect fA)) (vB.readAt (Elt F) (Rect.unit (s := S128x128) (k0_off2 g q 3#32) S1x16.size (k0_off2_inb g q 3)).toLoadRect fB)) (k0_pay30 (vA.readAt (Elt F) (Rect.unit (s := S128x128) (k0_off3 g q 3#32) S1x16.size (k0_off3_inb g q 3)).toLoadRect fA) (vB.readAt (Elt F) (Rect.unit (s := S128x128) (k0_off3 g q 3#32) S1x16.size (k0_off3_inb g q 3)).toLoadRect fB)) (k0_pay31 (vA.readAt (Elt F) (Rect.unit (s := S128x128) (k0_off4 g q 3#32) S1x16.size (k0_off4_inb g q 3)).toLoadRect fA) (vB.readAt (Elt F) (Rect.unit (s := S128x128) (k0_off4 g q 3#32) S1x16.size (k0_off4_inb g q 3)).toLoadRect fB)) (k0_pay32 (vA.readAt (Elt F) (Rect.unit (s := S128x128) (k0_off5 g q 3#32) S1x16.size (k0_off5_inb g q 3)).toLoadRect fA) (vB.readAt (Elt F) (Rect.unit (s := S128x128) (k0_off5 g q 3#32) S1x16.size (k0_off5_inb g q 3)).toLoadRect fB)) (k0_pay33 (vA.readAt (Elt F) (Rect.unit (s := S128x128) (k0_off6 g q 3#32) S1x16.size (k0_off6_inb g q 3)).toLoadRect fA) (vB.readAt (Elt F) (Rect.unit (s := S128x128) (k0_off6 g q 3#32) S1x16.size (k0_off6_inb g q 3)).toLoadRect fB)) (k0_pay34 (vA.readAt (Elt F) (Rect.unit (s := S128x128) (k0_off7 g q 3#32) S1x16.size (k0_off7_inb g q 3)).toLoadRect fA) (vB.readAt (Elt F) (Rect.unit (s := S128x128) (k0_off7 g q 3#32) S1x16.size (k0_off7_inb g q 3)).toLoadRect fB)) (k0_pay35 (vA.readAt (Elt F) (Rect.unit (s := S128x128) (k0_off8 g q 3#32) S1x16.size (k0_off8_inb g q 3)).toLoadRect fA) (vB.readAt (Elt F) (Rect.unit (s := S128x128) (k0_off8 g q 3#32) S1x16.size (k0_off8_inb g q 3)).toLoadRect fB)) (k0_pay36 (vA.readAt (Elt F) (Rect.unit (s := S128x128) (k0_off9 g q 3#32) S1x16.size (k0_off9_inb g q 3)).toLoadRect fA)) (vB.readAt (Elt F) (Rect.unit (s := S128x128) (k0_off9 g q 3#32) S1x16.size (k0_off9_inb g q 3)).toLoadRect fB)) (ix1 j)
      = Cert.Spec.lanePart (vrow vA fA R) (vrow vB fB R) j := by
  have ea0 := readAt_row vA fA (k0_off2 g q 3#32) (k0_off2_inb g q 3) R (16 * 0) j (by have := j.isLt; omega) (hR ▸ congrFun (k0_off2_eq g q ⟨3, by decide⟩) 0) (congrFun (k0_off2_eq g q ⟨3, by decide⟩) 1)
  have eb0 := readAt_row vB fB (k0_off2 g q 3#32) (k0_off2_inb g q 3) R (16 * 0) j (by have := j.isLt; omega) (hR ▸ congrFun (k0_off2_eq g q ⟨3, by decide⟩) 0) (congrFun (k0_off2_eq g q ⟨3, by decide⟩) 1)
  have ea1 := readAt_row vA fA (k0_off3 g q 3#32) (k0_off3_inb g q 3) R (16 * 1) j (by have := j.isLt; omega) (hR ▸ congrFun (k0_off3_eq g q ⟨3, by decide⟩) 0) (congrFun (k0_off3_eq g q ⟨3, by decide⟩) 1)
  have eb1 := readAt_row vB fB (k0_off3 g q 3#32) (k0_off3_inb g q 3) R (16 * 1) j (by have := j.isLt; omega) (hR ▸ congrFun (k0_off3_eq g q ⟨3, by decide⟩) 0) (congrFun (k0_off3_eq g q ⟨3, by decide⟩) 1)
  have ea2 := readAt_row vA fA (k0_off4 g q 3#32) (k0_off4_inb g q 3) R (16 * 2) j (by have := j.isLt; omega) (hR ▸ congrFun (k0_off4_eq g q ⟨3, by decide⟩) 0) (congrFun (k0_off4_eq g q ⟨3, by decide⟩) 1)
  have eb2 := readAt_row vB fB (k0_off4 g q 3#32) (k0_off4_inb g q 3) R (16 * 2) j (by have := j.isLt; omega) (hR ▸ congrFun (k0_off4_eq g q ⟨3, by decide⟩) 0) (congrFun (k0_off4_eq g q ⟨3, by decide⟩) 1)
  have ea3 := readAt_row vA fA (k0_off5 g q 3#32) (k0_off5_inb g q 3) R (16 * 3) j (by have := j.isLt; omega) (hR ▸ congrFun (k0_off5_eq g q ⟨3, by decide⟩) 0) (congrFun (k0_off5_eq g q ⟨3, by decide⟩) 1)
  have eb3 := readAt_row vB fB (k0_off5 g q 3#32) (k0_off5_inb g q 3) R (16 * 3) j (by have := j.isLt; omega) (hR ▸ congrFun (k0_off5_eq g q ⟨3, by decide⟩) 0) (congrFun (k0_off5_eq g q ⟨3, by decide⟩) 1)
  have ea4 := readAt_row vA fA (k0_off6 g q 3#32) (k0_off6_inb g q 3) R (16 * 4) j (by have := j.isLt; omega) (hR ▸ congrFun (k0_off6_eq g q ⟨3, by decide⟩) 0) (congrFun (k0_off6_eq g q ⟨3, by decide⟩) 1)
  have eb4 := readAt_row vB fB (k0_off6 g q 3#32) (k0_off6_inb g q 3) R (16 * 4) j (by have := j.isLt; omega) (hR ▸ congrFun (k0_off6_eq g q ⟨3, by decide⟩) 0) (congrFun (k0_off6_eq g q ⟨3, by decide⟩) 1)
  have ea5 := readAt_row vA fA (k0_off7 g q 3#32) (k0_off7_inb g q 3) R (16 * 5) j (by have := j.isLt; omega) (hR ▸ congrFun (k0_off7_eq g q ⟨3, by decide⟩) 0) (congrFun (k0_off7_eq g q ⟨3, by decide⟩) 1)
  have eb5 := readAt_row vB fB (k0_off7 g q 3#32) (k0_off7_inb g q 3) R (16 * 5) j (by have := j.isLt; omega) (hR ▸ congrFun (k0_off7_eq g q ⟨3, by decide⟩) 0) (congrFun (k0_off7_eq g q ⟨3, by decide⟩) 1)
  have ea6 := readAt_row vA fA (k0_off8 g q 3#32) (k0_off8_inb g q 3) R (16 * 6) j (by have := j.isLt; omega) (hR ▸ congrFun (k0_off8_eq g q ⟨3, by decide⟩) 0) (congrFun (k0_off8_eq g q ⟨3, by decide⟩) 1)
  have eb6 := readAt_row vB fB (k0_off8 g q 3#32) (k0_off8_inb g q 3) R (16 * 6) j (by have := j.isLt; omega) (hR ▸ congrFun (k0_off8_eq g q ⟨3, by decide⟩) 0) (congrFun (k0_off8_eq g q ⟨3, by decide⟩) 1)
  have ea7 := readAt_row vA fA (k0_off9 g q 3#32) (k0_off9_inb g q 3) R (16 * 7) j (by have := j.isLt; omega) (hR ▸ congrFun (k0_off9_eq g q ⟨3, by decide⟩) 0) (congrFun (k0_off9_eq g q ⟨3, by decide⟩) 1)
  have eb7 := readAt_row vB fB (k0_off9 g q 3#32) (k0_off9_inb g q 3) R (16 * 7) j (by have := j.isLt; omega) (hR ▸ congrFun (k0_off9_eq g q ⟨3, by decide⟩) 0) (congrFun (k0_off9_eq g q ⟨3, by decide⟩) 1)
  simp only [k0_pay37, k0_pay29, k0_pay28, k0_pay30, k0_pay31, k0_pay32, k0_pay33, k0_pay34, k0_pay35, k0_pay36, mulf, addf, shapeCast_1a_a_apply, ea0, ea1, ea2, ea3, ea4, ea5, ea6, ea7, eb0, eb1, eb2, eb3, eb4, eb5, eb6, eb7]
  rfl

end Pay

/-- The group's stored vector: lane i is the balanced sum of sixteen of the sixteen reads' lanes i. -/
theorem pay7_eq (p : Fin 16 → F .f32) (i : Fin 16)
    (v0 v1 v2 v3 v4 v5 v6 v7 v8 v9 v10 v11 v12 v13 v14 v15 : Vec F S16 .f32)
    (h0 : v0 (ix1 i) = p 0) (h1 : v1 (ix1 i) = p 1) (h2 : v2 (ix1 i) = p 2) (h3 : v3 (ix1 i) = p 3)
    (h4 : v4 (ix1 i) = p 4) (h5 : v5 (ix1 i) = p 5) (h6 : v6 (ix1 i) = p 6) (h7 : v7 (ix1 i) = p 7)
    (h8 : v8 (ix1 i) = p 8) (h9 : v9 (ix1 i) = p 9) (h10 : v10 (ix1 i) = p 10) (h11 : v11 (ix1 i) = p 11)
    (h12 : v12 (ix1 i) = p 12) (h13 : v13 (ix1 i) = p 13) (h14 : v14 (ix1 i) = p 14) (h15 : v15 (ix1 i) = p 15) :
    k0_pay7 v0 v1 v2 v3 v4 v5 v6 v7 v8 v9 v10 v11 v12 v13 v14 v15 (ix1 i) = Cert.Spec.sum16 p := by
  simp only [k0_pay7, addf, h0, h1, h2, h3, h4, h5, h6, h7, h8, h9, h10, h11, h12, h13, h14, h15]
  rfl

/-! ## The index vectors -/

theorem idx_val_0 : ∀ i : Fin 16, (((k0_pay38 k0_pay1) : IVec S16 32) (ix1 i)).toNat = 16 * i.val + 0 := by decide +kernel
theorem idx_val_1 : ∀ i : Fin 16, (((k0_pay39 k0_pay1) : IVec S16 32) (ix1 i)).toNat = 16 * i.val + 1 := by decide +kernel
theorem idx_val_2 : ∀ i : Fin 16, (((k0_pay40 k0_pay1) : IVec S16 32) (ix1 i)).toNat = 16 * i.val + 2 := by decide +kernel
theorem idx_val_3 : ∀ i : Fin 16, (((k0_pay41 k0_pay1) : IVec S16 32) (ix1 i)).toNat = 16 * i.val + 3 := by decide +kernel
theorem idx_val_4 : ∀ i : Fin 16, (((k0_pay42 k0_pay1) : IVec S16 32) (ix1 i)).toNat = 16 * i.val + 4 := by decide +kernel
theorem idx_val_5 : ∀ i : Fin 16, (((k0_pay43 k0_pay1) : IVec S16 32) (ix1 i)).toNat = 16 * i.val + 5 := by decide +kernel
theorem idx_val_6 : ∀ i : Fin 16, (((k0_pay44 k0_pay1) : IVec S16 32) (ix1 i)).toNat = 16 * i.val + 6 := by decide +kernel
theorem idx_val_7 : ∀ i : Fin 16, (((k0_pay45 k0_pay1) : IVec S16 32) (ix1 i)).toNat = 16 * i.val + 7 := by decide +kernel
theorem idx_val_8 : ∀ i : Fin 16, (((k0_pay46 k0_pay1) : IVec S16 32) (ix1 i)).toNat = 16 * i.val + 8 := by decide +kernel
theorem idx_val_9 : ∀ i : Fin 16, (((k0_pay47 k0_pay1) : IVec S16 32) (ix1 i)).toNat = 16 * i.val + 9 := by decide +kernel
theorem idx_val_10 : ∀ i : Fin 16, (((addi k0_pay1 k0_pay48) : IVec S16 32) (ix1 i)).toNat = 16 * i.val + 10 := by decide +kernel
theorem idx_val_11 : ∀ i : Fin 16, ((k0_pay2 : IVec S16 32) (ix1 i)).toNat = 16 * i.val + 11 := by decide +kernel
theorem idx_val_12 : ∀ i : Fin 16, ((k0_pay3 : IVec S16 32) (ix1 i)).toNat = 16 * i.val + 12 := by decide +kernel
theorem idx_val_13 : ∀ i : Fin 16, ((k0_pay4 : IVec S16 32) (ix1 i)).toNat = 16 * i.val + 13 := by decide +kernel
theorem idx_val_14 : ∀ i : Fin 16, ((k0_pay5 : IVec S16 32) (ix1 i)).toNat = 16 * i.val + 14 := by decide +kernel
theorem idx_val_15 : ∀ i : Fin 16, ((k0_pay6 : IVec S16 32) (ix1 i)).toNat = 16 * i.val + 15 := by decide +kernel

/-- An index vector whose lane i is 16·i + j names words of the 256-word scratch. -/
theorem chk_of_val (v : IVec S16 32) (j : Nat) (hj : j < 16) (hv : ∀ i : Fin 16, (v (ix1 i)).toNat = 16 * i.val + j) :
    ∀ a x, ((![v] : Fin 1 → IVec S16 32) a x).toNat < S256.size a := by
  intro a x
  obtain rfl : a = 0 := Subsingleton.elim _ _
  have hlt : (x 0).val < 16 := (x 0).isLt
  have hx : x = ix1 (⟨(x 0).val, hlt⟩ : Fin 16) := by
    funext d; obtain rfl : d = 0 := Subsingleton.elim _ _; rfl
  have h := hv ⟨(x 0).val, hlt⟩
  rw [← hx] at h
  show (v x).toNat < 256
  rw [h]; show 16 * (x 0).val + j < 256; omega

/-- The indexed load of the 256 words through such a vector: lane i reads word 16·i + j. -/
theorem loadIdx_lane (X : Vec F S256 .f32) (v : IVec S16 32) (h : ∀ a x, ((![v] : Fin 1 → IVec S16 32) a x).toNat < S256.size a)
    (j : Nat) (hv : ∀ i : Fin 16, (v (ix1 i)).toNat = 16 * i.val + j) (i : Fin 16) (hw : 16 * i.val + j < 256) :
    loadIdx X ![v] h (ix1 i) = X (ix1 ⟨16 * i.val + j, hw⟩) := by
  show X (idxAt ![v] h (ix1 i)) = _
  congr 1
  funext a; apply Fin.ext
  obtain rfl : a = 0 := Subsingleton.elim _ _
  exact hv i

/-- The group's stored vector over a 256-word scratch whose word 16·r + j is lane j of row r's partial sums: lane i is
    row i's dot. -/
theorem pay7_group (u v : Fin 16 → Fin 128 → F .f32) (X : Vec F S256 .f32)
    (hX : ∀ (r j : Fin 16) (hw : 16 * r.val + j.val < 256), X (ix1 ⟨16 * r.val + j.val, hw⟩) = Cert.Spec.lanePart (u r) (v r) j)
    (h0 : ∀ a x, ((![(k0_pay38 k0_pay1)] : Fin 1 → IVec S16 32) a x).toNat < S256.size a)
    (h1 : ∀ a x, ((![(k0_pay39 k0_pay1)] : Fin 1 → IVec S16 32) a x).toNat < S256.size a)
    (h2 : ∀ a x, ((![(k0_pay40 k0_pay1)] : Fin 1 → IVec S16 32) a x).toNat < S256.size a)
    (h3 : ∀ a x, ((![(k0_pay41 k0_pay1)] : Fin 1 → IVec S16 32) a x).toNat < S256.size a)
    (h4 : ∀ a x, ((![(k0_pay42 k0_pay1)] : Fin 1 → IVec S16 32) a x).toNat < S256.size a)
    (h5 : ∀ a x, ((![(k0_pay43 k0_pay1)] : Fin 1 → IVec S16 32) a x).toNat < S256.size a)
    (h6 : ∀ a x, ((![(k0_pay44 k0_pay1)] : Fin 1 → IVec S16 32) a x).toNat < S256.size a)
    (h7 : ∀ a x, ((![(k0_pay45 k0_pay1)] : Fin 1 → IVec S16 32) a x).toNat < S256.size a)
    (h8 : ∀ a x, ((![(k0_pay46 k0_pay1)] : Fin 1 → IVec S16 32) a x).toNat < S256.size a)
    (h9 : ∀ a x, ((![(k0_pay47 k0_pay1)] : Fin 1 → IVec S16 32) a x).toNat < S256.size a)
    (h10 : ∀ a x, ((![(addi k0_pay1 k0_pay48)] : Fin 1 → IVec S16 32) a x).toNat < S256.size a)
    (h11 : ∀ a x, ((![k0_pay2] : Fin 1 → IVec S16 32) a x).toNat < S256.size a)
    (h12 : ∀ a x, ((![k0_pay3] : Fin 1 → IVec S16 32) a x).toNat < S256.size a)
    (h13 : ∀ a x, ((![k0_pay4] : Fin 1 → IVec S16 32) a x).toNat < S256.size a)
    (h14 : ∀ a x, ((![k0_pay5] : Fin 1 → IVec S16 32) a x).toNat < S256.size a)
    (h15 : ∀ a x, ((![k0_pay6] : Fin 1 → IVec S16 32) a x).toNat < S256.size a)
    (i : Fin 16) :
    k0_pay7 (loadIdx X ![(k0_pay38 k0_pay1)] h0) (loadIdx X ![(k0_pay39 k0_pay1)] h1) (loadIdx X ![(k0_pay40 k0_pay1)] h2) (loadIdx X ![(k0_pay41 k0_pay1)] h3) (loadIdx X ![(k0_pay42 k0_pay1)] h4) (loadIdx X ![(k0_pay43 k0_pay1)] h5) (loadIdx X ![(k0_pay44 k0_pay1)] h6) (loadIdx X ![(k0_pay45 k0_pay1)] h7) (loadIdx X ![(k0_pay46 k0_pay1)] h8) (loadIdx X ![(k0_pay47 k0_pay1)] h9) (loadIdx X ![(addi k0_pay1 k0_pay48)] h10) (loadIdx X ![k0_pay2] h11) (loadIdx X ![k0_pay3] h12) (loadIdx X ![k0_pay4] h13) (loadIdx X ![k0_pay5] h14) (loadIdx X ![k0_pay6] h15) (ix1 i)
      = Cert.Spec.rowDot (u i) (v i) := by
  have hi := i.isLt
  exact pay7_eq (Cert.Spec.lanePart (u i) (v i)) i _ _ _ _ _ _ _ _ _ _ _ _ _ _ _ _
    ((loadIdx_lane X _ h0 0 idx_val_0 i (by omega)).trans (hX i ⟨0, by decide⟩ (by omega)))
    ((loadIdx_lane X _ h1 1 idx_val_1 i (by omega)).trans (hX i ⟨1, by decide⟩ (by omega)))
    ((loadIdx_lane X _ h2 2 idx_val_2 i (by omega)).trans (hX i ⟨2, by decide⟩ (by omega)))
    ((loadIdx_lane X _ h3 3 idx_val_3 i (by omega)).trans (hX i ⟨3, by decide⟩ (by omega)))
    ((loadIdx_lane X _ h4 4 idx_val_4 i (by omega)).trans (hX i ⟨4, by decide⟩ (by omega)))
    ((loadIdx_lane X _ h5 5 idx_val_5 i (by omega)).trans (hX i ⟨5, by decide⟩ (by omega)))
    ((loadIdx_lane X _ h6 6 idx_val_6 i (by omega)).trans (hX i ⟨6, by decide⟩ (by omega)))
    ((loadIdx_lane X _ h7 7 idx_val_7 i (by omega)).trans (hX i ⟨7, by decide⟩ (by omega)))
    ((loadIdx_lane X _ h8 8 idx_val_8 i (by omega)).trans (hX i ⟨8, by decide⟩ (by omega)))
    ((loadIdx_lane X _ h9 9 idx_val_9 i (by omega)).trans (hX i ⟨9, by decide⟩ (by omega)))
    ((loadIdx_lane X _ h10 10 idx_val_10 i (by omega)).trans (hX i ⟨10, by decide⟩ (by omega)))
    ((loadIdx_lane X _ h11 11 idx_val_11 i (by omega)).trans (hX i ⟨11, by decide⟩ (by omega)))
    ((loadIdx_lane X _ h12 12 idx_val_12 i (by omega)).trans (hX i ⟨12, by decide⟩ (by omega)))
    ((loadIdx_lane X _ h13 13 idx_val_13 i (by omega)).trans (hX i ⟨13, by decide⟩ (by omega)))
    ((loadIdx_lane X _ h14 14 idx_val_14 i (by omega)).trans (hX i ⟨14, by decide⟩ (by omega)))
    ((loadIdx_lane X _ h15 15 idx_val_15 i (by omega)).trans (hX i ⟨15, by decide⟩ (by omega)))

/-! ## The loops' invariants, and their steps -/

section Inv

variable {sig : RefSig} {κ κ' κP κD : Kind} {sp sp' spP spD : Space}
variable (vA : View sig κ sp S128x128 .f32) (fA : vA.ty.Contents (Elt F)) (vB : View sig κ' sp' S128x128 .f32) (fB : vB.ty.Contents (Elt F))

/-- Row r of group g, among the tile's 128 rows. -/
def rowIx (g : Fin k0_t1_loop.trips) (r : Fin 16) : Fin 128 :=
  ⟨16 * g.val + r.val, by have := g.isLt; have := k0_t1_abs.2.1; have := r.isLt; omega⟩

/-- Before trip q of group g's inner loop: the words below 64·q of the partial-sum scratch are the lane sums of the
    group's rows 0 … 4q − 1 (word 16·r + j: lane j of the group's row r). -/
def PartOK (vP : View sig κP spP S256 .f32) (g : Fin k0_t1_loop.trips) (q : Nat) (fP : vP.ty.Contents (Elt F)) : Prop :=
  ∀ (r j : Fin 16), r.val < 4 * q → ∀ hw : 16 * r.val + j.val < 256,
    vP.read (Elt F) fP (ix1 ⟨16 * r.val + j.val, hw⟩)
      = Cert.Spec.lanePart (vrow vA fA (rowIx g r)) (vrow vB fB (rowIx g r)) j

/-- Before group k: the words below 16·k of the dots scratch are the row dots of the tile's rows 0 … 16k − 1. -/
def DotOK (vD : View sig κD spD S128 .f32) (k : Nat) (fD : vD.ty.Contents (Elt F)) : Prop :=
  ∀ i : Fin 128, i.val < 16 * k → vD.read (Elt F) fD (ix1 i) = Cert.Spec.rowDot (vrow vA fA i) (vrow vB fB i)

theorem PartOK.zero (vP : View sig κP spP S256 .f32) (g : Fin k0_t1_loop.trips) (fP : vP.ty.Contents (Elt F)) :
    PartOK vA fA vB fB vP g 0 fP := fun r _ h => absurd h (by omega)

theorem DotOK.zero (vD : View sig κD spD S128 .f32) (fD : vD.ty.Contents (Elt F)) : DotOK vA fA vB fB vD 0 fD :=
  fun i h => absurd h (by omega)

/-- One trip of the inner loop: four stores of sixteen words at 64·q, 64·q + 16, 64·q + 32, 64·q + 48. -/
theorem PartOK.step (vP : View sig κP spP S256 .f32) (g : Fin k0_t1_loop.trips) (q : Fin k0_t2_loop.trips) (fP : vP.ty.Contents (Elt F))
    (hP : PartOK vA fA vB fB vP g q.val fP)
    (w0 : (Rect.unit (s := S256) (k0_off10 q 0#32) S16.size (k0_off10_inb q 0)).shape.Idx → Elt F .f32)
    (w1 : (Rect.unit (s := S256) (k0_off10 q 1#32) S16.size (k0_off10_inb q 1)).shape.Idx → Elt F .f32)
    (w2 : (Rect.unit (s := S256) (k0_off10 q 2#32) S16.size (k0_off10_inb q 2)).shape.Idx → Elt F .f32)
    (w3 : (Rect.unit (s := S256) (k0_off10 q 3#32) S16.size (k0_off10_inb q 3)).shape.Idx → Elt F .f32)
    (h0 : ∀ (R : Fin 128), R.val = 16 * g.val + 4 * q.val + 0 → ∀ j : Fin 16, w0 (ix1 j) = Cert.Spec.lanePart (vrow vA fA R) (vrow vB fB R) j)
    (h1 : ∀ (R : Fin 128), R.val = 16 * g.val + 4 * q.val + 1 → ∀ j : Fin 16, w1 (ix1 j) = Cert.Spec.lanePart (vrow vA fA R) (vrow vB fB R) j)
    (h2 : ∀ (R : Fin 128), R.val = 16 * g.val + 4 * q.val + 2 → ∀ j : Fin 16, w2 (ix1 j) = Cert.Spec.lanePart (vrow vA fA R) (vrow vB fB R) j)
    (h3 : ∀ (R : Fin 128), R.val = 16 * g.val + 4 * q.val + 3 → ∀ j : Fin 16, w3 (ix1 j) = Cert.Spec.lanePart (vrow vA fA R) (vrow vB fB R) j) :
    PartOK vA fA vB fB vP g (q.val + 1)
      (vP.writes (Elt F) fP [⟨Rect.unit (s := S256) (k0_off10 q 3#32) S16.size (k0_off10_inb q 3), w3⟩,
        ⟨Rect.unit (s := S256) (k0_off10 q 2#32) S16.size (k0_off10_inb q 2), w2⟩,
        ⟨Rect.unit (s := S256) (k0_off10 q 1#32) S16.size (k0_off10_inb q 1), w1⟩,
        ⟨Rect.unit (s := S256) (k0_off10 q 0#32) S16.size (k0_off10_inb q 0), w0⟩]) := by
  intro r j hr hw
  have hj := j.isLt
  have e0 : k0_off10 q 0#32 0 = 64 * q.val + 16 * 0 := congrFun (k0_off10_eq q ⟨0, by decide⟩) 0
  have e1 : k0_off10 q 1#32 0 = 64 * q.val + 16 * 1 := congrFun (k0_off10_eq q ⟨1, by decide⟩) 0
  have e2 : k0_off10 q 2#32 0 = 64 * q.val + 16 * 2 := congrFun (k0_off10_eq q ⟨2, by decide⟩) 0
  have e3 : k0_off10 q 3#32 0 = 64 * q.val + 16 * 3 := congrFun (k0_off10_eq q ⟨3, by decide⟩) 0
  have hRr : (rowIx g r).val = 16 * g.val + r.val := rfl
  by_cases c : r.val < 4 * q.val
  · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
      read_writes_unit_miss (N := 256) vP fP _ _ w2 _ ⟨16 * r.val + j.val, hw⟩ (by show 16 * r.val + j.val < k0_off10 q 2#32 0 ∨ k0_off10 q 2#32 0 + 16 ≤ 16 * r.val + j.val; omega),
      read_writes_unit_miss (N := 256) vP fP _ _ w1 _ ⟨16 * r.val + j.val, hw⟩ (by show 16 * r.val + j.val < k0_off10 q 1#32 0 ∨ k0_off10 q 1#32 0 + 16 ≤ 16 * r.val + j.val; omega),
      read_writes_unit_miss (N := 256) vP fP _ _ w0 _ ⟨16 * r.val + j.val, hw⟩ (by show 16 * r.val + j.val < k0_off10 q 0#32 0 ∨ k0_off10 q 0#32 0 + 16 ≤ 16 * r.val + j.val; omega)]
    exact hP r j c hw
  · have hc : r.val = 4 * q.val + 0 ∨ r.val = 4 * q.val + 1 ∨ r.val = 4 * q.val + 2 ∨ r.val = 4 * q.val + 3 := by omega
    rcases hc with h | h | h | h
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_miss (N := 256) vP fP _ _ w2 _ ⟨16 * r.val + j.val, hw⟩ (by show 16 * r.val + j.val < k0_off10 q 2#32 0 ∨ k0_off10 q 2#32 0 + 16 ≤ 16 * r.val + j.val; omega),
        read_writes_unit_miss (N := 256) vP fP _ _ w1 _ ⟨16 * r.val + j.val, hw⟩ (by show 16 * r.val + j.val < k0_off10 q 1#32 0 ∨ k0_off10 q 1#32 0 + 16 ≤ 16 * r.val + j.val; omega),
        read_writes_unit_hit (N := 256) vP fP _ _ w0 _ ⟨16 * r.val + j.val, hw⟩ j (by show 16 * r.val + j.val = k0_off10 q 0#32 0 + j.val; omega)]
      exact h0 (rowIx g r) (by omega) j
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_miss (N := 256) vP fP _ _ w2 _ ⟨16 * r.val + j.val, hw⟩ (by show 16 * r.val + j.val < k0_off10 q 2#32 0 ∨ k0_off10 q 2#32 0 + 16 ≤ 16 * r.val + j.val; omega),
        read_writes_unit_hit (N := 256) vP fP _ _ w1 _ ⟨16 * r.val + j.val, hw⟩ j (by show 16 * r.val + j.val = k0_off10 q 1#32 0 + j.val; omega)]
      exact h1 (rowIx g r) (by omega) j
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_hit (N := 256) vP fP _ _ w2 _ ⟨16 * r.val + j.val, hw⟩ j (by show 16 * r.val + j.val = k0_off10 q 2#32 0 + j.val; omega)]
      exact h2 (rowIx g r) (by omega) j
    · rw [read_writes_unit_hit (N := 256) vP fP _ _ w3 _ ⟨16 * r.val + j.val, hw⟩ j (by show 16 * r.val + j.val = k0_off10 q 3#32 0 + j.val; omega)]
      exact h3 (rowIx g r) (by omega) j

/-- One group: one store of sixteen words at 16·g. -/
theorem DotOK.step (vD : View sig κD spD S128 .f32) (g : Fin k0_t1_loop.trips) (fD : vD.ty.Contents (Elt F))
    (hD : DotOK vA fA vB fB vD g.val fD)
    (w : (Rect.unit (s := S128) (k0_off11 g) S16.size (k0_off11_inb g)).shape.Idx → Elt F .f32)
    (hw : ∀ i : Fin 16, w (ix1 i) = Cert.Spec.rowDot (vrow vA fA (rowIx g i)) (vrow vB fB (rowIx g i))) :
    DotOK vA fA vB fB vD (g.val + 1) (vD.writes (Elt F) fD [⟨Rect.unit (s := S128) (k0_off11 g) S16.size (k0_off11_inb g), w⟩]) := by
  intro i hi
  have e : k0_off11 g 0 = 16 * g.val := congrFun (k0_off11_eq g) 0
  by_cases c : i.val < 16 * g.val
  · rw [read_writes_unit_miss (N := 128) vD fD _ _ w [] i (by show i.val < k0_off11 g 0 ∨ k0_off11 g 0 + 16 ≤ i.val; omega)]
    exact hD i c
  · have hlt : i.val - 16 * g.val < 16 := by omega
    rw [read_writes_unit_hit (N := 128) vD fD _ _ w [] i ⟨i.val - 16 * g.val, hlt⟩ (by show i.val = k0_off11 g 0 + (i.val - 16 * g.val); omega)]
    have hi' : rowIx g ⟨i.val - 16 * g.val, hlt⟩ = i := Fin.ext (by show 16 * g.val + (i.val - 16 * g.val) = i.val; omega)
    rw [hw, hi']

end Inv

end Cert.Proof.KB

end
-- ==== Proof.KBTile.lean ====
/-
  One tile's task. The tile with coordinates `L` copies rows `128·L₁ … 128·L₁ + 127` of both argument arrays into
  its two row scratches (one copy per semaphore, both waited for before any load), then for each of eight groups of
  sixteen rows stores the rows' sixteen-lane partial sums into the 256-word scratch, reads that scratch transposed
  (lane `i` of the `j`-th indexed load is word `16·i + j`: row `i`'s lane `j`) and sums the sixteen loads into the
  group's sixteen row dots, and at the end copies its 128 row dots out to words `128·L₁ …` of the call's result.
  Stated once, at symbolic coordinates and at any float instance: from the tile's rows of the two arguments (kept)
  and its words of the result (at anything), to those words holding the row dots `Cert.Spec.tilesOut`.
-/
import proofs.«209947_g87935160418510_cont_sun_m_973_20_alg».proof.Proof.KBCommon
import proofs.«209947_g87935160418510_cont_sun_m_973_20_alg».proof.Proof.Spec
import proofs.«209947_g87935160418510_cont_sun_m_973_20_alg».proof.Proof.Gen.Kernel.Skeleton
import proofs.«209947_g87935160418510_cont_sun_m_973_20_alg».proof.Proof.KBTileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The memrefs, spelt as the body table passes them -/

local notation "aW" => (Memref.whole Cert.Kernel.main_arg0_scv : Memref Cert.Kernel.sig Kind.scVector Space.hbm Cert.Kernel.S16384x128 EltTy.f32)
local notation "bW" => (Memref.whole Cert.Kernel.main_arg1_scv : Memref Cert.Kernel.sig Kind.scVector Space.hbm Cert.Kernel.S16384x128 EltTy.f32)
local notation "oW" => (Memref.whole Cert.Kernel.main_v0_scv : Memref Cert.Kernel.sig Kind.scVector Space.hbm Cert.Kernel.S2048 EltTy.f32)
local notation "sA" => (Memref.whole Cert.Kernel.cc0_scratch0 : Memref Cert.Kernel.sig Kind.scVector Space.vmem Cert.Kernel.S128x128 EltTy.f32)
local notation "sB" => (Memref.whole Cert.Kernel.cc0_scratch1 : Memref Cert.Kernel.sig Kind.scVector Space.vmem Cert.Kernel.S128x128 EltTy.f32)
local notation "sD" => (Memref.whole Cert.Kernel.cc0_scratch2 : Memref Cert.Kernel.sig Kind.scVector Space.vmem Cert.Kernel.S128 EltTy.f32)
local notation "sP" => (Memref.whole Cert.Kernel.cc0_scratch3 : Memref Cert.Kernel.sig Kind.scVector Space.vmem Cert.Kernel.S256 EltTy.f32)

/-! ## The tile, its rows and its words -/

abbrev cV (L : grid0.Coords) : Fin τ.nSC := (L 0).castLE hcore0
abbrev jV (L : grid0.Coords) : Fin τ.nSub := (L 1).castLE hsub0

/-- The tile's 128 rows of an argument array, as the body slices them. -/
abbrev blkR (L : grid0.Coords) : Rect S16384x128 := Rect.unit (s := S16384x128) (k0_off1 L) S128x128.size (k0_off1_inb L)
abbrev aBlk (L : grid0.Coords) : Memref sig .scVector .hbm S128x128 .f32 := (aW).slice (blkR L) (fun _ => rfl)
abbrev bBlk (L : grid0.Coords) : Memref sig .scVector .hbm S128x128 .f32 := (bW).slice (blkR L) (fun _ => rfl)
/-- The tile's 128 words of the call's result, as the body slices them. -/
abbrev outR (L : grid0.Coords) : Rect S2048 := Rect.unit (s := S2048) (k0_off12 L) S128.size (k0_off12_inb L)
abbrev oBlk (L : grid0.Coords) : Memref sig .scVector .hbm S128 .f32 := (oW).slice (outR L) (fun _ => rfl)

/-- The elements of an argument array in the tile's rows; of the result in the tile's words. -/
abbrev blkSet (L : grid0.Coords) : Finset S16384x128.Idx := (aBlk L).view.set
abbrev outSet (L : grid0.Coords) : Finset S2048.Idx := (oBlk L).view.set

variable [FloatOps F]

/-- The call's result as the tiles leave it: every word the row dot of its row (`Cert.Spec.tilesOut` of the two
    arguments' launch contents). -/
def outF (d : Dev nD) : Buf (Elt F) (oLoc d) := Cert.Spec.tilesOut (F := F) (m (aLoc d)) (m (bLoc d))

/-- What a tile is handed: its rows of the two arguments at their launch contents, its words of the result at `fo`. -/
abbrev tileIn (d : Dev nD) (L : grid0.Coords) (fo : Buf (Elt F) (oLoc d)) : sProp 𝕄 :=
  iprop((aLoc d ↦[blkSet L]{fullShare} m (aLoc d)) ∗ (bLoc d ↦[blkSet L]{fullShare} m (bLoc d)) ∗ oLoc d ↦[outSet L]{fullShare} fo)

/-! ## The tile's own semaphores and scratch buffers -/

section Own

variable (d : Dev nD) (L : grid0.Coords)

abbrev cAcell : GSem nD τ sig := (V d (cV L) (jV L), .dma cc0_scratch4.sem)
abbrev cBcell : GSem nD τ sig := (V d (cV L) (jV L), .dma cc0_scratch5.sem)
abbrev cOcell : GSem nD τ sig := (V d (cV L) (jV L), .dma cc0_scoped0.sem)

omit [FloatOps F] in
/-- The three DMA semaphores the task names are among the subcore's own: they, at zero, and the rest. -/
theorem ownSems0_V :
    (ownSems0 (V d (cV L) (jV L)) : sProp 𝕄)
      = iprop(semVal (cAcell d L) 0 ∗ semVal (cBcell d L) 0 ∗ semVal (cOcell d L) 0
          ∗ bigSep ((((ownCells (V d (cV L) (jV L))).erase (cAcell d L)).erase (cBcell d L)).erase (cOcell d L))
              fun g => semVal g 0) := by
  unfold SparseCore.Cfg.ownSems0
  rw [SparseCore.bigSep_erase' ((mem_ownCells (g := cAcell d L)).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scratch5.sem : SemLoc sig).isScoped .scVector = true; decide⟩⟩),
    SparseCore.bigSep_erase' (Finset.mem_erase.mpr ⟨by simp [cBcell, cOcell]; decide, Finset.mem_erase.mpr ⟨by simp [cAcell, cOcell]; decide,
      (mem_ownCells (g := cOcell d L)).mpr ⟨rfl, by show (SemLoc.dma cc0_scoped0.sem : SemLoc sig).isScoped .scVector = true; decide⟩⟩⟩)]

omit [FloatOps F] in
/-- The four scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## The held arrays, as the tile's memrefs address them -/

omit [FloatOps F] in
theorem pts_aBlk (f : Buf (Elt F) (aLoc d)) :
    ((aBlk L).view.loc (V d (cV L) (jV L)) ↦[(aBlk L).view.set]{fullShare} f : sProp 𝕄) = aLoc d ↦[blkSet L]{fullShare} f := rfl
omit [FloatOps F] in
theorem pts_bBlk (f : Buf (Elt F) (bLoc d)) :
    ((bBlk L).view.loc (V d (cV L) (jV L)) ↦[(bBlk L).view.set]{fullShare} f : sProp 𝕄) = bLoc d ↦[blkSet L]{fullShare} f := rfl
omit [FloatOps F] in
theorem pts_oBlk (f : Buf (Elt F) (oLoc d)) :
    ((oBlk L).view.loc (V d (cV L) (jV L)) ↦[(oBlk L).view.set]{fullShare} f : sProp 𝕄) = oLoc d ↦[outSet L]{fullShare} f := rfl
omit [FloatOps F] in
theorem pts_sA (f : Buf (Elt F) ((V d (cV L) (jV L)).loc cc0_scratch0)) :
    ((sA).view.loc (V d (cV L) (jV L)) ↦[(sA).view.set]{fullShare} f : sProp 𝕄) = (V d (cV L) (jV L)).loc cc0_scratch0 ↦{fullShare} f := by
  simp only [Memref.view_whole, View.set_whole]
omit [FloatOps F] in
theorem pts_sB (f : Buf (Elt F) ((V d (cV L) (jV L)).loc cc0_scratch1)) :
    ((sB).view.loc (V d (cV L) (jV L)) ↦[(sB).view.set]{fullShare} f : sProp 𝕄) = (V d (cV L) (jV L)).loc cc0_scratch1 ↦{fullShare} f := by
  simp only [Memref.view_whole, View.set_whole]
omit [FloatOps F] in
theorem pts_sD (f : Buf (Elt F) ((V d (cV L) (jV L)).loc cc0_scratch2)) :
    ((sD).view.loc (V d (cV L) (jV L)) ↦[(sD).view.set]{fullShare} f : sProp 𝕄) = (V d (cV L) (jV L)).loc cc0_scratch2 ↦{fullShare} f := by
  simp only [Memref.view_whole, View.set_whole]
omit [FloatOps F] in
theorem pts_sP (f : Buf (Elt F) ((V d (cV L) (jV L)).loc cc0_scratch3)) :
    ((sP).view.loc (V d (cV L) (jV L)) ↦[(sP).view.set]{fullShare} f : sProp 𝕄) = (V d (cV L) (jV L)).loc cc0_scratch3 ↦{fullShare} f := by
  simp only [Memref.view_whole, View.set_whole]

end Own

/-! ## The loops' invariants -/

section Inv

variable (d : Dev nD) (L : grid0.Coords)
variable (gA : Buf (Elt F) ((V d (cV L) (jV L)).loc cc0_scratch0)) (gB : Buf (Elt F) ((V d (cV L) (jV L)).loc cc0_scratch1))

/-- Before group k: the two row scratches as the copies left them, the partial-sum scratch at anything, the dots
    scratch with the row dots of the groups done. -/
def invO (k : Nat) (_ : Unit) : sProp 𝕄 :=
  iprop(((sA).view.loc (V d (cV L) (jV L)) ↦[(sA).view.set]{fullShare} gA)
    ∗ ((sB).view.loc (V d (cV L) (jV L)) ↦[(sB).view.set]{fullShare} gB)
    ∗ (∃ fP, (sP).view.loc (V d (cV L) (jV L)) ↦[(sP).view.set]{fullShare} fP)
    ∗ ∃ fD, ((sD).view.loc (V d (cV L) (jV L)) ↦[(sD).view.set]{fullShare} fD) ∗ ⌜DotOK (sA).view gA (sB).view gB (sD).view k fD⌝)

/-- Before trip q of group g: the partial-sum scratch with the lane sums of the group's rows done. -/
def invI (g : Fin k0_t1_loop.trips) (q : Nat) (_ : Unit) : sProp 𝕄 :=
  iprop(((sA).view.loc (V d (cV L) (jV L)) ↦[(sA).view.set]{fullShare} gA)
    ∗ ((sB).view.loc (V d (cV L) (jV L)) ↦[(sB).view.set]{fullShare} gB)
    ∗ ∃ fP, ((sP).view.loc (V d (cV L) (jV L)) ↦[(sP).view.set]{fullShare} fP) ∗ ⌜PartOK (sA).view gA (sB).view gB (sP).view g q fP⌝)

end Inv

/-! ## The result's words -/

section Final

open Idealize.ShloMosaic.ValueIdx

variable (d : Dev nD) (L : grid0.Coords)

omit [FloatOps F] in
/-- A row of the tile's block of the first argument, read through the block's view: the argument's row at the block's
    offset; -/
theorem read_aBlk (f : Buf (Elt F) (aLoc d)) (i c : Fin 128) (R : Fin 16384) (hR : R.val = k0_off1 L 0 + i.val) :
    (aBlk L).view.read (Elt F) f (ix2 i c) = f (ix2 R c) := by
  have e : (aBlk L).view.emb (ix2 i c) = ix2 R c := by
    funext a; apply Fin.ext
    match a with
    | ⟨0, _⟩ => show k0_off1 L 0 + 1 * i.val = R.val; omega
    | ⟨1, _⟩ =>
      have h1 : k0_off1 L 1 = 0 := congrFun (k0_off1_eq L) 1
      show k0_off1 L 1 + 1 * c.val = c.val; omega
  rw [View.read_apply, e]; rfl

omit [FloatOps F] in
/-- of the second. -/
theorem read_bBlk (f : Buf (Elt F) (bLoc d)) (i c : Fin 128) (R : Fin 16384) (hR : R.val = k0_off1 L 0 + i.val) :
    (bBlk L).view.read (Elt F) f (ix2 i c) = f (ix2 R c) := by
  have e : (bBlk L).view.emb (ix2 i c) = ix2 R c := by
    funext a; apply Fin.ext
    match a with
    | ⟨0, _⟩ => show k0_off1 L 0 + 1 * i.val = R.val; omega
    | ⟨1, _⟩ =>
      have h1 : k0_off1 L 1 = 0 := congrFun (k0_off1_eq L) 1
      show k0_off1 L 1 + 1 * c.val = c.val; omega
  rw [View.read_apply, e]; rfl

/-- The tile's words of the result after the copy-out of the dots scratch, all of whose 128 words are row dots of the
    two row scratches, which hold the tile's rows of the two arguments: the words of the row dots of the arguments. -/
theorem out_eq (gA : Buf (Elt F) ((V d (cV L) (jV L)).loc cc0_scratch0)) (gB : Buf (Elt F) ((V d (cV L) (jV L)).loc cc0_scratch1))
    (fD : Buf (Elt F) ((V d (cV L) (jV L)).loc cc0_scratch2)) (fo : Buf (Elt F) (oLoc d)) (XD : S128.Idx → Elt F .f32)
    (hA : ∀ (i c : Fin 128), (sA).view.read (Elt F) gA (ix2 i c) = (aBlk L).view.read (Elt F) (m (aLoc d)) (ix2 i c))
    (hB : ∀ (i c : Fin 128), (sB).view.read (Elt F) gB (ix2 i c) = (bBlk L).view.read (Elt F) (m (bLoc d)) (ix2 i c))
    (hXD : XD = (sD).view.read (Elt F) fD)
    (hD : DotOK (sA).view gA (sB).view gB (sD).view 8 fD) :
    ((oBlk L).view.loc (V d (cV L) (jV L)) ↦[(oBlk L).view.set]{fullShare} (oBlk L).view.writes (Elt F) fo [⟨Rect.whole S128, XD⟩] : sProp 𝕄)
      = oLoc d ↦[outSet L]{fullShare} outF m d := by
  subst hXD
  refine pointsTo_congr fun i hi => ?_
  obtain ⟨y, -, rfl⟩ := Finset.mem_map.mp hi
  have h1 := congrFun (View.read_writes_whole (oBlk L).view fo ((sD).view.read (Elt F) fD)) y
  have hlt : (y 0).val < 128 := (y 0).isLt
  have hy : y = ix1 (⟨(y 0).val, hlt⟩ : Fin 128) := by
    funext a; obtain rfl : a = 0 := Subsingleton.elim _ _; rfl
  have e1 : k0_off1 L 0 = 128 * (L 1).val + 128 * (L 0).val := congrFun (k0_off1_eq L) 0
  have e12 : k0_off12 L 0 = 128 * (L 1).val + 128 * (L 0).val := congrFun (k0_off12_eq L) 0
  have hemb : (((oBlk L).view.emb y) 0).val = k0_off12 L 0 + 1 * (y 0).val := rfl
  have h2 : outF m d ((oBlk L).view.emb y) = (sD).view.read (Elt F) fD y := by
    conv_rhs => rw [hy]
    rw [hD ⟨(y 0).val, hlt⟩ (by show (y 0).val < 16 * 8; omega)]
    unfold outF Cert.Spec.tilesOut
    congr 1
    · funext c
      exact ((hA _ c).trans (read_aBlk (F := F) d L (m (aLoc d)) ⟨(y 0).val, hlt⟩ c _ (by
        show (((oBlk L).view.emb y) 0).val = k0_off1 L 0 + (y 0).val; omega))).symm
    · funext c
      exact ((hB _ c).trans (read_bBlk (F := F) d L (m (bLoc d)) ⟨(y 0).val, hlt⟩ c _ (by
        show (((oBlk L).view.emb y) 0).val = k0_off1 L 0 + (y 0).val; omega))).symm
  exact (show (oBlk L).view.writes (Elt F) fo [⟨Rect.whole S128, (sD).view.read (Elt F) fD⟩] ((oBlk L).view.emb y)
    = (sD).view.read (Elt F) fD y from h1).trans h2.symm

end Final

/-- The task on vector subcore `(L 0, L 1)` of device `d`. -/
theorem tile_body (hF : (K (F := F)).Facts) (d : Dev nD) (L : grid0.Coords) (fo : Buf (Elt F) (oLoc d))
    (O : CellTallies nD τ sig (HIx 1)) (W : Waits sig (HIx 1)) (hO : ∀ g, O g none = 0) :
    iprop(levAts (K (F := F)).L (K (F := F)).lev ∗ tileIn m d L fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aW (Memref.isWhole_whole _) bW (Memref.isWhole_whole _) oW (Memref.isWhole_whole _)
            sA (Memref.isWhole_whole _) sB (Memref.isWhole_whole _) sD (Memref.isWhole_whole _) sP (Memref.isWhole_whole _)
            cc0_scratch4 cc0_scratch5 cc0_scoped0)
          fun _ => iprop(tileIn m d L (outF m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hc1 : k0_chk1 (k0_pay38 k0_pay1) := chk_of_val _ 0 (by omega) idx_val_0
  have hc2 : k0_chk2 (k0_pay39 k0_pay1) := chk_of_val _ 1 (by omega) idx_val_1
  have hc3 : k0_chk3 (k0_pay40 k0_pay1) := chk_of_val _ 2 (by omega) idx_val_2
  have hc4 : k0_chk4 (k0_pay41 k0_pay1) := chk_of_val _ 3 (by omega) idx_val_3
  have hc5 : k0_chk5 (k0_pay42 k0_pay1) := chk_of_val _ 4 (by omega) idx_val_4
  have hc6 : k0_chk6 (k0_pay43 k0_pay1) := chk_of_val _ 5 (by omega) idx_val_5
  have hc7 : k0_chk7 (k0_pay44 k0_pay1) := chk_of_val _ 6 (by omega) idx_val_6
  have hc8 : k0_chk8 (k0_pay45 k0_pay1) := chk_of_val _ 7 (by omega) idx_val_7
  have hc9 : k0_chk9 (k0_pay46 k0_pay1) := chk_of_val _ 8 (by omega) idx_val_8
  have hc10 : k0_chk10 (k0_pay47 k0_pay1) := chk_of_val _ 9 (by omega) idx_val_9
  have hc11 : k0_chk11 (addi k0_pay1 k0_pay48) := chk_of_val _ 10 (by omega) idx_val_10
  have hc12 : k0_chk12 k0_pay2 := chk_of_val _ 11 (by omega) idx_val_11
  have hc13 : k0_chk13 k0_pay3 := chk_of_val _ 12 (by omega) idx_val_12
  have hc14 : k0_chk14 k0_pay4 := chk_of_val _ 13 (by omega) idx_val_13
  have hc15 : k0_chk15 k0_pay5 := chk_of_val _ 14 (by omega) idx_val_14
  have hc16 : k0_chk16 k0_pay6 := chk_of_val _ 15 (by omega) idx_val_15
  have ht2 : Scf.trips k0_t2_loop.lb k0_t2_loop.ub k0_t2_loop.st = 4 := by decide +kernel
  have ht1 : Scf.trips k0_t1_loop.lb k0_t1_loop.ub k0_t1_loop.st = 8 := by decide +kernel
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, ⟨Ha, Hb, Ho⟩, ⟨⟨%f0, Hs0⟩, ⟨%f1, Hs1⟩, ⟨%f2, Hs2⟩, ⟨%f3, Hs3⟩, Hbufs⟩, ⟨HsemA, HsemB, HsemO, Hsems⟩, HO⟩
  ihave Hmw := ((K (F := F)).mayWaits_none (thr := V d (cV L) (jV L)) hO) $$ Hlv
  ihave Ha' := (Entails.of_eq (pts_aBlk (F := F) d L _).symm) $$ Ha
  ihave Hb' := (Entails.of_eq (pts_bBlk (F := F) d L _).symm) $$ Hb
  ihave Ho' := (Entails.of_eq (pts_oBlk (F := F) d L _).symm) $$ Ho
  ihave HsA := (Entails.of_eq (pts_sA (F := F) d L _).symm) $$ Hs0
  ihave HsB := (Entails.of_eq (pts_sB (F := F) d L _).symm) $$ Hs1
  ihave HsD := (Entails.of_eq (pts_sD (F := F) d L _).symm) $$ Hs2
  ihave HsP := (Entails.of_eq (pts_sP (F := F) d L _).symm) $$ Hs3
  sl_exec
  generalize hgA : (sA).view.writes (Elt F) (sA).view.junk _ = gA
  generalize hgB : (sB).view.writes (Elt F) (sB).view.junk _ = gB
  sl_for (invO (F := F) d L gA gB) $$ [HsA HsB HsP HsD]
  case region =>
    intro k _
    unfold invO
    iintro ⟨HsA, HsB, ⟨%fP, HsP⟩, %fD, HsD, %hD⟩
    sl_exec
    sl_for (invI (F := F) d L gA gB k) $$ [HsA HsB HsP]
    case region =>
      intro q _
      unfold invI
      iintro ⟨HsA, HsB, %fP, HsP, %hP⟩
      sl_exec
      sl_step
      isplitl [HsA]; · iexact HsA
      isplitl [HsB]; · iexact HsB
      iexists _; isplitl [HsP]; · iexact HsP
      ipureintro
      exact PartOK.step (sA).view gA (sB).view gB (sP).view k q fP hP _ _ _ _
        (fun R hR j => row0_eq (sA).view gA (sB).view gB k q R hR j) (fun R hR j => row1_eq (sA).view gA (sB).view gB k q R hR j)
        (fun R hR j => row2_eq (sA).view gA (sB).view gB k q R hR j) (fun R hR j => row3_eq (sA).view gA (sB).view gB k q R hR j)
    · unfold invI
      isplitl [HsA]; · iexact HsA
      isplitl [HsB]; · iexact HsB
      iexists _; isplitl [HsP]; · iexact HsP
      ipureintro
      exact PartOK.zero (sA).view gA (sB).view gB (sP).view k _
    iintro %_ HI
    unfold invI
    icases HI with ⟨HsA, HsB, %fP', HsP, %hP'⟩
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    sl_step
    isplitl [HsA]; · iexact HsA
    isplitl [HsB]; · iexact HsB
    isplitl [HsP]; · iexists _; iexact HsP
    iexists _; isplitl [HsD]; · iexact HsD
    ipureintro
    exact DotOK.step (sA).view gA (sB).view gB (sD).view k fD hD _ (fun i =>
      pay7_group (fun r => vrow (sA).view gA (rowIx k r)) (fun r => vrow (sB).view gB (rowIx k r))
        (View.read (Elt F) ((sP).access (Rect.whole cc0_scratch3.ty.shape)) fP')
        (fun r j hw => (congrFun (Memref.read_access_whole (Elt F) cc0_scratch3 fP') _).trans
          (hP' r j (by rw [ht2]; have := r.isLt; omega) hw))
        _ _ _ _ _ _ _ _ _ _ _ _ _ _ _ _ i)
  · unfold invO
    isplitl [HsA]; · iexact HsA
    isplitl [HsB]; · iexact HsB
    isplitl [HsP]; · iexists _; iexact HsP
    iexists _; isplitl [HsD]; · iexact HsD
    ipureintro
    exact DotOK.zero (sA).view gA (sB).view gB (sD).view _
  iintro %_ HI
  unfold invO
  icases HI with ⟨HsA, HsB, ⟨%fP, HsP⟩, %fD, HsD, %hD⟩
  sl_exec
  sl_step
  isplitl [Ha' Hb' Ho']
  · isplitl [Ha']; · iapply (Entails.of_eq (pts_aBlk (F := F) d L _)); iexact Ha'
    isplitl [Hb']; · iapply (Entails.of_eq (pts_bBlk (F := F) d L _)); iexact Hb'
    iapply (Entails.of_eq (out_eq (F := F) m d L gA gB fD fo _
      (fun i c => by rw [← hgA]; exact congrFun (View.read_writes_whole _ _ _) _)
      (fun i c => by rw [← hgB]; exact congrFun (View.read_writes_whole _ _ _) _)
      rfl (ht1 ▸ hD)))
    iexact Ho'
  isplitl [HsA HsB HsD HsP Hbufs]
  · isplitl [HsA]; · iexists _; iapply (Entails.of_eq (pts_sA (F := F) d L _)); iexact HsA
    isplitl [HsB]; · iexists _; iapply (Entails.of_eq (pts_sB (F := F) d L _)); iexact HsB
    isplitl [HsD]; · iexists _; iapply (Entails.of_eq (pts_sD (F := F) d L _)); iexact HsD
    isplitl [HsP]; · iexists _; iapply (Entails.of_eq (pts_sP (F := F) d L _)); iexact HsP
    iexact Hbufs
  isplitl [HsemA HsemB HsemO Hsems]
  · isplitl [HsemA]; · iexact HsemA
    isplitl [HsemB]; · iexact HsemB
    isplitl [HsemO]; · iexact HsemO
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KB

end
-- ==== Proof.KBLaunch.lean ====
/-
  The launch of the kernel program: what the one SparseCore call hands its SparseCore and each tile and takes back
  (the two arguments whole and kept; the call's result, at anything going in and at the tiles' row dots coming
  back), how the arrays split into the sixteen tiles' rows and words, the launch element of the ghost state, @main on
  the TensorCore, and the program's run with every result named.
-/
import proofs.«209947_g87935160418510_cont_sun_m_973_20_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

abbrev aPts (d : Dev nD) : sProp 𝕄 := aLoc d ↦{fullShare} m (aLoc d)
abbrev bPts (d : Dev nD) : sProp 𝕄 := bLoc d ↦{fullShare} m (bLoc d)
abbrev oPts (d : Dev nD) (f : Buf (Elt F) (oLoc d)) : sProp 𝕄 := oLoc d ↦{fullShare} f

theorem nCore_grid : (K (F := F)).nCore 0 = grid0.bound 0 := rfl
theorem nSub_grid : (K (F := F)).nSub 0 = grid0.bound 1 := rfl

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The one call takes the two arguments and the result whole; each tile its rows and words; and brings them back,
    the result at the tiles' row dots. -/
def P : (K (F := F)).Pay (nD := nD) (Val := Elt F) (Name := ℕ) (U := UU) where
  st := fun q d _ => match q with | 0 => iprop(aPts m d ∗ bPts m d ∗ ∃ f, oPts d f)
  dn := fun q d _ => match q with | 0 => iprop(aPts m d ∗ bPts m d ∗ oPts d (outF m d))
  go := fun q d c i => match q with
    | 0 => iprop(∃ fo, tileIn m d (coordsV (Fin.cast nCore_grid c) (Fin.cast nSub_grid i)) fo)
  td := fun q d c i => match q with
    | 0 => tileIn m d (coordsV (Fin.cast nCore_grid c) (Fin.cast nSub_grid i)) (outF m d)
  x := fun _ _ => iprop(emp)

instance P_storable : (P (F := F) m).IsStorable where
  st q d _ := match q with
    | 0 => (inferInstance : BI.Storable (upEmb : UEmb _ 𝕄) iprop(aPts m d ∗ bPts m d ∗ ∃ f, oPts d f))
  dn q d _ := match q with
    | 0 => (inferInstance : BI.Storable (upEmb : UEmb _ 𝕄) iprop(aPts m d ∗ bPts m d ∗ oPts d (outF m d)))
  go q d c i := match q with
    | 0 => (inferInstance : BI.Storable (upEmb : UEmb _ 𝕄) iprop(∃ fo, tileIn m d (coordsV (Fin.cast nCore_grid c) (Fin.cast nSub_grid i)) fo))
  td q d c i := match q with
    | 0 => (inferInstance : BI.Storable (upEmb : UEmb _ 𝕄) (tileIn m d (coordsV (Fin.cast nCore_grid c) (Fin.cast nSub_grid i)) (outF m d)))

/-! ## The launch theorem's obligations -/

local notation "aW" => (Memref.whole Cert.Kernel.main_arg0_scv : Memref Cert.Kernel.sig Kind.scVector Space.hbm Cert.Kernel.S16384x128 EltTy.f32)
local notation "bW" => (Memref.whole Cert.Kernel.main_arg1_scv : Memref Cert.Kernel.sig Kind.scVector Space.hbm Cert.Kernel.S16384x128 EltTy.f32)
local notation "oW" => (Memref.whole Cert.Kernel.main_v0_scv : Memref Cert.Kernel.sig Kind.scVector Space.hbm Cert.Kernel.S2048 EltTy.f32)
local notation "sA" => (Memref.whole Cert.Kernel.cc0_scratch0 : Memref Cert.Kernel.sig Kind.scVector Space.vmem Cert.Kernel.S128x128 EltTy.f32)
local notation "sB" => (Memref.whole Cert.Kernel.cc0_scratch1 : Memref Cert.Kernel.sig Kind.scVector Space.vmem Cert.Kernel.S128x128 EltTy.f32)
local notation "sD" => (Memref.whole Cert.Kernel.cc0_scratch2 : Memref Cert.Kernel.sig Kind.scVector Space.vmem Cert.Kernel.S128 EltTy.f32)
local notation "sP" => (Memref.whole Cert.Kernel.cc0_scratch3 : Memref Cert.Kernel.sig Kind.scVector Space.vmem Cert.Kernel.S256 EltTy.f32)

/-- The payloads of the one call, as equations. -/
theorem P_x (q : Fin 1) (thr : Thread nD τ) : (P (F := F) m).x q thr = iprop(emp) := rfl
theorem P_go (d : Dev nD) (c : Fin ((K (F := F)).nCore 0)) (i : Fin ((K (F := F)).nSub 0)) :
    (P (F := F) m).go 0 d c i = iprop(∃ fo, tileIn m d (coordsV (Fin.cast nCore_grid c) (Fin.cast nSub_grid i)) fo) := rfl
theorem P_td (d : Dev nD) (c : Fin ((K (F := F)).nCore 0)) (i : Fin ((K (F := F)).nSub 0)) :
    (P (F := F) m).td 0 d c i = tileIn m d (coordsV (Fin.cast nCore_grid c) (Fin.cast nSub_grid i)) (outF m d) := rfl
theorem P_st (d : Dev nD) (c : Fin ((K (F := F)).nCore 0)) :
    (P (F := F) m).st 0 d c = iprop(aPts m d ∗ bPts m d ∗ ∃ f, oPts d f) := rfl
theorem P_dn (d : Dev nD) (c : Fin ((K (F := F)).nCore 0)) :
    (P (F := F) m).dn 0 d c = iprop(aPts m d ∗ bPts m d ∗ oPts d (outF m d)) := rfl

/-- The body table's entry for a vector subcore is the tile's task at that subcore's coordinates. -/
theorem defs₀_vector (c : Fin τ.nSC) (s : Fin τ.nSub) :
    defs₀ (F := F) (.scVector c s) 0 ()
      = SparseCore.onTile hcore0 hsub0 (fun c s => cc0__sc_body (coordsV c s)
          aW (Memref.isWhole_whole _) bW (Memref.isWhole_whole _) oW (Memref.isWhole_whole _)
          sA (Memref.isWhole_whole _) sB (Memref.isWhole_whole _) sD (Memref.isWhole_whole _) sP (Memref.isWhole_whole _)
          cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task from what the launch hands it: nothing of the kernel's own, and its rows and words with the
    result's words at some contents. -/
theorem tile_task (hF : (K (F := F)).Facts) (d : Dev nD) (L : grid0.Coords)
    (O : CellTallies nD τ sig (HIx 1)) (W : Waits sig (HIx 1)) (hO : ∀ g, O g none = 0) :
    iprop(levAts (K (F := F)).L (K (F := F)).lev ∗ emp ∗ (∃ fo, tileIn m d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aW (Memref.isWhole_whole _) bW (Memref.isWhole_whole _) oW (Memref.isWhole_whole _)
            sA (Memref.isWhole_whole _) sB (Memref.isWhole_whole _) sD (Memref.isWhole_whole _) sP (Memref.isWhole_whole _)
            cc0_scratch4 cc0_scratch5 cc0_scoped0)
          fun _ => iprop(tileIn m d L (outF m d) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  iintro ⟨Hlv, -, ⟨%fo, Hgo⟩, Hb, Hs, HO⟩
  iapply ((tile_body m hF d L fo O W hO).trans (wp_mono frame _ _ fun _ => obl_post))
  isplitl [Hlv]; · iexact Hlv
  isplitl [Hgo]; · iexact Hgo
  isplitl [Hb]; · iexact Hb
  isplitl [Hs]; · iexact Hs
  iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m hF d (coordsV ⟨_, hc.1⟩ ⟨_, hc.2⟩) O W hO

/-! ### How the arrays split into the tiles' rows and words -/

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A tile's rows of an argument are the elements of its rectangle; its words of the result likewise. -/
theorem blkSet_eq (L : grid0.Coords) : blkSet L = (blkR L).set := by
  show ((View.whole (main_arg0_scv : Ref sig .scVector)).slice (blkR L)).set = _
  rw [View.set_slice]; exact Finset.map_refl
theorem outSet_eq (L : grid0.Coords) : outSet L = (outR L).set := by
  show ((View.whole (main_v0_scv : Ref sig .scVector)).slice (outR L)).set = _
  rw [View.set_slice]; exact Finset.map_refl

/-- Tile `i`'s rows start at row `128 i` (one SparseCore: `c = 0`), so different tiles' rows are apart. -/
theorem blk_disjoint (c : Fin (grid0.bound 0)) :
    ∀ i ∈ (Finset.univ : Finset (Fin (grid0.bound 1))), ∀ j ∈ (Finset.univ : Finset (Fin (grid0.bound 1))), i ≠ j →
      Disjoint (blkSet (coordsV c i)) (blkSet (coordsV c j)) := by
  intro i _ j _ h
  rw [blkSet_eq, blkSet_eq]
  refine Rect.unit_disjoint 0 ?_
  rw [k0_off1_eq, k0_off1_eq]
  have hij : i.val ≠ j.val := fun e => h (Fin.ext e)
  simp only [coordsV_zero, coordsV_one, Matrix.cons_val_zero]
  show 128 * i.val + 128 * c.val + 128 ≤ 128 * j.val + 128 * c.val ∨ 128 * j.val + 128 * c.val + 128 ≤ 128 * i.val + 128 * c.val
  omega
theorem out_disjoint (c : Fin (grid0.bound 0)) :
    ∀ i ∈ (Finset.univ : Finset (Fin (grid0.bound 1))), ∀ j ∈ (Finset.univ : Finset (Fin (grid0.bound 1))), i ≠ j →
      Disjoint (outSet (coordsV c i)) (outSet (coordsV c j)) := by
  intro i _ j _ h
  rw [outSet_eq, outSet_eq]
  refine Rect.unit_disjoint 0 ?_
  rw [k0_off12_eq, k0_off12_eq]
  have hij : i.val ≠ j.val := fun e => h (Fin.ext e)
  simp only [coordsV_zero, coordsV_one, Matrix.cons_val_zero]
  show 128 * i.val + 128 * c.val + 128 ≤ 128 * j.val + 128 * c.val ∨ 128 * j.val + 128 * c.val + 128 ≤ 128 * i.val + 128 * c.val
  omega
/-- The sixteen tiles' words are all 2048 words of the result: word `x` is tile `x / 128`'s. -/
theorem out_cover (c : Fin (grid0.bound 0)) :
    (Finset.univ : Finset (Fin (grid0.bound 1))).biUnion (fun i => outSet (coordsV c i)) = Finset.univ := by
  ext x
  simp only [Finset.mem_biUnion, Finset.mem_univ, true_and, iff_true]
  have hx : (x 0).val < 2048 := (x 0).isLt
  have hc : c.val < 1 := c.isLt
  refine ⟨⟨(x 0).val / 128, by show _ < 16; omega⟩, ?_⟩
  rw [outSet_eq, Rect.mem_set_unit]
  intro a
  obtain rfl : a = 0 := Subsingleton.elim _ _
  rw [k0_off12_eq]
  simp only [coordsV_zero, coordsV_one, Matrix.cons_val_zero]
  show 128 * ((x 0).val / 128) + 128 * c.val ≤ (x 0).val ∧ (x 0).val < 128 * ((x 0).val / 128) + 128 * c.val + 128
  omega

/-- The rows of an argument that the sixteen tiles are handed. -/
abbrev tilesRows (c : Fin (grid0.bound 0)) : Finset S16384x128.Idx :=
  (Finset.univ : Finset (Fin (grid0.bound 1))).biUnion fun i => blkSet (coordsV c i)

omit [FloatOps F] in
/-- An argument whole is the tiles' rows of it and the rows no tile is handed. -/
theorem aPts_split (d : Dev nD) (c : Fin (grid0.bound 0)) (f : Buf (Elt F) (aLoc d)) :
    (aLoc d ↦{fullShare} f : sProp 𝕄)
      ⊣⊢ iprop((bigSep Finset.univ fun i : Fin (grid0.bound 1) => aLoc d ↦[blkSet (coordsV c i)]{fullShare} f)
          ∗ aLoc d ↦[Finset.univ \ tilesRows c]{fullShare} f) := by
  rw [← pointsTo_biUnion Finset.univ (ℓ := aLoc d) (fun i => blkSet (coordsV c i)) (blk_disjoint c)]
  exact pointsTo_split_subset (Finset.subset_univ _)
omit [FloatOps F] in
theorem bPts_split (d : Dev nD) (c : Fin (grid0.bound 0)) (f : Buf (Elt F) (bLoc d)) :
    (bLoc d ↦{fullShare} f : sProp 𝕄)
      ⊣⊢ iprop((bigSep Finset.univ fun i : Fin (grid0.bound 1) => bLoc d ↦[blkSet (coordsV c i)]{fullShare} f)
          ∗ bLoc d ↦[Finset.univ \ tilesRows c]{fullShare} f) := by
  rw [← pointsTo_biUnion Finset.univ (ℓ := bLoc d) (fun i => blkSet (coordsV c i)) (blk_disjoint c)]
  exact pointsTo_split_subset (Finset.subset_univ _)
omit [FloatOps F] in
/-- The result whole is the tiles' words of it. -/
theorem oPts_tiles (d : Dev nD) (c : Fin (grid0.bound 0)) (f : Buf (Elt F) (oLoc d)) :
    (oLoc d ↦{fullShare} f : sProp 𝕄) = bigSep Finset.univ fun i : Fin (grid0.bound 1) => oLoc d ↦[outSet (coordsV c i)]{fullShare} f := by
  rw [← pointsTo_biUnion Finset.univ (ℓ := oLoc d) (fun i => outSet (coordsV c i)) (out_disjoint c), out_cover c]

/-- The tiles' parts, array by array. -/
theorem tiles_eq (d : Dev nD) (c : Fin (grid0.bound 0)) (fo : Buf (Elt F) (oLoc d)) :
    (bigSep Finset.univ fun i : Fin (grid0.bound 1) => tileIn m d (coordsV c i) fo)
      = iprop((bigSep Finset.univ fun i : Fin (grid0.bound 1) => aLoc d ↦[blkSet (coordsV c i)]{fullShare} m (aLoc d))
          ∗ (bigSep Finset.univ fun i : Fin (grid0.bound 1) => bLoc d ↦[blkSet (coordsV c i)]{fullShare} m (bLoc d))
          ∗ bigSep Finset.univ fun i : Fin (grid0.bound 1) => oLoc d ↦[outSet (coordsV c i)]{fullShare} fo) := by
  unfold tileIn
  rw [bigSep_sep', bigSep_sep']
theorem tiles_in (d : Dev nD) (c : Fin (grid0.bound 0)) (f : Buf (Elt F) (oLoc d)) :
    (bigSep Finset.univ fun i : Fin (grid0.bound 1) => tileIn m d (coordsV c i) f)
      ⊢ bigSep Finset.univ fun i : Fin (grid0.bound 1) => iprop(∃ fo, tileIn m d (coordsV c i) fo) :=
  bigSep_mono fun i _ => by
    show tileIn m d (coordsV c i) f ⊢ iprop(∃ fo, tileIn m d (coordsV c i) fo)
    iintro H; iexists f; iexact H

theorem bigSep_tasks (Φ : Fin (grid0.bound 1) → sProp 𝕄) :
    (bigSep Finset.univ fun i : Fin ((K (F := F)).nSub 0) => Φ (Fin.cast nSub_grid i)) = bigSep Finset.univ Φ :=
  bigSep_congr fun _ _ => congrArg Φ (Fin.ext rfl)

/-- The split at SparseCore `c`'s coordinate: the tiles' rows of the two arguments and words of the result go out, the
    other rows stay behind; the tiles' parts back, the result's words all at the tiles' row dots, make the arrays whole. -/
theorem split_main (d : Dev nD) (c : Fin (grid0.bound 0)) :
    iprop(aPts m d ∗ bPts m d ∗ ∃ f, oPts d f) ⊢ |={Set.univ}=> iprop(
      (bigSep Finset.univ fun i : Fin (grid0.bound 1) => iprop(∃ fo, tileIn m d (coordsV c i) fo))
      ∗ ((bigSep Finset.univ fun i : Fin (grid0.bound 1) => tileIn m d (coordsV c i) (outF m d))
          -∗ iprop(aPts m d ∗ bPts m d ∗ oPts d (outF m d)))) := by
  iintro ⟨Ha, Hb, %f, Ho⟩
  imodintro
  ihave Ha' := (aPts_split d c _).1 $$ Ha
  icases Ha' with ⟨Ha1, Ha2⟩
  ihave Hb' := (bPts_split d c _).1 $$ Hb
  icases Hb' with ⟨Hb1, Hb2⟩
  ihave Ho' := (Entails.of_eq (oPts_tiles d c f)) $$ Ho
  isplitl [Ha1 Hb1 Ho']
  · iapply (tiles_in m d c f)
    iapply (Entails.of_eq (tiles_eq m d c f).symm)
    isplitl [Ha1]; · iexact Ha1
    isplitl [Hb1]; · iexact Hb1
    iexact Ho'
  iintro Htd
  ihave H := (Entails.of_eq (tiles_eq m d c (outF m d))) $$ Htd
  icases H with ⟨Ha1, Hb1, Ho1⟩
  isplitl [Ha1 Ha2]
  · iapply (aPts_split d c _).2
    isplitl [Ha1]; · iexact Ha1
    iexact Ha2
  isplitl [Hb1 Hb2]
  · iapply (bPts_split d c _).2
    isplitl [Hb1]; · iexact Hb1
    iexact Hb2
  iapply (Entails.of_eq (oPts_tiles d c (outF m d)).symm)
  iexact Ho1

theorem vecSplit : (K (F := F)).VecSplit' (P m) 0 := by
  intro d c
  show iprop(aPts m d ∗ bPts m d ∗ ∃ f, oPts d f) ⊢ |={Set.univ}=> iprop(
      (bigSep Finset.univ fun i : Fin ((K (F := F)).nSub 0) => iprop(∃ fo, tileIn m d (coordsV (Fin.cast nCore_grid c) (Fin.cast nSub_grid i)) fo))
      ∗ ((bigSep Finset.univ fun i : Fin ((K (F := F)).nSub 0) => tileIn m d (coordsV (Fin.cast nCore_grid c) (Fin.cast nSub_grid i)) (outF m d))
          -∗ iprop(aPts m d ∗ bPts m d ∗ oPts d (outF m d))))
  rw [bigSep_tasks (F := F) (fun i => iprop(∃ fo, tileIn m d (coordsV (Fin.cast nCore_grid c) i) fo)),
    bigSep_tasks (F := F) (fun i => tileIn m d (coordsV (Fin.cast nCore_grid c) i) (outF m d))]
  exact split_main m d (Fin.cast nCore_grid c)

/-! ## The launch element of the ghost state -/

/-- No pipeline has a prefetched table. -/
abbrev adm : (p : Fin 1) → (pcfgs (F := F) p).Adm := fun p => (cfgs p).toPCfg_adm

/-- What the launch element deals the TensorCore of `d` for the pipeline's region: its staging cells' ghost state and
    its transfers' duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
/-- The launch element's three parts: the handshakes' rounds, the staging cells' rounds, the counters' unit (dropped). -/
theorem ownU_split (a : UH) (b : UP) (k : Counters) : (ownU (a, (b, k)) : sProp 𝕄) ⊢ iprop(BI.own (EH a) ∗ BI.own (EP b)) := by
  iintro Hu
  ihave H := (ownU_pair _ _) $$ Hu
  icases H with ⟨HH, HR⟩
  ihave H' := (own_pair_emb (embR : Emb (UP × Counters) 𝕄) b k) $$ HR
  icases H' with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

omit [FloatOps F] in
/-- What a TensorCore is dealt, over the pipelines' configurations themselves. -/
theorem G_eq (d : Dev nD) :
    G (F := F) d = iprop((bigSep Finset.univ fun p : Fin 1 => Pipeline.cellsGhost cfgs (EP (F := F)) p d)
      ∗ bigSep Finset.univ fun p : Fin 1 => Pipeline.toksInit cfgs (EP (F := F)) p d) := by
  rw [bigSep_univ_of_subsingleton (0 : Fin 1), bigSep_univ_of_subsingleton (0 : Fin 1)]

omit [FloatOps F] in
/-- The staging cells' launch element funds every TensorCore's cells and duty tokens. -/
theorem fund_G :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => G (F := F) d) := by
  iintro H
  imod (Pipeline.fund_ghost cfgs (EP (F := F)) cellOf_inj) $$ H with ⟨Hc, Ht⟩
  imodintro
  rw [bigSep_congr fun d _ => G_eq (F := F) d, bigSep_sep']
  isplitl [Hc]; · iexact Hc
  iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund_G (F := F)) $$ HP with HG
  imodintro
  isplitl [HH]; · iexact HH
  isplitl [HG]; · iexact HG
  rw [show (bigSep Finset.univ fun thr : Thread nD τ => bigSep Finset.univ fun q : Fin 1 => (P m).x q thr) = (iprop(emp) : sProp 𝕄) from
    (bigSep_congr fun thr _ => (bigSep_congr fun q _ => P_x m q thr).trans (bigSep_emp' _)).trans (bigSep_emp' _)]
  iempintro

end Cert.Proof.KB

end
-- ==== Proof.KBRegion.lean ====
/-
  The TensorCore pipeline of the kernel program: four grid points, at point `t` rows `4096·t … 4096·t + 4095` of
  the two arguments staged in, the body storing them unchanged into the two copy results' blocks and their
  products' lane sums into the row-sum result's block, the three blocks written back.
-/
import proofs.«209947_g87935160418510_cont_sun_m_973_20_alg».proof.Proof.KBCommon
import proofs.«209947_g87935160418510_cont_sun_m_973_20_alg».proof.Proof.Gen.Kernel.Skeleton
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! ## The body's accesses and what it leaves in each result's block -/

abbrev rM : Rect S4096x128 := Rect.unit (s := S4096x128) ![0, 0] S4096x128.size inb_S4096x128_S4096x128_0_0
abbrev rV : Rect S4096 := Rect.unit (s := S4096) ![0] S4096.size inb_S4096_S4096_0

/-- The first copy result's block after the body: the first argument's block, stored whole. -/
def outC (x : Vec F S4096x128 .f32) : Vec F S4096x128 .f32 := View.canon [⟨rM, View.ld x rM⟩]
/-- The row-sum result's block after the body: the lane sums of the products of the two arguments' blocks. -/
def outS (x0 x1 : Vec F S4096x128 .f32) : Vec F S4096 .f32 := View.canon [⟨rV, k1_pay1 (View.ld x0 rM) (View.ld x1 rM)⟩]

theorem coverM (p0 : Vec F S4096x128 .f32) (y : S4096x128.Idx) :
    ∃ pc ∈ ([⟨rM, p0⟩] : List (View.Piece (Elt F) S4096x128 .f32)), y ∈ pc.1.set :=
  View.cover_of_tiled [⟨rM, p0⟩] S4096x128.size (by rfl) y
theorem coverV (p0 : Vec F S4096 .f32) (y : S4096.Idx) :
    ∃ pc ∈ ([⟨rV, p0⟩] : List (View.Piece (Elt F) S4096 .f32)), y ∈ pc.1.set :=
  View.cover_of_tiled [⟨rV, p0⟩] S4096.size (by rfl) y

set_option maxHeartbeats 1000000 in
/-- The body on whole staging memrefs: the two inputs at `x0`, `x1` and kept; the three outputs at anything going
    in, at `outC x0`, `outC x1`, `outS x0 x1` coming out. -/
theorem sound_tc (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096 .f32) (harg5 : arg5.IsWhole)
    (x0 x1 : Vec F S4096x128 .f32) (Kk : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outC x0) ∗ owns (c : Thread nD τ) arg4 fullShare (outC x1)
            ∗ owns (c : Thread nD τ) arg5 fullShare (outS x0 x1)) -∗ Kk ⟨⟩))
      ⊢ wp frame (wpE (defs₀ (F := F)) Variants.none c none) E (cc1__tc_body i arg1 harg1 arg2 harg2 arg3 harg3 arg4 harg4 arg5 harg5) Kk := by
  simp only [cc1__tc_body_eq_skeleton]; unfold cc1__tc_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  isplitl [H3]
  · iexists _; isplitr
    swap; · iexact H3
    ipureintro
    exact View.read_writes_eq_canon _ _ _ (coverM _)
  iexists _; isplitr
  swap; · iexact H4
  ipureintro
  exact View.read_writes_eq_canon _ _ _ (coverV _)

/-! ## The region at entry contents `Vv`: blocks, proof data, the body obligation -/

section Region

variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's current staging buffer holds its block at every point. -/
theorem before_in0_of {c : Dev nD} (dat : Dat τ (Elt F) (HIx 1) ℕ UU ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) (HIx 1) ℕ UU ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The region's invariant: the core's scoped buffers that are no staging buffer, and its generator register at some
    state; the body uses neither. -/
def ΦH (c : Dev nD) : sProp 𝕄 :=
  iprop(Pipeline.scopedRest (Ix := HIx 1) (Name := ℕ) (U := UU) (Lvl := ℕ) (Val := Elt F) spec1 c ∗ ∃ r, prngReg c r)

/-- The pipeline's proof data on core `c`: the arrays as the region finds them; after the body at point `t` each
    input's buffer at its block, each copy result's at the corresponding input's block stored whole, the row-sum
    result's at the lane sums of the blocks' products; nothing owed; the recorded waits bounded as the TensorCore's
    are after the SparseCore call. -/
def datTC (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => outC (iblk Vv c 0 t)
    | ⟨3, _⟩ => outC (iblk Vv c 1 t)
    | ⟨4, _⟩ => outS (iblk Vv c 0 t) (iblk Vv c 1 t)
  Φ _ := ΦH c
  q _ := fullShare
  owed _ := 0
  recorded _ := {p | (K (F := F)).lev ((c : Thread nD τ), p.1) p.2 ≤ 8}

theorem A_eq (c : Dev nD) (w : Fin cfg1.W) : (datTC Vv c).A w = Vv c (Pipeline.arrRef spec1 w) := by dsimp only [datTC]
theorem after_0 (c : Dev nD) (t : Fin cfg1.N) : (datTC Vv c).after 0 t = iblk Vv c 0 t := by dsimp only [datTC]
theorem after_1 (c : Dev nD) (t : Fin cfg1.N) : (datTC Vv c).after 1 t = iblk Vv c 1 t := by dsimp only [datTC]
theorem after_2 (c : Dev nD) (t : Fin cfg1.N) : (datTC Vv c).after 2 t = outC (iblk Vv c 0 t) := by dsimp only [datTC]
theorem after_3 (c : Dev nD) (t : Fin cfg1.N) : (datTC Vv c).after 3 t = outC (iblk Vv c 1 t) := by dsimp only [datTC]
theorem after_4 (c : Dev nD) (t : Fin cfg1.N) : (datTC Vv c).after 4 t = outS (iblk Vv c 0 t) (iblk Vv c 1 t) := by dsimp only [datTC]

theorem before_0 (c : Dev nD) (t : Fin cfg1.N) (d) : (datTC Vv c).before 0 t d = iblk Vv c 0 t :=
  before_in0_of Vv (datTC Vv c) (A_eq Vv c 0) (after_0 Vv c) t d
theorem before_1 (c : Dev nD) (t : Fin cfg1.N) (d) : (datTC Vv c).before 1 t d = iblk Vv c 1 t :=
  before_in1_of Vv (datTC Vv c) (A_eq Vv c 1) (after_1 Vv c) t d

/-- What the body is called with at point `t`, -/
def bodyPre (c : Dev nD) (t : Fin cfg1.N) : sProp 𝕄 :=
  iprop((datTC Vv c).Φ t.castSucc ∗ (datTC Vv c).owesAt none t.castSucc
    ∗ (∃ d, owns (c : Thread nD τ) (st1_0 t) fullShare ((datTC Vv c).before 0 t d))
    ∗ (∃ d, owns (c : Thread nD τ) (st1_1 t) fullShare ((datTC Vv c).before 1 t d))
    ∗ (∃ d, owns (c : Thread nD τ) (st1_2 t) fullShare ((datTC Vv c).before 2 t d))
    ∗ (∃ d, owns (c : Thread nD τ) (st1_3 t) fullShare ((datTC Vv c).before 3 t d))
    ∗ (∃ d, owns (c : Thread nD τ) (st1_4 t) fullShare ((datTC Vv c).before 4 t d)))

/-- and what it returns. -/
def bodyPost (c : Dev nD) (t : Fin cfg1.N) : sProp 𝕄 :=
  iprop((datTC Vv c).Φ t.succ ∗ (datTC Vv c).owesAt none t.succ
    ∗ owns (c : Thread nD τ) (st1_0 t) fullShare ((datTC Vv c).after 0 t)
    ∗ owns (c : Thread nD τ) (st1_1 t) fullShare ((datTC Vv c).after 1 t)
    ∗ owns (c : Thread nD τ) (st1_2 t) fullShare ((datTC Vv c).after 2 t)
    ∗ owns (c : Thread nD τ) (st1_3 t) fullShare ((datTC Vv c).after 3 t)
    ∗ owns (c : Thread nD τ) (st1_4 t) fullShare ((datTC Vv c).after 4 t))

theorem sound_body (c : Dev nD) (t : Fin cfg1.N) :
    bodyPre Vv c t ⊢ wp frame (wpE (defs₀ (F := F)) Variants.none c none) Set.univ (bodyAt1 t) (fun _ => bodyPost Vv c t) := by
  unfold bodyPre bodyPost bodyAt1
  simp only [before_0, before_1]
  rw [show (datTC Vv c).Φ t.succ = (datTC Vv c).Φ t.castSucc from rfl,
    show (datTC Vv c).owesAt none t.succ = (datTC Vv c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_tc c Set.univ _ _ _ _ _ _ _ _ _ _ _ (iblk Vv c 0 t) (iblk Vv c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (datTC (F := F) Vv c) (defs₀ (F := F)) Variants.none none Set.univ := fun t => by
  rw [bigSep_W1, bigSep_W1]
  exact sound_body Vv c t

end Region

/-! ## The region as a segment of @main, entered from the buffer contents `W1` -/

section Seg

open Idealize.ShloMosaic.StableHlo (held)

variable (W1 : Dev nD → Valuation τ sig (Elt F))

/-- The entry contents read at the TensorCore's references. -/
abbrev V1 : (c : Dev nD) → (b : Ref sig .tc) → Buf (Elt F) ((c : Thread nD τ).loc b) := fun c b => W1 c b

/-- The buffer contents at the region's exit: its five arrays at what the pipeline leaves (the two arguments as
    entered, each result's write-backs folded), every other buffer as entered. -/
def W2 (c : Dev nD) : Valuation τ sig (Elt F) :=
  Pipeline.withArrays spec1 c (W1 c) fun w => (datTC (V1 W1) c).arrAt w cfg1.N
theorem W2_arr (c : Dev nD) (w : Fin cfg1.W) :
    W2 W1 c (Proc.devRef .tc (Pipeline.arrRef spec1 w)) = (datTC (V1 W1) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 W1 c (Proc.devRef .tc b) = W1 c (Proc.devRef .tc b) := by
  unfold W2; exact Pipeline.withArrays_of_ne spec1 c _ _ b hb
abbrev V2 : (c : Dev nD) → (b : Ref sig .tc) → Buf (Elt F) ((c : Thread nD τ).loc b) := fun c b => W2 W1 c b
theorem hFarr (c : Dev nD) (w : Fin cfg1.W) : (datTC (V1 W1) c).arrAt w cfg1.N = V2 W1 c (Pipeline.arrRef spec1 w) :=
  (W2_arr W1 c w).symm
theorem hrest (c : Dev nD) : ∀ b, b ∉ Finset.univ.image (Pipeline.arrRef spec1) → V2 W1 c b = V1 W1 c b :=
  fun b hb => W2_of_ne W1 c b fun w e => hb (Finset.mem_image.mpr ⟨w, Finset.mem_univ _, e⟩)

/-- No pipeline has a prefetched table. -/
abbrev admR : (p : Fin 1) → (pcfgs (F := F) p).Adm := fun p => (cfgs p).toPCfg_adm
/-- The one pipeline's proof data, at the region's entry contents. -/
def pdats : (p : Fin 1) → (c : Dev nD) → Dat τ (Elt F) (HIx 1) ℕ UU ℕ (Pipeline.pin (pcfgs (F := F)) admR p) c
  | ⟨0, _⟩ => fun c => datTC (V1 W1) c

/-- What rides beside the buffers: the generator register at some state, and the TensorCore owing nothing, its
    recorded waits bounded as after the SparseCore call. -/
abbrev Rr (c : Dev nD) : sProp 𝕄 :=
  iprop((∃ r, prngReg c r) ∗ ∃ W, ⌜(K (F := F)).WBelow (c : Thread nD τ) W 8⌝ ∗ owes (c : Thread nD τ) (0 : CellTallies nD τ sig (HIx 1)) W)

set_option backward.isDefEq.respectTransparency.types false in
/-- The region over the thread state "every unscoped buffer at the boundary's contents, `Rr`": entered at `W1`,
    left at `W2`. -/
def regTC : Pipeline.RegionSeg (pcfgs (F := F)) admR (pdats W1) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (V1 W1) c).loose
  hwaits := Pipeline.hwaits_of_owed_zero _ _ _ _ (K (F := F)).L (K (F := F)).lev 0 fun _ _ => rfl
  pre c := iprop(held (c : Thread nD τ) (Pipeline.ucRefs τ sig) (W1 c) ∗ Rr c)
  post c := iprop(held (c : Thread nD τ) (Pipeline.ucRefs τ sig) (W2 W1 c) ∗ Rr c)
  X c := iprop(∃ r, prngReg c r)
  Y c := iprop(∃ r, prngReg c r)
  Z c := Pipeline.unscopedRest (Ix := HIx 1) (Name := ℕ) (U := UU) (Lvl := ℕ) spec1 c (V1 W1 c)
  hentry c := by
    rw [Pipeline.ownSems0_none]
    have hsplit := Pipeline.arrays_of_unscopedBufs (p := 0) (pcfgs (F := F)) admR (pdats W1) launch1.win launch1.arr_whole c
      ((pdats W1 0 c).share_full fun _ => rfl) (V1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats W1 0 c).Φ 0 = ΦH c from rfl]; unfold ΦH
    iintro ⟨Hp, -, Hr⟩
    isplitl [Hr]; · iexact Hr
    iexact Hp
  hout c := by
    rw [Pipeline.ownSems0_none, show (pdats W1 0 c).Φ (Fin.last _) = ΦH c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) admR (Ix := HIx 1) (Name := ℕ) (U := UU) (Lvl := ℕ)
      launch1.win launch1.arr_whole c (pdats W1) ((pdats W1 0 c).share_full fun _ => rfl)
      (V1 W1 c) (V2 W1 c) ((pdats W1 0 c).arrAt · cfg1.N) (hFarr W1 c) (hrest W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact le_of_eq_of_le ((K (F := F)).lev_none _) (Nat.zero_le _)
    iexact HO

end Seg

end Cert.Proof.KB

end
-- ==== Proof.KBMain.lean ====
/-
  @main on the TensorCore, and the program's run. @main starts the SparseCore call and waits for it (the two
  arguments and the call's result go to the tiles and come back, the result at the tiles' row dots), enters the
  TensorCore pipeline (the five arrays split out of the unscoped buffers and put back at what the pipeline leaves),
  and runs its two host operations (the zero offset, and the row sums overwritten from word 0 by the tiles' row dots).
-/
import proofs.«209947_g87935160418510_cont_sun_m_973_20_alg».proof.Proof.KBLaunch
import proofs.«209947_g87935160418510_cont_sun_m_973_20_alg».proof.Proof.KBRegion

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic
open Idealize.ShloMosaic.Pipeline (Dat Seg HostSeg RegionSeg)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The buffer contents at each boundary of @main -/

/-- At launch. -/
abbrev W0 (d : Dev nD) : Valuation τ sig (Elt F) := fun b => m (d, b)
/-- After the SparseCore call: its result at the tiles' row dots. -/
def WS (d : Dev nD) : Valuation τ sig (Elt F) := Function.update (W0 m d) (Proc.devRef .tc main_v0) (outF m d)

/-- @main's two host operations after the pipeline. -/
abbrev tailOps : List (HloOp τ sig (Elt F)) :=
  [ StableHlo.nullary main_c (constantI S_ 32 0#32),
    StableHlo.binaryIndexed main_v1_2 main_v0 ![main_c] ⟨S_, .i32⟩ main_v2 ((fun x u i => Host.dynamicUpdateSlice x u (fun k => (i k (Shape.Idx.first h_S_)).toInt) updateFits_S16384_S2048) : (⟨S16384, .f32⟩ : BufTy).Contents (Elt F) → (⟨S2048, .f32⟩ : BufTy).Contents (Elt F) → (Fin 1 → (⟨S_, .i32⟩ : BufTy).Contents (Elt F)) → (⟨S16384, .f32⟩ : BufTy).Contents (Elt F)) ]

theorem tailOps_sub : (tailOps : List (HloOp τ sig (Elt F))).Forall fun op => op.bufs ⊆ StableHlo.tcRefs τ sig :=
  ⟨StableHlo.nullary_bufs_sub .., StableHlo.binaryIndexed_bufs_sub ..⟩
theorem tailOps_fresh : (tailOps : List (HloOp τ sig (Elt F))).Forall fun op => op.fresh = ∅ := by
  simp only [List.Forall]; repeat' constructor

/-- At @main's end. -/
abbrev WE (d : Dev nD) : Valuation τ sig (Elt F) := StableHlo.after tailOps (W2 (WS m) d)

/-- The host operations as a segment, from the pipeline's exit contents. -/
abbrev hsegT : HostSeg (Name := ℕ) (U := UU) (pcfgs (F := F)) defs₀ 𝒱₀ (K (F := F)).L (K (F := F)).lev :=
  HostSeg.ofOps _ _ _ _ _ (Pipeline.ucRefs τ sig) tailOps
    (fun op h => Pipeline.sub_ucRefs op ((List.forall_iff_forall_mem.mp tailOps_sub) op h))
    (fun op h => (List.forall_iff_forall_mem.mp tailOps_fresh) op h) (W2 (WS m)) Rr

/-- @main after the SparseCore call, as segments: the pipeline's region, the host operations. -/
abbrev segs : List (Seg (pcfgs (F := F)) admR (pdats (WS m)) none defs₀ 𝒱₀ (K (F := F)).L (K (F := F)).lev) :=
  [.region (regTC (WS m)), .host (hsegT m)]

theorem main_eq (d : Dev nD) :
    main (F := F) d = (K (F := F)).run d 0 >>= fun _ => SparseCore.liftProg (Seg.run (segs m)) := by
  rfl

/-! ## @main on the TensorCore -/

abbrev a' : DevRef τ sig := Proc.devRef .tc (main_arg0 : Ref sig .tc)
abbrev b' : DevRef τ sig := Proc.devRef .tc (main_arg1 : Ref sig .tc)
abbrev o' : DevRef τ sig := Proc.devRef .tc (main_v0 : Ref sig .tc)
/-- The three arrays the SparseCore call takes. -/
abbrev S3 : Finset (DevRef τ sig) := {a', b', o'}

omit [FloatOps F] in
theorem S3_sub : S3 ⊆ Pipeline.ucRefs τ sig := by decide

omit [FloatOps F] in
theorem held_S3 (d : Dev nD) (W : Valuation τ sig (Elt F)) :
    (held (T d) S3 W : sProp 𝕄) = iprop((aLoc d ↦{fullShare} W a') ∗ (bLoc d ↦{fullShare} W b') ∗ oLoc d ↦{fullShare} W o') := by
  unfold held S3
  rw [SparseCore.bigSep_insert' (by decide), SparseCore.bigSep_insert' (by decide), bigSep_singleton]

theorem WS_a (d : Dev nD) : WS m d a' = m (aLoc d) := Function.update_of_ne (show a' ≠ o' by decide) _ _
theorem WS_b (d : Dev nD) : WS m d b' = m (bLoc d) := Function.update_of_ne (show b' ≠ o' by decide) _ _
theorem WS_o (d : Dev nD) : WS m d o' = outF m d := Function.update_self _ _ _
theorem held_rest_WS (d : Dev nD) :
    (held (T d) (Pipeline.ucRefs τ sig \ S3) (WS m d) : sProp 𝕄) = held (T d) (Pipeline.ucRefs τ sig \ S3) (W0 m d) :=
  held_congr (T d) fun b hb => Function.update_of_ne (fun e => (Finset.mem_sdiff.mp hb).2 (by rw [e]; decide)) _ _

/-- After the call the unscoped buffers are held at the post-call contents. -/
theorem held_WS (d : Dev nD) :
    iprop(aPts m d ∗ bPts m d ∗ oPts d (outF m d) ∗ held (T d) (Pipeline.ucRefs τ sig \ S3) (W0 m d))
      ⊢ (held (T d) (Pipeline.ucRefs τ sig) (WS m d) : sProp 𝕄) := by
  rw [held_sub_split (T d) S3_sub (WS m d), held_S3, WS_a, WS_b, WS_o, held_rest_WS]
  iintro ⟨Ha, Hb, Ho, Hr⟩
  isplitl [Ha Hb Ho]
  · isplitl [Ha]; · iexact Ha
    isplitl [Hb]; · iexact Hb
    iexact Ho
  iexact Hr

theorem segs_nodup : (Seg.pipes (segs m)).Nodup := by
  simp only [segs, Seg.pipes_host, Seg.pipes_region, Seg.pipes_nil]; decide

theorem ghostOn_eq (d : Dev nD) :
    (Pipeline.ghostOn (pcfgs (F := F)) admR EP Finset.univ d : sProp 𝕄) = G (F := F) d :=
  bigSep_univ_of_subsingleton (0 : Fin 1)

theorem st0_eq (d : Dev nD) : (bigSep Finset.univ fun c : Fin ((K (F := F)).nCore 0) => (P m).st 0 d c) = iprop(aPts m d ∗ bPts m d ∗ ∃ f, oPts d f) :=
  bigSep_univ_of_subsingleton (0 : Fin 1)
theorem dn0_eq (d : Dev nD) : (bigSep Finset.univ fun c : Fin ((K (F := F)).nCore 0) => (P m).dn 0 d c) = iprop(aPts m d ∗ bPts m d ∗ oPts d (outF m d)) :=
  bigSep_univ_of_subsingleton (0 : Fin 1)

/-- What @main leaves the claim: every unscoped buffer at the end contents. -/
abbrev FIN (d : Dev nD) : sProp 𝕄 := held (T d) (Pipeline.ucRefs τ sig) (WE m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (W0 m d)
    from Pipeline.unscopedBufs_held d (W0 m d), held_sub_split (T d) S3_sub (W0 m d), held_S3]
  rw [main_eq m d, wp_bind]
  iintro ⟨#Hctx, Hst, ⟨Hb, ⟨⟨Ha, Hbb, Ho⟩, Hrest⟩, -, Hprng⟩, HG⟩
  iapply ((K (F := F)).wp_run (D (F := F)) 𝒱 (EH := EH) (P := P m) κ d 0) $$ [Hst Ha Hbb Ho Hb Hrest Hprng HG]
  isplitr; · iexact Hctx
  isplitl [Hst]; · iexact Hst
  isplitl [Ha Hbb Ho]
  · rw [st0_eq]
    isplitl [Ha]; · iexact Ha
    isplitl [Hbb]; · iexact Hbb
    iexists _; iexact Ho
  iintro ⟨Hst, Hdn⟩
  ihave Hdn' := (Entails.of_eq (dn0_eq m d)) $$ Hdn
  icases Hdn' with ⟨Ha, Hbb, Ho⟩
  ihave Hheld := (held_WS m d) $$ [Ha Hbb Ho Hrest]
  · isplitl [Ha]; · iexact Ha
    isplitl [Hbb]; · iexact Hbb
    isplitl [Ho]; · iexact Ho
    iexact Hrest
  ihave Hlev := (SparseCore.Cfg.ctx_levAts κ) $$ Hctx
  iapply ((K (F := F)).wp_liftProg (D (F := F)) 𝒱 (T d) Set.univ none (Seg.run (segs m)) _)
  iapply (Pipeline.wp_segs (pcfgs (F := F)) admR (pdats (WS m)) none cellOf_inj EP defs₀ 𝒱₀ (K (F := F)).L (K (F := F)).lev d
      (segs m) Finset.univ (fun c => (regTC (WS m)).pre c) (fun c => (hsegT m).post c) (segs_nodup m) (fun _ _ => Finset.mem_univ _)
      ⟨fun _ => .rfl, fun _ => .rfl, fun _ => .rfl⟩)
  rw [show (hsegT m).post d = iprop(held (d.tc : Thread nD τ) (Pipeline.ucRefs τ sig) (WE m d) ∗ Rr d) from rfl,
    show (regTC (WS m)).pre d = iprop(held (d.tc : Thread nD τ) (Pipeline.ucRefs τ sig) (WS m d) ∗ Rr d) from rfl,
    show ((0 : Fin 1) : ℕ) + 1 = 1 from rfl]
  unfold SparseCore.Cfg.tcSt
  rw [(K (F := F)).Otc_end d (le_refl 1)]
  icases Hst with ⟨⟨%W, %hW, HO⟩, Hst'⟩
  isplitl [Hst']
  · iintro ⟨-, Hh, -, %W', %hW', HO'⟩
    isplitl [HO' Hst']
    · isplitl [HO']
      · iexists W'; isplitr
        · ipureintro; exact hW'
        · iexact HO'
      · iexact Hst'
    · iexact Hh
  isplitl [Hb]; · iexact Hb
  isplitl [Hheld Hprng HO]
  · isplitl [Hheld]; · iexact Hheld
    isplitl [Hprng]; · iexists _; iexact Hprng
    iexists W; isplitr
    · ipureintro; exact hW
    · iexact HO
  isplitr; · iexact Hlev
  rw [ghostOn_eq]; iexact HG

/-! ## Reading the final memory -/

def fq (d : Dev nD) (s' : Phys nD τ sig (Elt F)) : Prop := ∀ b ∈ Pipeline.ucRefs τ sig, s'.mem.mem (d, b) = WE m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all (Pipeline.ucRefs τ sig) (fun b => ((d, b) : Loc nD τ sig)) (WE m d) s') $$ [Hh HSI]
  · isplitl [Hh] <;> iassumption
  icases Hr with ⟨%h, -⟩
  ipureintro; exact h

/-! ## The program's run -/

/-- Every unscoped buffer of every device ends at @main's end contents. -/
def QC : PUnit × MemSt nD τ sig (Elt F) → Prop := fun r => ∀ c : Dev nD, ∀ b ∈ Pipeline.ucRefs τ sig, r.2.mem (c, b) = WE m c b

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

/-! ## The end contents at the arguments and the results -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The first argument ends as launched: no host operation writes it, the pipeline reads it through an input window,
    the SparseCore call hands it back. -/
theorem WE_arg0 (d : Dev nD) : WE m d a' = m (aLoc d) :=
  calc WE m d a'
    _ = W2 (WS m) d a' := by unfold WE; after_results
    _ = WS m d a' := (W2_arr (WS m) d 0).trans (((datTC (V1 (WS m)) d).arrAt_in 0 rfl _).trans (A_eq (V1 (WS m)) d 0))
    _ = m (aLoc d) := WS_a m d
theorem WE_arg1 (d : Dev nD) : WE m d b' = m (bLoc d) :=
  calc WE m d b'
    _ = W2 (WS m) d b' := by unfold WE; after_results
    _ = WS m d b' := (W2_arr (WS m) d 1).trans (((datTC (V1 (WS m)) d).arrAt_in 1 rfl _).trans (A_eq (V1 (WS m)) d 1))
    _ = m (bLoc d) := WS_b m d
/-- The two copy results end at what the pipeline's write-backs leave in them. -/
theorem WE_copy0 (d : Dev nD) : WE m d (Proc.devRef .tc main_v1_0) = (datTC (V1 (WS m)) d).arrAt 2 cfg1.N :=
  (show WE m d (Proc.devRef .tc main_v1_0) = W2 (WS m) d (Proc.devRef .tc main_v1_0) by unfold WE; after_results).trans (W2_arr (WS m) d 2)
theorem WE_copy1 (d : Dev nD) : WE m d (Proc.devRef .tc main_v1_1) = (datTC (V1 (WS m)) d).arrAt 3 cfg1.N :=
  (show WE m d (Proc.devRef .tc main_v1_1) = W2 (WS m) d (Proc.devRef .tc main_v1_1) by unfold WE; after_results).trans (W2_arr (WS m) d 3)
/-- The first result ends at the pipeline's row sums overwritten from word 0 by the tiles' row dots. -/
theorem WE_sum (d : Dev nD) :
    WE m d (Proc.devRef .tc main_v2)
      = Host.dynamicUpdateSlice ((datTC (V1 (WS m)) d).arrAt 4 cfg1.N) (outF m d) (fun _ => (0 : Int)) updateFits_S16384_S2048 := by
  unfold WE
  after_results
  rw [W2_arr (WS m) d 4, W2_of_ne (WS m) d main_v0 (by decide), WS_o]
  refine congrArg (fun idx => Host.dynamicUpdateSlice ((datTC (V1 (WS m)) d).arrAt 4 cfg1.N) (outF m d) idx updateFits_S16384_S2048) ?_
  funext k
  obtain rfl : k = 0 := Subsingleton.elim _ _
  show BitVec.toInt ((StableHlo.nullary main_c (constantI S_ 32 0#32) _).result (W2 (WS m) d) (Proc.devRef .tc main_c) (Shape.Idx.first h_S_)) = 0
  rw [StableHlo.nullary_result]
  rfl

end Cert.Proof.KB

end
-- ==== Proof.KICommon.lean ====
/-
  The set-up shared by every part of the kernel program's run: the program as the SparseCore launch theorem
  sees it (one vector-subcore call on one SparseCore's sixteen tiles, then one TensorCore pipeline of four points,
  then two host operations), the ghost state (the launch handshakes' rounds, the pipeline's staging cells' rounds,
  the tiles' own transfer counters), the arrays' locations and the memrefs the tiles address them through.
-/
import proofs.«209947_g87935160418510_cont_sun_m_973_20_alg».proof.Proof.Gen.KernelIdeal
import proofs.«209947_g87935160418510_cont_sun_m_973_20_alg».proof.Proof.Gen.KernelIdeal.Launch
import proofs.«209947_g87935160418510_cont_sun_m_973_20_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's staging cells' rounds, the tiles' transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev aLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

end Cert.Proof.KI

end
-- ==== Proof.KITileVal.lean ====
/-
  Pure facts about one tile's task: what a word of a rank-one scratch reads after a store of sixteen words at an
  offset (the store's lane, or what was there); what a sixteen-wide load of a row scratch reads (sixteen consecutive
  columns of one row); that each of a trip's four stored vectors is, lane by lane, the balanced sum of eight of its
  row's products; that the group's stored vector is, lane by lane, the balanced sum of sixteen of the transposed
  reads; the words of the sixteen index vectors (lane i of the j-th is 16·i + j); and the two loops' invariants'
  steps over these.
-/
import proofs.«209947_g87935160418510_cont_sun_m_973_20_alg».proof.Proof.Spec
import proofs.«209947_g87935160418510_cont_sun_m_973_20_alg».proof.Proof.Gen.KernelIdeal
import proofs.«209947_g87935160418510_cont_sun_m_973_20_alg».proof.Proof.Gen.KernelIdeal.Skeleton
import Idealize.ShloMosaic.Lib.Writes
import Idealize.ShloMosaic.Lib.ValueLayout
import Idealize.ShloMosaic.Lib.ValueIdx

noncomputable section

namespace Cert.Proof.KI

open Cert.KernelIdeal Cert.KernelIdeal.Gen
open Idealize.ShloMosaic Idealize.ShloMosaic.ValueIdx

/-! ## A rank-one buffer after a store of sixteen words -/

section Writes1

variable {sig : RefSig} {κ : Kind} {sp : Space} {N : Nat} {e : EltTy} {Val : EltTy → Type}
variable (v : View sig κ sp ⟨1, ![N]⟩ e) (f : v.ty.Contents Val)

/-- Word n, under the last store (n = off + i): the store's lane i. -/
theorem read_writes_unit_hit (off : Fin 1 → Nat) (inb : ∀ a, off a + S16.size a ≤ (⟨1, ![N]⟩ : Shape).size a)
    (w : (Rect.unit (s := ⟨1, ![N]⟩) off S16.size inb).shape.Idx → Val e) (L : List (View.Piece Val ⟨1, ![N]⟩ e))
    (n : Fin N) (i : Fin 16) (h : n.val = off 0 + i.val) :
    v.read Val (v.writes Val f (⟨Rect.unit (s := ⟨1, ![N]⟩) off S16.size inb, w⟩ :: L)) (ix1 n) = w (ix1 i) := by
  have e : (ix1 n : (⟨1, ![N]⟩ : Shape).Idx) = (Rect.unit (s := ⟨1, ![N]⟩) off S16.size inb).emb (ix1 i) := by
    funext a; apply Fin.ext
    obtain rfl : a = 0 := Subsingleton.elim _ _
    show n.val = off 0 + 1 * i.val
    omega
  rw [e]; exact View.read_writes_cons_emb v f _ w L _

/-- Word n, clear of the last store: what the earlier stores left. -/
theorem read_writes_unit_miss (off : Fin 1 → Nat) (inb : ∀ a, off a + S16.size a ≤ (⟨1, ![N]⟩ : Shape).size a)
    (w : (Rect.unit (s := ⟨1, ![N]⟩) off S16.size inb).shape.Idx → Val e) (L : List (View.Piece Val ⟨1, ![N]⟩ e))
    (n : Fin N) (h : n.val < off 0 ∨ off 0 + 16 ≤ n.val) :
    v.read Val (v.writes Val f (⟨Rect.unit (s := ⟨1, ![N]⟩) off S16.size inb, w⟩ :: L)) (ix1 n) = v.read Val (v.writes Val f L) (ix1 n) := by
  rw [View.writes_cons]
  refine View.read_slice_write_of_not_mem _ _ _ _ ?_
  rw [Rect.map_emb_univ, Rect.mem_set_unit]
  intro hm
  have h0 : off 0 ≤ n.val ∧ n.val < off 0 + 16 := hm 0
  omega

end Writes1

/-! ## A sixteen-wide load of a row scratch -/

section Rows

variable {sig : RefSig} {κ : Kind} {sp : Space} {F : FTy → Type}

/-- Row R of a 128 × 128 buffer, as its view reads it. -/
def vrow (v : View sig κ sp S128x128 .f32) (f : v.ty.Contents (Elt F)) (R : Fin 128) : Fin 128 → F .f32 :=
  fun c => v.read (Elt F) f (ix2 R c)

theorem readAt_row (v : View sig κ sp S128x128 .f32) (f : v.ty.Contents (Elt F)) (off : Fin 2 → Nat)
    (inb : ∀ a, off a + S1x16.size a ≤ S128x128.size a) (R : Fin 128) (c0 : Nat) (j : Fin 16) (hc : c0 + j.val < 128)
    (h0 : off 0 = R.val) (h1 : off 1 = c0) :
    v.readAt (Elt F) (Rect.unit (s := S128x128) off S1x16.size inb).toLoadRect f (ix2 (0 : Fin 1) j) = vrow v f R ⟨c0 + j.val, hc⟩ := by
  unfold vrow
  rw [View.readAt_apply]; congr 1
  funext a; apply Fin.ext
  match a with
  | ⟨0, _⟩ => show off 0 + 1 * ((0 : Fin 1) : Nat) = R.val; rw [h0]; simp
  | ⟨1, _⟩ => show off 1 + 1 * j.val = c0 + j.val; rw [h1]; omega

end Rows

variable {F : FTy → Type} [FloatOps F]

/-! ## The stored vectors -/

section Pay

variable {sig : RefSig} {κ κ' : Kind} {sp sp' : Space}
variable (vA : View sig κ sp S128x128 .f32) (fA : vA.ty.Contents (Elt F)) (vB : View sig κ' sp' S128x128 .f32) (fB : vB.ty.Contents (Elt F))

/-- Row 0 of a trip's four: the stored vector's lane j is the lane sum of row 16·g + 4·q + 0 of the two scratches. -/
theorem row0_eq (g : Fin k0_t1_loop.trips) (q : Fin k0_t2_loop.trips) (R : Fin 128) (hR : R.val = 16 * g.val + 4 * q.val + 0) (j : Fin 16) :
    (k0_pay14 (k0_pay8 (vA.readAt (Elt F) (Rect.unit (s := S128x128) (k0_off2 g q 0#32) S1x16.size (k0_off2_inb g q 0)).toLoadRect fA) (vB.readAt (Elt F) (Rect.unit (s := S128x128) (k0_off2 g q 0#32) S1x16.size (k0_off2_inb g q 0)).toLoadRect fB)) (k0_pay9 (vA.readAt (Elt F) (Rect.unit (s := S128x128) (k0_off3 g q 0#32) S1x16.size (k0_off3_inb g q 0)).toLoadRect fA) (vB.readAt (Elt F) (Rect.unit (s := S128x128) (k0_off3 g q 0#32) S1x16.size (k0_off3_inb g q 0)).toLoadRect fB)) (k0_pay10 (vA.readAt (Elt F) (Rect.unit (s := S128x128) (k0_off4 g q 0#32) S1x16.size (k0_off4_inb g q 0)).toLoadRect fA) (vB.readAt (Elt F) (Rect.unit (s := S128x128) (k0_off4 g q 0#32) S1x16.size (k0_off4_inb g q 0)).toLoadRect fB)) (k0_pay11 (vA.readAt (Elt F) (Rect.unit (s := S128x128) (k0_off5 g q 0#32) S1x16.size (k0_off5_inb g q 0)).toLoadRect fA) (vB.readAt (Elt F) (Rect.unit (s := S128x128) (k0_off5 g q 0#32) S1x16.size (k0_off5_inb g q 0)).toLoadRect fB)) (k0_pay12 (vA.readAt (Elt F) (Rect.unit (s := S128x128) (k0_off6 g q 0#32) S1x16.size (k0_off6_inb g q 0)).toLoadRect fA) (vB.readAt (Elt F) (Rect.unit (s := S128x128) (k0_off6 g q 0#32) S1x16.size (k0_off6_inb g q 0)).toLoadRect fB)) (k0_pay13 (vA.readAt (Elt F) (Rect.unit (s := S128x128) (k0_off7 g q 0#32) S1x16.size (k0_off7_inb g q 0)).toLoadRect fA)) (vB.readAt (Elt F) (Rect.unit (s := S128x128) (k0_off7 g q 0#32) S1x16.size (k0_off7_inb g q 0)).toLoadRect fB) (vA.readAt (Elt F) (Rect.unit (s := S128x128) (k0_off8 g q 0#32) S1x16.size (k0_off8_inb g q 0)).toLoadRect fA) (vB.readAt (Elt F) (Rect.unit (s := S128x128) (k0_off8 g q 0#32) S1x16.size (k0_off8_inb g q 0)).toLoadRect fB) (vA.readAt (Elt F) (Rect.unit (s := S128x128) (k0_off9 g q 0#32) S1x16.size (k0_off9_inb g q 0)).toLoadRect fA) (vB.readAt (Elt F) (Rect.unit (s := S128x128) (k0_off9 g q 0#32) S1x16.size (k0_off9_inb g q 0)).toLoadRect fB)) (ix1 j)
      = Cert.Spec.lanePart (vrow vA fA R) (vrow vB fB R) j := by
  have ea0 := readAt_row vA fA (k0_off2 g q 0#32) (k0_off2_inb g q 0) R (16 * 0) j (by have := j.isLt; omega) (hR ▸ congrFun (k0_off2_eq g q ⟨0, by decide⟩) 0) (congrFun (k0_off2_eq g q ⟨0, by decide⟩) 1)
  have eb0 := readAt_row vB fB (k0_off2 g q 0#32) (k0_off2_inb g q 0) R (16 * 0) j (by have := j.isLt; omega) (hR ▸ congrFun (k0_off2_eq g q ⟨0, by decide⟩) 0) (congrFun (k0_off2_eq g q ⟨0, by decide⟩) 1)
  have ea1 := readAt_row vA fA (k0_off3 g q 0#32) (k0_off3_inb g q 0) R (16 * 1) j (by have := j.isLt; omega) (hR ▸ congrFun (k0_off3_eq g q ⟨0, by decide⟩) 0) (congrFun (k0_off3_eq g q ⟨0, by decide⟩) 1)
  have eb1 := readAt_row vB fB (k0_off3 g q 0#32) (k0_off3_inb g q 0) R (16 * 1) j (by have := j.isLt; omega) (hR ▸ congrFun (k0_off3_eq g q ⟨0, by decide⟩) 0) (congrFun (k0_off3_eq g q ⟨0, by decide⟩) 1)
  have ea2 := readAt_row vA fA (k0_off4 g q 0#32) (k0_off4_inb g q 0) R (16 * 2) j (by have := j.isLt; omega) (hR ▸ congrFun (k0_off4_eq g q ⟨0, by decide⟩) 0) (congrFun (k0_off4_eq g q ⟨0, by decide⟩) 1)
  have eb2 := readAt_row vB fB (k0_off4 g q 0#32) (k0_off4_inb g q 0) R (16 * 2) j (by have := j.isLt; omega) (hR ▸ congrFun (k0_off4_eq g q ⟨0, by decide⟩) 0) (congrFun (k0_off4_eq g q ⟨0, by decide⟩) 1)
  have ea3 := readAt_row vA fA (k0_off5 g q 0#32) (k0_off5_inb g q 0) R (16 * 3) j (by have := j.isLt; omega) (hR ▸ congrFun (k0_off5_eq g q ⟨0, by decide⟩) 0) (congrFun (k0_off5_eq g q ⟨0, by decide⟩) 1)
  have eb3 := readAt_row vB fB (k0_off5 g q 0#32) (k0_off5_inb g q 0) R (16 * 3) j (by have := j.isLt; omega) (hR ▸ congrFun (k0_off5_eq g q ⟨0, by decide⟩) 0) (congrFun (k0_off5_eq g q ⟨0, by decide⟩) 1)
  have ea4 := readAt_row vA fA (k0_off6 g q 0#32) (k0_off6_inb g q 0) R (16 * 4) j (by have := j.isLt; omega) (hR ▸ congrFun (k0_off6_eq g q ⟨0, by decide⟩) 0) (congrFun (k0_off6_eq g q ⟨0, by decide⟩) 1)
  have eb4 := readAt_row vB fB (k0_off6 g q 0#32) (k0_off6_inb g q 0) R (16 * 4) j (by have := j.isLt; omega) (hR ▸ congrFun (k0_off6_eq g q ⟨0, by decide⟩) 0) (congrFun (k0_off6_eq g q ⟨0, by decide⟩) 1)
  have ea5 := readAt_row vA fA (k0_off7 g q 0#32) (k0_off7_inb g q 0) R (16 * 5) j (by have := j.isLt; omega) (hR ▸ congrFun (k0_off7_eq g q ⟨0, by decide⟩) 0) (congrFun (k0_off7_eq g q ⟨0, by decide⟩) 1)
  have eb5 := readAt_row vB fB (k0_off7 g q 0#32) (k0_off7_inb g q 0) R (16 * 5) j (by have := j.isLt; omega) (hR ▸ congrFun (k0_off7_eq g q ⟨0, by decide⟩) 0) (congrFun (k0_off7_eq g q ⟨0, by decide⟩) 1)
  have ea6 := readAt_row vA fA (k0_off8 g q 0#32) (k0_off8_inb g q 0) R (16 * 6) j (by have := j.isLt; omega) (hR ▸ congrFun (k0_off8_eq g q ⟨0, by decide⟩) 0) (congrFun (k0_off8_eq g q ⟨0, by decide⟩) 1)
  have eb6 := readAt_row vB fB (k0_off8 g q 0#32) (k0_off8_inb g q 0) R (16 * 6) j (by have := j.isLt; omega) (hR ▸ congrFun (k0_off8_eq g q ⟨0, by decide⟩) 0) (congrFun (k0_off8_eq g q ⟨0, by decide⟩) 1)
  have ea7 := readAt_row vA fA (k0_off9 g q 0#32) (k0_off9_inb g q 0) R (16 * 7) j (by have := j.isLt; omega) (hR ▸ congrFun (k0_off9_eq g q ⟨0, by decide⟩) 0) (congrFun (k0_off9_eq g q ⟨0, by decide⟩) 1)
  have eb7 := readAt_row vB fB (k0_off9 g q 0#32) (k0_off9_inb g q 0) R (16 * 7) j (by have := j.isLt; omega) (hR ▸ congrFun (k0_off9_eq g q ⟨0, by decide⟩) 0) (congrFun (k0_off9_eq g q ⟨0, by decide⟩) 1)
  simp only [k0_pay14, k0_pay8, k0_pay9, k0_pay10, k0_pay11, k0_pay12, k0_pay13, mulf, addf, shapeCast_1a_a_apply, ea0, ea1, ea2, ea3, ea4, ea5, ea6, ea7, eb0, eb1, eb2, eb3, eb4, eb5, eb6, eb7]
  rfl

/-- Row 1 of a trip's four: the stored vector's lane j is the lane sum of row 16·g + 4·q + 1 of the two scratches. -/
theorem row1_eq (g : Fin k0_t1_loop.trips) (q : Fin k0_t2_loop.trips) (R : Fin 128) (hR : R.val = 16 * g.val + 4 * q.val + 1) (j : Fin 16) :
    (k0_pay21 (k0_pay18 (vA.readAt (Elt F) (Rect.unit (s := S128x128) (k0_off6 g q 1#32) S1x16.size (k0_off6_inb g q 1)).toLoadRect fA) (vB.readAt (Elt F) (Rect.unit (s := S128x128) (k0_off6 g q 1#32) S1x16.size (k0_off6_inb g q 1)).toLoadRect fB) (vA.readAt (Elt F) (Rect.unit (s := S128x128) (k0_off7 g q 1#32) S1x16.size (k0_off7_inb g q 1)).toLoadRect fA) (vB.readAt (Elt F) (Rect.unit (s := S128x128) (k0_off7 g q 1#32) S1x16.size (k0_off7_inb g q 1)).toLoadRect fB)) (k0_pay19 (vA.readAt (Elt F) (Rect.unit (s := S128x128) (k0_off8 g q 1#32) S1x16.size (k0_off8_inb g q 1)).toLoadRect fA) (vB.readAt (Elt F) (Rect.unit (s := S128x128) (k0_off8 g q 1#32) S1x16.size (k0_off8_inb g q 1)).toLoadRect fB) (vA.readAt (Elt F) (Rect.unit (s := S128x128) (k0_off9 g q 1#32) S1x16.size (k0_off9_inb g q 1)).toLoadRect fA) (vB.readAt (Elt F) (Rect.unit (s := S128x128) (k0_off9 g q 1#32) S1x16.size (k0_off9_inb g q 1)).toLoadRect fB)) (k0_pay20 (k0_pay15 (vA.readAt (Elt F) (Rect.unit (s := S128x128) (k0_off2 g q 1#32) S1x16.size (k0_off2_inb g q 1)).toLoadRect fA) (vB.readAt (Elt F) (Rect.unit (s := S128x128) (k0_off2 g q 1#32) S1x16.size (k0_off2_inb g q 1)).toLoadRect fB)) (k0_pay16 (vA.readAt (Elt F) (Rect.unit (s := S128x128) (k0_off3 g q 1#32) S1x16.size (k0_off3_inb g q 1)).toLoadRect fA)) (k0_pay17 (vB.readAt (Elt F) (Rect.unit (s := S128x128) (k0_off3 g q 1#32) S1x16.size (k0_off3_inb g q 1)).toLoadRect fB)) (vA.readAt (Elt F) (Rect.unit (s := S128x128) (k0_off4 g q 1#32) S1x16.size (k0_off4_inb g q 1)).toLoadRect fA) (vB.readAt (Elt F) (Rect.unit (s := S128x128) (k0_off4 g q 1#32) S1x16.size (k0_off4_inb g q 1)).toLoadRect fB) (vA.readAt (Elt F) (Rect.unit (s := S128x128) (k0_off5 g q 1#32) S1x16.size (k0_off5_inb g q 1)).toLoadRect fA) (vB.readAt (Elt F) (Rect.unit (s := S128x128) (k0_off5 g q 1#32) S1x16.size (k0_off5_inb g q 1)).toLoadRect fB))) (ix1 j)
      = Cert.Spec.lanePart (vrow vA fA R) (vrow vB fB R) j := by
  have ea0 := readAt_row vA fA (k0_off2 g q 1#32) (k0_off2_inb g q 1) R (16 * 0) j (by have := j.isLt; omega) (hR ▸ congrFun (k0_off2_eq g q ⟨1, by decide⟩) 0) (congrFun (k0_off2_eq g q ⟨1, by decide⟩) 1)
  have eb0 := readAt_row vB fB (k0_off2 g q 1#32) (k0_off2_inb g q 1) R (16 * 0) j (by have := j.isLt; omega) (hR ▸ congrFun (k0_off2_eq g q ⟨1, by decide⟩) 0) (congrFun (k0_off2_eq g q ⟨1, by decide⟩) 1)
  have ea1 := readAt_row vA fA (k0_off3 g q 1#32) (k0_off3_inb g q 1) R (16 * 1) j (by have := j.isLt; omega) (hR ▸ congrFun (k0_off3_eq g q ⟨1, by decide⟩) 0) (congrFun (k0_off3_eq g q ⟨1, by decide⟩) 1)
  have eb1 := readAt_row vB fB (k0_off3 g q 1#32) (k0_off3_inb g q 1) R (16 * 1) j (by have := j.isLt; omega) (hR ▸ congrFun (k0_off3_eq g q ⟨1, by decide⟩) 0) (congrFun (k0_off3_eq g q ⟨1, by decide⟩) 1)
  have ea2 := readAt_row vA fA (k0_off4 g q 1#32) (k0_off4_inb g q 1) R (16 * 2) j (by have := j.isLt; omega) (hR ▸ congrFun (k0_off4_eq g q ⟨1, by decide⟩) 0) (congrFun (k0_off4_eq g q ⟨1, by decide⟩) 1)
  have eb2 := readAt_row vB fB (k0_off4 g q 1#32) (k0_off4_inb g q 1) R (16 * 2) j (by have := j.isLt; omega) (hR ▸ congrFun (k0_off4_eq g q ⟨1, by decide⟩) 0) (congrFun (k0_off4_eq g q ⟨1, by decide⟩) 1)
  have ea3 := readAt_row vA fA (k0_off5 g q 1#32) (k0_off5_inb g q 1) R (16 * 3) j (by have := j.isLt; omega) (hR ▸ congrFun (k0_off5_eq g q ⟨1, by decide⟩) 0) (congrFun (k0_off5_eq g q ⟨1, by decide⟩) 1)
  have eb3 := readAt_row vB fB (k0_off5 g q 1#32) (k0_off5_inb g q 1) R (16 * 3) j (by have := j.isLt; omega) (hR ▸ congrFun (k0_off5_eq g q ⟨1, by decide⟩) 0) (congrFun (k0_off5_eq g q ⟨1, by decide⟩) 1)
  have ea4 := readAt_row vA fA (k0_off6 g q 1#32) (k0_off6_inb g q 1) R (16 * 4) j (by have := j.isLt; omega) (hR ▸ congrFun (k0_off6_eq g q ⟨1, by decide⟩) 0) (congrFun (k0_off6_eq g q ⟨1, by decide⟩) 1)
  have eb4 := readAt_row vB fB (k0_off6 g q 1#32) (k0_off6_inb g q 1) R (16 * 4) j (by have := j.isLt; omega) (hR ▸ congrFun (k0_off6_eq g q ⟨1, by decide⟩) 0) (congrFun (k0_off6_eq g q ⟨1, by decide⟩) 1)
  have ea5 := readAt_row vA fA (k0_off7 g q 1#32) (k0_off7_inb g q 1) R (16 * 5) j (by have := j.isLt; omega) (hR ▸ congrFun (k0_off7_eq g q ⟨1, by decide⟩) 0) (congrFun (k0_off7_eq g q ⟨1, by decide⟩) 1)
  have eb5 := readAt_row vB fB (k0_off7 g q 1#32) (k0_off7_inb g q 1) R (16 * 5) j (by have := j.isLt; omega) (hR ▸ congrFun (k0_off7_eq g q ⟨1, by decide⟩) 0) (congrFun (k0_off7_eq g q ⟨1, by decide⟩) 1)
  have ea6 := readAt_row vA fA (k0_off8 g q 1#32) (k0_off8_inb g q 1) R (16 * 6) j (by have := j.isLt; omega) (hR ▸ congrFun (k0_off8_eq g q ⟨1, by decide⟩) 0) (congrFun (k0_off8_eq g q ⟨1, by decide⟩) 1)
  have eb6 := readAt_row vB fB (k0_off8 g q 1#32) (k0_off8_inb g q 1) R (16 * 6) j (by have := j.isLt; omega) (hR ▸ congrFun (k0_off8_eq g q ⟨1, by decide⟩) 0) (congrFun (k0_off8_eq g q ⟨1, by decide⟩) 1)
  have ea7 := readAt_row vA fA (k0_off9 g q 1#32) (k0_off9_inb g q 1) R (16 * 7) j (by have := j.isLt; omega) (hR ▸ congrFun (k0_off9_eq g q ⟨1, by decide⟩) 0) (congrFun (k0_off9_eq g q ⟨1, by decide⟩) 1)
  have eb7 := readAt_row vB fB (k0_off9 g q 1#32) (k0_off9_inb g q 1) R (16 * 7) j (by have := j.isLt; omega) (hR ▸ congrFun (k0_off9_eq g q ⟨1, by decide⟩) 0) (congrFun (k0_off9_eq g q ⟨1, by decide⟩) 1)
  simp only [k0_pay21, k0_pay18, k0_pay19, k0_pay20, k0_pay15, k0_pay16, k0_pay17, mulf, addf, shapeCast_1a_a_apply, ea0, ea1, ea2, ea3, ea4, ea5, ea6, ea7, eb0, eb1, eb2, eb3, eb4, eb5, eb6, eb7]
  rfl

/-- Row 2 of a trip's four: the stored vector's lane j is the lane sum of row 16·g + 4·q + 2 of the two scratches. -/
theorem row2_eq (g : Fin k0_t1_loop.trips) (q : Fin k0_t2_loop.trips) (R : Fin 128) (hR : R.val = 16 * g.val + 4 * q.val + 2) (j : Fin 16) :
    (k0_pay27 (k0_pay22 (vA.readAt (Elt F) (Rect.unit (s := S128x128) (k0_off2 g q 2#32) S1x16.size (k0_off2_inb g q 2)).toLoadRect fA) (vB.readAt (Elt F) (Rect.unit (s := S128x128) (k0_off2 g q 2#32) S1x16.size (k0_off2_inb g q 2)).toLoadRect fB)) (k0_pay23 (vA.readAt (Elt F) (Rect.unit (s := S128x128) (k0_off3 g q 2#32) S1x16.size (k0_off3_inb g q 2)).toLoadRect fA) (vB.readAt (Elt F) (Rect.unit (s := S128x128) (k0_off3 g q 2#32) S1x16.size (k0_off3_inb g q 2)).toLoadRect fB)) (k0_pay24 (vA.readAt (Elt F) (Rect.unit (s := S128x128) (k0_off4 g q 2#32) S1x16.size (k0_off4_inb g q 2)).toLoadRect fA) (vB.readAt (Elt F) (Rect.unit (s := S128x128) (k0_off4 g q 2#32) S1x16.size (k0_off4_inb g q 2)).toLoadRect fB)) (k0_pay25 (vA.readAt (Elt F) (Rect.unit (s := S128x128) (k0_off5 g q 2#32) S1x16.size (k0_off5_inb g q 2)).toLoadRect fA) (vB.readAt (Elt F) (Rect.unit (s := S128x128) (k0_off5 g q 2#32) S1x16.size (k0_off5_inb g q 2)).toLoadRect fB)) (k0_pay26 (vA.readAt (Elt F) (Rect.unit (s := S128x128) (k0_off6 g q 2#32) S1x16.size (k0_off6_inb g q 2)).toLoadRect fA)) (vB.readAt (Elt F) (Rect.unit (s := S128x128) (k0_off6 g q 2#32) S1x16.size (k0_off6_inb g q 2)).toLoadRect fB) (vA.readAt (Elt F) (Rect.unit (s := S128x128) (k0_off7 g q 2#32) S1x16.size (k0_off7_inb g q 2)).toLoadRect fA) (vB.readAt (Elt F) (Rect.unit (s := S128x128) (k0_off7 g q 2#32) S1x16.size (k0_off7_inb g q 2)).toLoadRect fB) (vA.readAt (Elt F) (Rect.unit (s := S128x128) (k0_off8 g q 2#32) S1x16.size (k0_off8_inb g q 2)).toLoadRect fA) (vB.readAt (Elt F) (Rect.unit (s := S128x128) (k0_off8 g q 2#32) S1x16.size (k0_off8_inb g q 2)).toLoadRect fB) (vA.readAt (Elt F) (Rect.unit (s := S128x128) (k0_off9 g q 2#32) S1x16.size (k0_off9_inb g q 2)).toLoadRect fA) (vB.readAt (Elt F) (Rect.unit (s := S128x128) (k0_off9 g q 2#32) S1x16.size (k0_off9_inb g q 2)).toLoadRect fB)) (ix1 j)
      = Cert.Spec.lanePart (vrow vA fA R) (vrow vB fB R) j := by
  have ea0 := readAt_row vA fA (k0_off2 g q 2#32) (k0_off2_inb g q 2) R (16 * 0) j (by have := j.isLt; omega) (hR ▸ congrFun (k0_off2_eq g q ⟨2, by decide⟩) 0) (congrFun (k0_off2_eq g q ⟨2, by decide⟩) 1)
  have eb0 := readAt_row vB fB (k0_off2 g q 2#32) (k0_off2_inb g q 2) R (16 * 0) j (by have := j.isLt; omega) (hR ▸ congrFun (k0_off2_eq g q ⟨2, by decide⟩) 0) (congrFun (k0_off2_eq g q ⟨2, by decide⟩) 1)
  have ea1 := readAt_row vA fA (k0_off3 g q 2#32) (k0_off3_inb g q 2) R (16 * 1) j (by have := j.isLt; omega) (hR ▸ congrFun (k0_off3_eq g q ⟨2, by decide⟩) 0) (congrFun (k0_off3_eq g q ⟨2, by decide⟩) 1)
  have eb1 := readAt_row vB fB (k0_off3 g q 2#32) (k0_off3_inb g q 2) R (16 * 1) j (by have := j.isLt; omega) (hR ▸ congrFun (k0_off3_eq g q ⟨2, by decide⟩) 0) (congrFun (k0_off3_eq g q ⟨2, by decide⟩) 1)
  have ea2 := readAt_row vA fA (k0_off4 g q 2#32) (k0_off4_inb g q 2) R (16 * 2) j (by have := j.isLt; omega) (hR ▸ congrFun (k0_off4_eq g q ⟨2, by decide⟩) 0) (congrFun (k0_off4_eq g q ⟨2, by decide⟩) 1)
  have eb2 := readAt_row vB fB (k0_off4 g q 2#32) (k0_off4_inb g q 2) R (16 * 2) j (by have := j.isLt; omega) (hR ▸ congrFun (k0_off4_eq g q ⟨2, by decide⟩) 0) (congrFun (k0_off4_eq g q ⟨2, by decide⟩) 1)
  have ea3 := readAt_row vA fA (k0_off5 g q 2#32) (k0_off5_inb g q 2) R (16 * 3) j (by have := j.isLt; omega) (hR ▸ congrFun (k0_off5_eq g q ⟨2, by decide⟩) 0) (congrFun (k0_off5_eq g q ⟨2, by decide⟩) 1)
  have eb3 := readAt_row vB fB (k0_off5 g q 2#32) (k0_off5_inb g q 2) R (16 * 3) j (by have := j.isLt; omega) (hR ▸ congrFun (k0_off5_eq g q ⟨2, by decide⟩) 0) (congrFun (k0_off5_eq g q ⟨2, by decide⟩) 1)
  have ea4 := readAt_row vA fA (k0_off6 g q 2#32) (k0_off6_inb g q 2) R (16 * 4) j (by have := j.isLt; omega) (hR ▸ congrFun (k0_off6_eq g q ⟨2, by decide⟩) 0) (congrFun (k0_off6_eq g q ⟨2, by decide⟩) 1)
  have eb4 := readAt_row vB fB (k0_off6 g q 2#32) (k0_off6_inb g q 2) R (16 * 4) j (by have := j.isLt; omega) (hR ▸ congrFun (k0_off6_eq g q ⟨2, by decide⟩) 0) (congrFun (k0_off6_eq g q ⟨2, by decide⟩) 1)
  have ea5 := readAt_row vA fA (k0_off7 g q 2#32) (k0_off7_inb g q 2) R (16 * 5) j (by have := j.isLt; omega) (hR ▸ congrFun (k0_off7_eq g q ⟨2, by decide⟩) 0) (congrFun (k0_off7_eq g q ⟨2, by decide⟩) 1)
  have eb5 := readAt_row vB fB (k0_off7 g q 2#32) (k0_off7_inb g q 2) R (16 * 5) j (by have := j.isLt; omega) (hR ▸ congrFun (k0_off7_eq g q ⟨2, by decide⟩) 0) (congrFun (k0_off7_eq g q ⟨2, by decide⟩) 1)
  have ea6 := readAt_row vA fA (k0_off8 g q 2#32) (k0_off8_inb g q 2) R (16 * 6) j (by have := j.isLt; omega) (hR ▸ congrFun (k0_off8_eq g q ⟨2, by decide⟩) 0) (congrFun (k0_off8_eq g q ⟨2, by decide⟩) 1)
  have eb6 := readAt_row vB fB (k0_off8 g q 2#32) (k0_off8_inb g q 2) R (16 * 6) j (by have := j.isLt; omega) (hR ▸ congrFun (k0_off8_eq g q ⟨2, by decide⟩) 0) (congrFun (k0_off8_eq g q ⟨2, by decide⟩) 1)
  have ea7 := readAt_row vA fA (k0_off9 g q 2#32) (k0_off9_inb g q 2) R (16 * 7) j (by have := j.isLt; omega) (hR ▸ congrFun (k0_off9_eq g q ⟨2, by decide⟩) 0) (congrFun (k0_off9_eq g q ⟨2, by decide⟩) 1)
  have eb7 := readAt_row vB fB (k0_off9 g q 2#32) (k0_off9_inb g q 2) R (16 * 7) j (by have := j.isLt; omega) (hR ▸ congrFun (k0_off9_eq g q ⟨2, by decide⟩) 0) (congrFun (k0_off9_eq g q ⟨2, by decide⟩) 1)
  simp only [k0_pay27, k0_pay22, k0_pay23, k0_pay24, k0_pay25, k0_pay26, mulf, addf, shapeCast_1a_a_apply, ea0, ea1, ea2, ea3, ea4, ea5, ea6, ea7, eb0, eb1, eb2, eb3, eb4, eb5, eb6, eb7]
  rfl

/-- Row 3 of a trip's four: the stored vector's lane j is the lane sum of row 16·g + 4·q + 3 of the two scratches. -/
theorem row3_eq (g : Fin k0_t1_loop.trips) (q : Fin k0_t2_loop.trips) (R : Fin 128) (hR : R.val = 16 * g.val + 4 * q.val + 3) (j : Fin 16) :
    (k0_pay37 (k0_pay29 (k0_pay28 (vA.readAt (Elt F) (Rect.unit (s := S128x128) (k0_off2 g q 3#32) S1x16.size (k0_off2_inb g q 3)).toLoadRect fA)) (vB.readAt (Elt F) (Rect.unit (s := S128x128) (k0_off2 g q 3#32) S1x16.size (k0_off2_inb g q 3)).toLoadRect fB)) (k0_pay30 (vA.readAt (Elt F) (Rect.unit (s := S128x128) (k0_off3 g q 3#32) S1x16.size (k0_off3_inb g q 3)).toLoadRect fA) (vB.readAt (Elt F) (Rect.unit (s := S128x128) (k0_off3 g q 3#32) S1x16.size (k0_off3_inb g q 3)).toLoadRect fB)) (k0_pay31 (vA.readAt (Elt F) (Rect.unit (s := S128x128) (k0_off4 g q 3#32) S1x16.size (k0_off4_inb g q 3)).toLoadRect fA) (vB.readAt (Elt F) (Rect.unit (s := S128x128) (k0_off4 g q 3#32) S1x16.size (k0_off4_inb g q 3)).toLoadRect fB)) (k0_pay32 (vA.readAt (Elt F) (Rect.unit (s := S128x128) (k0_off5 g q 3#32) S1x16.size (k0_off5_inb g q 3)).toLoadRect fA) (vB.readAt (Elt F) (Rect.unit (s := S128x128) (k0_off5 g q 3#32) S1x16.size (k0_off5_inb g q 3)).toLoadRect fB)) (k0_pay33 (vA.readAt (Elt F) (Rect.unit (s := S128x128) (k0_off6 g q 3#32) S1x16.size (k0_off6_inb g q 3)).toLoadRect fA) (vB.readAt (Elt F) (Rect.unit (s := S128x128) (k0_off6 g q 3#32) S1x16.size (k0_off6_inb g q 3)).toLoadRect fB)) (k0_pay34 (vA.readAt (Elt F) (Rect.unit (s := S128x128) (k0_off7 g q 3#32) S1x16.size (k0_off7_inb g q 3)).toLoadRect fA) (vB.readAt (Elt F) (Rect.unit (s := S128x128) (k0_off7 g q 3#32) S1x16.size (k0_off7_inb g q 3)).toLoadRect fB)) (k0_pay35 (vA.readAt (Elt F) (Rect.unit (s := S128x128) (k0_off8 g q 3#32) S1x16.size (k0_off8_inb g q 3)).toLoadRect fA) (vB.readAt (Elt F) (Rect.unit (s := S128x128) (k0_off8 g q 3#32) S1x16.size (k0_off8_inb g q 3)).toLoadRect fB)) (k0_pay36 (vA.readAt (Elt F) (Rect.unit (s := S128x128) (k0_off9 g q 3#32) S1x16.size (k0_off9_inb g q 3)).toLoadRect fA)) (vB.readAt (Elt F) (Rect.unit (s := S128x128) (k0_off9 g q 3#32) S1x16.size (k0_off9_inb g q 3)).toLoadRect fB)) (ix1 j)
      = Cert.Spec.lanePart (vrow vA fA R) (vrow vB fB R) j := by
  have ea0 := readAt_row vA fA (k0_off2 g q 3#32) (k0_off2_inb g q 3) R (16 * 0) j (by have := j.isLt; omega) (hR ▸ congrFun (k0_off2_eq g q ⟨3, by decide⟩) 0) (congrFun (k0_off2_eq g q ⟨3, by decide⟩) 1)
  have eb0 := readAt_row vB fB (k0_off2 g q 3#32) (k0_off2_inb g q 3) R (16 * 0) j (by have := j.isLt; omega) (hR ▸ congrFun (k0_off2_eq g q ⟨3, by decide⟩) 0) (congrFun (k0_off2_eq g q ⟨3, by decide⟩) 1)
  have ea1 := readAt_row vA fA (k0_off3 g q 3#32) (k0_off3_inb g q 3) R (16 * 1) j (by have := j.isLt; omega) (hR ▸ congrFun (k0_off3_eq g q ⟨3, by decide⟩) 0) (congrFun (k0_off3_eq g q ⟨3, by decide⟩) 1)
  have eb1 := readAt_row vB fB (k0_off3 g q 3#32) (k0_off3_inb g q 3) R (16 * 1) j (by have := j.isLt; omega) (hR ▸ congrFun (k0_off3_eq g q ⟨3, by decide⟩) 0) (congrFun (k0_off3_eq g q ⟨3, by decide⟩) 1)
  have ea2 := readAt_row vA fA (k0_off4 g q 3#32) (k0_off4_inb g q 3) R (16 * 2) j (by have := j.isLt; omega) (hR ▸ congrFun (k0_off4_eq g q ⟨3, by decide⟩) 0) (congrFun (k0_off4_eq g q ⟨3, by decide⟩) 1)
  have eb2 := readAt_row vB fB (k0_off4 g q 3#32) (k0_off4_inb g q 3) R (16 * 2) j (by have := j.isLt; omega) (hR ▸ congrFun (k0_off4_eq g q ⟨3, by decide⟩) 0) (congrFun (k0_off4_eq g q ⟨3, by decide⟩) 1)
  have ea3 := readAt_row vA fA (k0_off5 g q 3#32) (k0_off5_inb g q 3) R (16 * 3) j (by have := j.isLt; omega) (hR ▸ congrFun (k0_off5_eq g q ⟨3, by decide⟩) 0) (congrFun (k0_off5_eq g q ⟨3, by decide⟩) 1)
  have eb3 := readAt_row vB fB (k0_off5 g q 3#32) (k0_off5_inb g q 3) R (16 * 3) j (by have := j.isLt; omega) (hR ▸ congrFun (k0_off5_eq g q ⟨3, by decide⟩) 0) (congrFun (k0_off5_eq g q ⟨3, by decide⟩) 1)
  have ea4 := readAt_row vA fA (k0_off6 g q 3#32) (k0_off6_inb g q 3) R (16 * 4) j (by have := j.isLt; omega) (hR ▸ congrFun (k0_off6_eq g q ⟨3, by decide⟩) 0) (congrFun (k0_off6_eq g q ⟨3, by decide⟩) 1)
  have eb4 := readAt_row vB fB (k0_off6 g q 3#32) (k0_off6_inb g q 3) R (16 * 4) j (by have := j.isLt; omega) (hR ▸ congrFun (k0_off6_eq g q ⟨3, by decide⟩) 0) (congrFun (k0_off6_eq g q ⟨3, by decide⟩) 1)
  have ea5 := readAt_row vA fA (k0_off7 g q 3#32) (k0_off7_inb g q 3) R (16 * 5) j (by have := j.isLt; omega) (hR ▸ congrFun (k0_off7_eq g q ⟨3, by decide⟩) 0) (congrFun (k0_off7_eq g q ⟨3, by decide⟩) 1)
  have eb5 := readAt_row vB fB (k0_off7 g q 3#32) (k0_off7_inb g q 3) R (16 * 5) j (by have := j.isLt; omega) (hR ▸ congrFun (k0_off7_eq g q ⟨3, by decide⟩) 0) (congrFun (k0_off7_eq g q ⟨3, by decide⟩) 1)
  have ea6 := readAt_row vA fA (k0_off8 g q 3#32) (k0_off8_inb g q 3) R (16 * 6) j (by have := j.isLt; omega) (hR ▸ congrFun (k0_off8_eq g q ⟨3, by decide⟩) 0) (congrFun (k0_off8_eq g q ⟨3, by decide⟩) 1)
  have eb6 := readAt_row vB fB (k0_off8 g q 3#32) (k0_off8_inb g q 3) R (16 * 6) j (by have := j.isLt; omega) (hR ▸ congrFun (k0_off8_eq g q ⟨3, by decide⟩) 0) (congrFun (k0_off8_eq g q ⟨3, by decide⟩) 1)
  have ea7 := readAt_row vA fA (k0_off9 g q 3#32) (k0_off9_inb g q 3) R (16 * 7) j (by have := j.isLt; omega) (hR ▸ congrFun (k0_off9_eq g q ⟨3, by decide⟩) 0) (congrFun (k0_off9_eq g q ⟨3, by decide⟩) 1)
  have eb7 := readAt_row vB fB (k0_off9 g q 3#32) (k0_off9_inb g q 3) R (16 * 7) j (by have := j.isLt; omega) (hR ▸ congrFun (k0_off9_eq g q ⟨3, by decide⟩) 0) (congrFun (k0_off9_eq g q ⟨3, by decide⟩) 1)
  simp only [k0_pay37, k0_pay29, k0_pay28, k0_pay30, k0_pay31, k0_pay32, k0_pay33, k0_pay34, k0_pay35, k0_pay36, mulf, addf, shapeCast_1a_a_apply, ea0, ea1, ea2, ea3, ea4, ea5, ea6, ea7, eb0, eb1, eb2, eb3, eb4, eb5, eb6, eb7]
  rfl

end Pay

/-- The group's stored vector: lane i is the balanced sum of sixteen of the sixteen reads' lanes i. -/
theorem pay7_eq (p : Fin 16 → F .f32) (i : Fin 16)
    (v0 v1 v2 v3 v4 v5 v6 v7 v8 v9 v10 v11 v12 v13 v14 v15 : Vec F S16 .f32)
    (h0 : v0 (ix1 i) = p 0) (h1 : v1 (ix1 i) = p 1) (h2 : v2 (ix1 i) = p 2) (h3 : v3 (ix1 i) = p 3)
    (h4 : v4 (ix1 i) = p 4) (h5 : v5 (ix1 i) = p 5) (h6 : v6 (ix1 i) = p 6) (h7 : v7 (ix1 i) = p 7)
    (h8 : v8 (ix1 i) = p 8) (h9 : v9 (ix1 i) = p 9) (h10 : v10 (ix1 i) = p 10) (h11 : v11 (ix1 i) = p 11)
    (h12 : v12 (ix1 i) = p 12) (h13 : v13 (ix1 i) = p 13) (h14 : v14 (ix1 i) = p 14) (h15 : v15 (ix1 i) = p 15) :
    k0_pay7 v0 v1 v2 v3 v4 v5 v6 v7 v8 v9 v10 v11 v12 v13 v14 v15 (ix1 i) = Cert.Spec.sum16 p := by
  simp only [k0_pay7, addf, h0, h1, h2, h3, h4, h5, h6, h7, h8, h9, h10, h11, h12, h13, h14, h15]
  rfl

/-! ## The index vectors -/

theorem idx_val_0 : ∀ i : Fin 16, (((k0_pay38 k0_pay1) : IVec S16 32) (ix1 i)).toNat = 16 * i.val + 0 := by decide +kernel
theorem idx_val_1 : ∀ i : Fin 16, (((k0_pay39 k0_pay1) : IVec S16 32) (ix1 i)).toNat = 16 * i.val + 1 := by decide +kernel
theorem idx_val_2 : ∀ i : Fin 16, (((k0_pay40 k0_pay1) : IVec S16 32) (ix1 i)).toNat = 16 * i.val + 2 := by decide +kernel
theorem idx_val_3 : ∀ i : Fin 16, (((k0_pay41 k0_pay1) : IVec S16 32) (ix1 i)).toNat = 16 * i.val + 3 := by decide +kernel
theorem idx_val_4 : ∀ i : Fin 16, (((k0_pay42 k0_pay1) : IVec S16 32) (ix1 i)).toNat = 16 * i.val + 4 := by decide +kernel
theorem idx_val_5 : ∀ i : Fin 16, (((k0_pay43 k0_pay1) : IVec S16 32) (ix1 i)).toNat = 16 * i.val + 5 := by decide +kernel
theorem idx_val_6 : ∀ i : Fin 16, (((k0_pay44 k0_pay1) : IVec S16 32) (ix1 i)).toNat = 16 * i.val + 6 := by decide +kernel
theorem idx_val_7 : ∀ i : Fin 16, (((k0_pay45 k0_pay1) : IVec S16 32) (ix1 i)).toNat = 16 * i.val + 7 := by decide +kernel
theorem idx_val_8 : ∀ i : Fin 16, (((k0_pay46 k0_pay1) : IVec S16 32) (ix1 i)).toNat = 16 * i.val + 8 := by decide +kernel
theorem idx_val_9 : ∀ i : Fin 16, (((k0_pay47 k0_pay1) : IVec S16 32) (ix1 i)).toNat = 16 * i.val + 9 := by decide +kernel
theorem idx_val_10 : ∀ i : Fin 16, (((addi k0_pay1 k0_pay48) : IVec S16 32) (ix1 i)).toNat = 16 * i.val + 10 := by decide +kernel
theorem idx_val_11 : ∀ i : Fin 16, ((k0_pay2 : IVec S16 32) (ix1 i)).toNat = 16 * i.val + 11 := by decide +kernel
theorem idx_val_12 : ∀ i : Fin 16, ((k0_pay3 : IVec S16 32) (ix1 i)).toNat = 16 * i.val + 12 := by decide +kernel
theorem idx_val_13 : ∀ i : Fin 16, ((k0_pay4 : IVec S16 32) (ix1 i)).toNat = 16 * i.val + 13 := by decide +kernel
theorem idx_val_14 : ∀ i : Fin 16, ((k0_pay5 : IVec S16 32) (ix1 i)).toNat = 16 * i.val + 14 := by decide +kernel
theorem idx_val_15 : ∀ i : Fin 16, ((k0_pay6 : IVec S16 32) (ix1 i)).toNat = 16 * i.val + 15 := by decide +kernel

/-- An index vector whose lane i is 16·i + j names words of the 256-word scratch. -/
theorem chk_of_val (v : IVec S16 32) (j : Nat) (hj : j < 16) (hv : ∀ i : Fin 16, (v (ix1 i)).toNat = 16 * i.val + j) :
    ∀ a x, ((![v] : Fin 1 → IVec S16 32) a x).toNat < S256.size a := by
  intro a x
  obtain rfl : a = 0 := Subsingleton.elim _ _
  have hlt : (x 0).val < 16 := (x 0).isLt
  have hx : x = ix1 (⟨(x 0).val, hlt⟩ : Fin 16) := by
    funext d; obtain rfl : d = 0 := Subsingleton.elim _ _; rfl
  have h := hv ⟨(x 0).val, hlt⟩
  rw [← hx] at h
  show (v x).toNat < 256
  rw [h]; show 16 * (x 0).val + j < 256; omega

/-- The indexed load of the 256 words through such a vector: lane i reads word 16·i + j. -/
theorem loadIdx_lane (X : Vec F S256 .f32) (v : IVec S16 32) (h : ∀ a x, ((![v] : Fin 1 → IVec S16 32) a x).toNat < S256.size a)
    (j : Nat) (hv : ∀ i : Fin 16, (v (ix1 i)).toNat = 16 * i.val + j) (i : Fin 16) (hw : 16 * i.val + j < 256) :
    loadIdx X ![v] h (ix1 i) = X (ix1 ⟨16 * i.val + j, hw⟩) := by
  show X (idxAt ![v] h (ix1 i)) = _
  congr 1
  funext a; apply Fin.ext
  obtain rfl : a = 0 := Subsingleton.elim _ _
  exact hv i

/-- The group's stored vector over a 256-word scratch whose word 16·r + j is lane j of row r's partial sums: lane i is
    row i's dot. -/
theorem pay7_group (u v : Fin 16 → Fin 128 → F .f32) (X : Vec F S256 .f32)
    (hX : ∀ (r j : Fin 16) (hw : 16 * r.val + j.val < 256), X (ix1 ⟨16 * r.val + j.val, hw⟩) = Cert.Spec.lanePart (u r) (v r) j)
    (h0 : ∀ a x, ((![(k0_pay38 k0_pay1)] : Fin 1 → IVec S16 32) a x).toNat < S256.size a)
    (h1 : ∀ a x, ((![(k0_pay39 k0_pay1)] : Fin 1 → IVec S16 32) a x).toNat < S256.size a)
    (h2 : ∀ a x, ((![(k0_pay40 k0_pay1)] : Fin 1 → IVec S16 32) a x).toNat < S256.size a)
    (h3 : ∀ a x, ((![(k0_pay41 k0_pay1)] : Fin 1 → IVec S16 32) a x).toNat < S256.size a)
    (h4 : ∀ a x, ((![(k0_pay42 k0_pay1)] : Fin 1 → IVec S16 32) a x).toNat < S256.size a)
    (h5 : ∀ a x, ((![(k0_pay43 k0_pay1)] : Fin 1 → IVec S16 32) a x).toNat < S256.size a)
    (h6 : ∀ a x, ((![(k0_pay44 k0_pay1)] : Fin 1 → IVec S16 32) a x).toNat < S256.size a)
    (h7 : ∀ a x, ((![(k0_pay45 k0_pay1)] : Fin 1 → IVec S16 32) a x).toNat < S256.size a)
    (h8 : ∀ a x, ((![(k0_pay46 k0_pay1)] : Fin 1 → IVec S16 32) a x).toNat < S256.size a)
    (h9 : ∀ a x, ((![(k0_pay47 k0_pay1)] : Fin 1 → IVec S16 32) a x).toNat < S256.size a)
    (h10 : ∀ a x, ((![(addi k0_pay1 k0_pay48)] : Fin 1 → IVec S16 32) a x).toNat < S256.size a)
    (h11 : ∀ a x, ((![k0_pay2] : Fin 1 → IVec S16 32) a x).toNat < S256.size a)
    (h12 : ∀ a x, ((![k0_pay3] : Fin 1 → IVec S16 32) a x).toNat < S256.size a)
    (h13 : ∀ a x, ((![k0_pay4] : Fin 1 → IVec S16 32) a x).toNat < S256.size a)
    (h14 : ∀ a x, ((![k0_pay5] : Fin 1 → IVec S16 32) a x).toNat < S256.size a)
    (h15 : ∀ a x, ((![k0_pay6] : Fin 1 → IVec S16 32) a x).toNat < S256.size a)
    (i : Fin 16) :
    k0_pay7 (loadIdx X ![(k0_pay38 k0_pay1)] h0) (loadIdx X ![(k0_pay39 k0_pay1)] h1) (loadIdx X ![(k0_pay40 k0_pay1)] h2) (loadIdx X ![(k0_pay41 k0_pay1)] h3) (loadIdx X ![(k0_pay42 k0_pay1)] h4) (loadIdx X ![(k0_pay43 k0_pay1)] h5) (loadIdx X ![(k0_pay44 k0_pay1)] h6) (loadIdx X ![(k0_pay45 k0_pay1)] h7) (loadIdx X ![(k0_pay46 k0_pay1)] h8) (loadIdx X ![(k0_pay47 k0_pay1)] h9) (loadIdx X ![(addi k0_pay1 k0_pay48)] h10) (loadIdx X ![k0_pay2] h11) (loadIdx X ![k0_pay3] h12) (loadIdx X ![k0_pay4] h13) (loadIdx X ![k0_pay5] h14) (loadIdx X ![k0_pay6] h15) (ix1 i)
      = Cert.Spec.rowDot (u i) (v i) := by
  have hi := i.isLt
  exact pay7_eq (Cert.Spec.lanePart (u i) (v i)) i _ _ _ _ _ _ _ _ _ _ _ _ _ _ _ _
    ((loadIdx_lane X _ h0 0 idx_val_0 i (by omega)).trans (hX i ⟨0, by decide⟩ (by omega)))
    ((loadIdx_lane X _ h1 1 idx_val_1 i (by omega)).trans (hX i ⟨1, by decide⟩ (by omega)))
    ((loadIdx_lane X _ h2 2 idx_val_2 i (by omega)).trans (hX i ⟨2, by decide⟩ (by omega)))
    ((loadIdx_lane X _ h3 3 idx_val_3 i (by omega)).trans (hX i ⟨3, by decide⟩ (by omega)))
    ((loadIdx_lane X _ h4 4 idx_val_4 i (by omega)).trans (hX i ⟨4, by decide⟩ (by omega)))
    ((loadIdx_lane X _ h5 5 idx_val_5 i (by omega)).trans (hX i ⟨5, by decide⟩ (by omega)))
    ((loadIdx_lane X _ h6 6 idx_val_6 i (by omega)).trans (hX i ⟨6, by decide⟩ (by omega)))
    ((loadIdx_lane X _ h7 7 idx_val_7 i (by omega)).trans (hX i ⟨7, by decide⟩ (by omega)))
    ((loadIdx_lane X _ h8 8 idx_val_8 i (by omega)).trans (hX i ⟨8, by decide⟩ (by omega)))
    ((loadIdx_lane X _ h9 9 idx_val_9 i (by omega)).trans (hX i ⟨9, by decide⟩ (by omega)))
    ((loadIdx_lane X _ h10 10 idx_val_10 i (by omega)).trans (hX i ⟨10, by decide⟩ (by omega)))
    ((loadIdx_lane X _ h11 11 idx_val_11 i (by omega)).trans (hX i ⟨11, by decide⟩ (by omega)))
    ((loadIdx_lane X _ h12 12 idx_val_12 i (by omega)).trans (hX i ⟨12, by decide⟩ (by omega)))
    ((loadIdx_lane X _ h13 13 idx_val_13 i (by omega)).trans (hX i ⟨13, by decide⟩ (by omega)))
    ((loadIdx_lane X _ h14 14 idx_val_14 i (by omega)).trans (hX i ⟨14, by decide⟩ (by omega)))
    ((loadIdx_lane X _ h15 15 idx_val_15 i (by omega)).trans (hX i ⟨15, by decide⟩ (by omega)))

/-! ## The loops' invariants, and their steps -/

section Inv

variable {sig : RefSig} {κ κ' κP κD : Kind} {sp sp' spP spD : Space}
variable (vA : View sig κ sp S128x128 .f32) (fA : vA.ty.Contents (Elt F)) (vB : View sig κ' sp' S128x128 .f32) (fB : vB.ty.Contents (Elt F))

/-- Row r of group g, among the tile's 128 rows. -/
def rowIx (g : Fin k0_t1_loop.trips) (r : Fin 16) : Fin 128 :=
  ⟨16 * g.val + r.val, by have := g.isLt; have := k0_t1_abs.2.1; have := r.isLt; omega⟩

/-- Before trip q of group g's inner loop: the words below 64·q of the partial-sum scratch are the lane sums of the
    group's rows 0 … 4q − 1 (word 16·r + j: lane j of the group's row r). -/
def PartOK (vP : View sig κP spP S256 .f32) (g : Fin k0_t1_loop.trips) (q : Nat) (fP : vP.ty.Contents (Elt F)) : Prop :=
  ∀ (r j : Fin 16), r.val < 4 * q → ∀ hw : 16 * r.val + j.val < 256,
    vP.read (Elt F) fP (ix1 ⟨16 * r.val + j.val, hw⟩)
      = Cert.Spec.lanePart (vrow vA fA (rowIx g r)) (vrow vB fB (rowIx g r)) j

/-- Before group k: the words below 16·k of the dots scratch are the row dots of the tile's rows 0 … 16k − 1. -/
def DotOK (vD : View sig κD spD S128 .f32) (k : Nat) (fD : vD.ty.Contents (Elt F)) : Prop :=
  ∀ i : Fin 128, i.val < 16 * k → vD.read (Elt F) fD (ix1 i) = Cert.Spec.rowDot (vrow vA fA i) (vrow vB fB i)

theorem PartOK.zero (vP : View sig κP spP S256 .f32) (g : Fin k0_t1_loop.trips) (fP : vP.ty.Contents (Elt F)) :
    PartOK vA fA vB fB vP g 0 fP := fun r _ h => absurd h (by omega)

theorem DotOK.zero (vD : View sig κD spD S128 .f32) (fD : vD.ty.Contents (Elt F)) : DotOK vA fA vB fB vD 0 fD :=
  fun i h => absurd h (by omega)

/-- One trip of the inner loop: four stores of sixteen words at 64·q, 64·q + 16, 64·q + 32, 64·q + 48. -/
theorem PartOK.step (vP : View sig κP spP S256 .f32) (g : Fin k0_t1_loop.trips) (q : Fin k0_t2_loop.trips) (fP : vP.ty.Contents (Elt F))
    (hP : PartOK vA fA vB fB vP g q.val fP)
    (w0 : (Rect.unit (s := S256) (k0_off10 q 0#32) S16.size (k0_off10_inb q 0)).shape.Idx → Elt F .f32)
    (w1 : (Rect.unit (s := S256) (k0_off10 q 1#32) S16.size (k0_off10_inb q 1)).shape.Idx → Elt F .f32)
    (w2 : (Rect.unit (s := S256) (k0_off10 q 2#32) S16.size (k0_off10_inb q 2)).shape.Idx → Elt F .f32)
    (w3 : (Rect.unit (s := S256) (k0_off10 q 3#32) S16.size (k0_off10_inb q 3)).shape.Idx → Elt F .f32)
    (h0 : ∀ (R : Fin 128), R.val = 16 * g.val + 4 * q.val + 0 → ∀ j : Fin 16, w0 (ix1 j) = Cert.Spec.lanePart (vrow vA fA R) (vrow vB fB R) j)
    (h1 : ∀ (R : Fin 128), R.val = 16 * g.val + 4 * q.val + 1 → ∀ j : Fin 16, w1 (ix1 j) = Cert.Spec.lanePart (vrow vA fA R) (vrow vB fB R) j)
    (h2 : ∀ (R : Fin 128), R.val = 16 * g.val + 4 * q.val + 2 → ∀ j : Fin 16, w2 (ix1 j) = Cert.Spec.lanePart (vrow vA fA R) (vrow vB fB R) j)
    (h3 : ∀ (R : Fin 128), R.val = 16 * g.val + 4 * q.val + 3 → ∀ j : Fin 16, w3 (ix1 j) = Cert.Spec.lanePart (vrow vA fA R) (vrow vB fB R) j) :
    PartOK vA fA vB fB vP g (q.val + 1)
      (vP.writes (Elt F) fP [⟨Rect.unit (s := S256) (k0_off10 q 3#32) S16.size (k0_off10_inb q 3), w3⟩,
        ⟨Rect.unit (s := S256) (k0_off10 q 2#32) S16.size (k0_off10_inb q 2), w2⟩,
        ⟨Rect.unit (s := S256) (k0_off10 q 1#32) S16.size (k0_off10_inb q 1), w1⟩,
        ⟨Rect.unit (s := S256) (k0_off10 q 0#32) S16.size (k0_off10_inb q 0), w0⟩]) := by
  intro r j hr hw
  have hj := j.isLt
  have e0 : k0_off10 q 0#32 0 = 64 * q.val + 16 * 0 := congrFun (k0_off10_eq q ⟨0, by decide⟩) 0
  have e1 : k0_off10 q 1#32 0 = 64 * q.val + 16 * 1 := congrFun (k0_off10_eq q ⟨1, by decide⟩) 0
  have e2 : k0_off10 q 2#32 0 = 64 * q.val + 16 * 2 := congrFun (k0_off10_eq q ⟨2, by decide⟩) 0
  have e3 : k0_off10 q 3#32 0 = 64 * q.val + 16 * 3 := congrFun (k0_off10_eq q ⟨3, by decide⟩) 0
  have hRr : (rowIx g r).val = 16 * g.val + r.val := rfl
  by_cases c : r.val < 4 * q.val
  · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
      read_writes_unit_miss (N := 256) vP fP _ _ w2 _ ⟨16 * r.val + j.val, hw⟩ (by show 16 * r.val + j.val < k0_off10 q 2#32 0 ∨ k0_off10 q 2#32 0 + 16 ≤ 16 * r.val + j.val; omega),
      read_writes_unit_miss (N := 256) vP fP _ _ w1 _ ⟨16 * r.val + j.val, hw⟩ (by show 16 * r.val + j.val < k0_off10 q 1#32 0 ∨ k0_off10 q 1#32 0 + 16 ≤ 16 * r.val + j.val; omega),
      read_writes_unit_miss (N := 256) vP fP _ _ w0 _ ⟨16 * r.val + j.val, hw⟩ (by show 16 * r.val + j.val < k0_off10 q 0#32 0 ∨ k0_off10 q 0#32 0 + 16 ≤ 16 * r.val + j.val; omega)]
    exact hP r j c hw
  · have hc : r.val = 4 * q.val + 0 ∨ r.val = 4 * q.val + 1 ∨ r.val = 4 * q.val + 2 ∨ r.val = 4 * q.val + 3 := by omega
    rcases hc with h | h | h | h
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_miss (N := 256) vP fP _ _ w2 _ ⟨16 * r.val + j.val, hw⟩ (by show 16 * r.val + j.val < k0_off10 q 2#32 0 ∨ k0_off10 q 2#32 0 + 16 ≤ 16 * r.val + j.val; omega),
        read_writes_unit_miss (N := 256) vP fP _ _ w1 _ ⟨16 * r.val + j.val, hw⟩ (by show 16 * r.val + j.val < k0_off10 q 1#32 0 ∨ k0_off10 q 1#32 0 + 16 ≤ 16 * r.val + j.val; omega),
        read_writes_unit_hit (N := 256) vP fP _ _ w0 _ ⟨16 * r.val + j.val, hw⟩ j (by show 16 * r.val + j.val = k0_off10 q 0#32 0 + j.val; omega)]
      exact h0 (rowIx g r) (by omega) j
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_miss (N := 256) vP fP _ _ w2 _ ⟨16 * r.val + j.val, hw⟩ (by show 16 * r.val + j.val < k0_off10 q 2#32 0 ∨ k0_off10 q 2#32 0 + 16 ≤ 16 * r.val + j.val; omega),
        read_writes_unit_hit (N := 256) vP fP _ _ w1 _ ⟨16 * r.val + j.val, hw⟩ j (by show 16 * r.val + j.val = k0_off10 q 1#32 0 + j.val; omega)]
      exact h1 (rowIx g r) (by omega) j
    · rw [read_writes_unit_miss (N := 256) vP fP _ _ w3 _ ⟨16 * r.val + j.val, hw⟩ (by show 16 * r.val + j.val < k0_off10 q 3#32 0 ∨ k0_off10 q 3#32 0 + 16 ≤ 16 * r.val + j.val; omega),
        read_writes_unit_hit (N := 256) vP fP _ _ w2 _ ⟨16 * r.val + j.val, hw⟩ j (by show 16 * r.val + j.val = k0_off10 q 2#32 0 + j.val; omega)]
      exact h2 (rowIx g r) (by omega) j
    · rw [read_writes_unit_hit (N := 256) vP fP _ _ w3 _ ⟨16 * r.val + j.val, hw⟩ j (by show 16 * r.val + j.val = k0_off10 q 3#32 0 + j.val; omega)]
      exact h3 (rowIx g r) (by omega) j

/-- One group: one store of sixteen words at 16·g. -/
theorem DotOK.step (vD : View sig κD spD S128 .f32) (g : Fin k0_t1_loop.trips) (fD : vD.ty.Contents (Elt F))
    (hD : DotOK vA fA vB fB vD g.val fD)
    (w : (Rect.unit (s := S128) (k0_off11 g) S16.size (k0_off11_inb g)).shape.Idx → Elt F .f32)
    (hw : ∀ i : Fin 16, w (ix1 i) = Cert.Spec.rowDot (vrow vA fA (rowIx g i)) (vrow vB fB (rowIx g i))) :
    DotOK vA fA vB fB vD (g.val + 1) (vD.writes (Elt F) fD [⟨Rect.unit (s := S128) (k0_off11 g) S16.size (k0_off11_inb g), w⟩]) := by
  intro i hi
  have e : k0_off11 g 0 = 16 * g.val := congrFun (k0_off11_eq g) 0
  by_cases c : i.val < 16 * g.val
  · rw [read_writes_unit_miss (N := 128) vD fD _ _ w [] i (by show i.val < k0_off11 g 0 ∨ k0_off11 g 0 + 16 ≤ i.val; omega)]
    exact hD i c
  · have hlt : i.val - 16 * g.val < 16 := by omega
    rw [read_writes_unit_hit (N := 128) vD fD _ _ w [] i ⟨i.val - 16 * g.val, hlt⟩ (by show i.val = k0_off11 g 0 + (i.val - 16 * g.val); omega)]
    have hi' : rowIx g ⟨i.val - 16 * g.val, hlt⟩ = i := Fin.ext (by show 16 * g.val + (i.val - 16 * g.val) = i.val; omega)
    rw [hw, hi']

end Inv

end Cert.Proof.KI

end
-- ==== Proof.KITile.lean ====
/-
  One tile's task. The tile with coordinates `L` copies rows `128·L₁ … 128·L₁ + 127` of both argument arrays into
  its two row scratches (one copy per semaphore, both waited for before any load), then for each of eight groups of
  sixteen rows stores the rows' sixteen-lane partial sums into the 256-word scratch, reads that scratch transposed
  (lane `i` of the `j`-th indexed load is word `16·i + j`: row `i`'s lane `j`) and sums the sixteen loads into the
  group's sixteen row dots, and at the end copies its 128 row dots out to words `128·L₁ …` of the call's result.
  Stated once, at symbolic coordinates and at any float instance: from the tile's rows of the two arguments (kept)
  and its words of the result (at anything), to those words holding the row dots `Cert.Spec.tilesOut`.
-/
import proofs.«209947_g87935160418510_cont_sun_m_973_20_alg».proof.Proof.KICommon
import proofs.«209947_g87935160418510_cont_sun_m_973_20_alg».proof.Proof.Spec
import proofs.«209947_g87935160418510_cont_sun_m_973_20_alg».proof.Proof.Gen.KernelIdeal.Skeleton
import proofs.«209947_g87935160418510_cont_sun_m_973_20_alg».proof.Proof.KITileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The memrefs, spelt as the body table passes them -/

local notation "aW" => (Memref.whole Cert.KernelIdeal.main_arg0_scv : Memref Cert.KernelIdeal.sig Kind.scVector Space.hbm Cert.KernelIdeal.S16384x128 EltTy.f32)
local notation "bW" => (Memref.whole Cert.KernelIdeal.main_arg1_scv : Memref Cert.KernelIdeal.sig Kind.scVector Space.hbm Cert.KernelIdeal.S16384x128 EltTy.f32)
local notation "oW" => (Memref.whole Cert.KernelIdeal.main_v0_scv : Memref Cert.KernelIdeal.sig Kind.scVector Space.hbm Cert.KernelIdeal.S2048 EltTy.f32)
local notation "sA" => (Memref.whole Cert.KernelIdeal.cc0_scratch0 : Memref Cert.KernelIdeal.sig Kind.scVector Space.vmem Cert.KernelIdeal.S128x128 EltTy.f32)
local notation "sB" => (Memref.whole Cert.KernelIdeal.cc0_scratch1 : Memref Cert.KernelIdeal.sig Kind.scVector Space.vmem Cert.KernelIdeal.S128x128 EltTy.f32)
local notation "sD" => (Memref.whole Cert.KernelIdeal.cc0_scratch2 : Memref Cert.KernelIdeal.sig Kind.scVector Space.vmem Cert.KernelIdeal.S128 EltTy.f32)
local notation "sP" => (Memref.whole Cert.KernelIdeal.cc0_scratch3 : Memref Cert.KernelIdeal.sig Kind.scVector Space.vmem Cert.KernelIdeal.S256 EltTy.f32)

/-! ## The tile, its rows and its words -/

abbrev cV (L : grid0.Coords) : Fin τ.nSC := (L 0).castLE hcore0
abbrev jV (L : grid0.Coords) : Fin τ.nSub := (L 1).castLE hsub0

/-- The tile's 128 rows of an argument array, as the body slices them. -/
abbrev blkR (L : grid0.Coords) : Rect S16384x128 := Rect.unit (s := S16384x128) (k0_off1 L) S128x128.size (k0_off1_inb L)
abbrev aBlk (L : grid0.Coords) : Memref sig .scVector .hbm S128x128 .f32 := (aW).slice (blkR L) (fun _ => rfl)
abbrev bBlk (L : grid0.Coords) : Memref sig .scVector .hbm S128x128 .f32 := (bW).slice (blkR L) (fun _ => rfl)
/-- The tile's 128 words of the call's result, as the body slices them. -/
abbrev outR (L : grid0.Coords) : Rect S2048 := Rect.unit (s := S2048) (k0_off12 L) S128.size (k0_off12_inb L)
abbrev oBlk (L : grid0.Coords) : Memref sig .scVector .hbm S128 .f32 := (oW).slice (outR L) (fun _ => rfl)

/-- The elements of an argument array in the tile's rows; of the result in the tile's words. -/
abbrev blkSet (L : grid0.Coords) : Finset S16384x128.Idx := (aBlk L).view.set
abbrev outSet (L : grid0.Coords) : Finset S2048.Idx := (oBlk L).view.set

variable [FloatOps F]

/-- The call's result as the tiles leave it: every word the row dot of its row (`Cert.Spec.tilesOut` of the two
    arguments' launch contents). -/
def outF (d : Dev nD) : Buf (Elt F) (oLoc d) := Cert.Spec.tilesOut (F := F) (m (aLoc d)) (m (bLoc d))

/-- What a tile is handed: its rows of the two arguments at their launch contents, its words of the result at `fo`. -/
abbrev tileIn (d : Dev nD) (L : grid0.Coords) (fo : Buf (Elt F) (oLoc d)) : sProp 𝕄 :=
  iprop((aLoc d ↦[blkSet L]{fullShare} m (aLoc d)) ∗ (bLoc d ↦[blkSet L]{fullShare} m (bLoc d)) ∗ oLoc d ↦[outSet L]{fullShare} fo)

/-! ## The tile's own semaphores and scratch buffers -/

section Own

variable (d : Dev nD) (L : grid0.Coords)

abbrev cAcell : GSem nD τ sig := (V d (cV L) (jV L), .dma cc0_scratch4.sem)
abbrev cBcell : GSem nD τ sig := (V d (cV L) (jV L), .dma cc0_scratch5.sem)
abbrev cOcell : GSem nD τ sig := (V d (cV L) (jV L), .dma cc0_scoped0.sem)

omit [FloatOps F] in
/-- The three DMA semaphores the task names are among the subcore's own: they, at zero, and the rest. -/
theorem ownSems0_V :
    (ownSems0 (V d (cV L) (jV L)) : sProp 𝕄)
      = iprop(semVal (cAcell d L) 0 ∗ semVal (cBcell d L) 0 ∗ semVal (cOcell d L) 0
          ∗ bigSep ((((ownCells (V d (cV L) (jV L))).erase (cAcell d L)).erase (cBcell d L)).erase (cOcell d L))
              fun g => semVal g 0) := by
  unfold SparseCore.Cfg.ownSems0
  rw [SparseCore.bigSep_erase' ((mem_ownCells (g := cAcell d L)).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scratch5.sem : SemLoc sig).isScoped .scVector = true; decide⟩⟩),
    SparseCore.bigSep_erase' (Finset.mem_erase.mpr ⟨by simp [cBcell, cOcell]; decide, Finset.mem_erase.mpr ⟨by simp [cAcell, cOcell]; decide,
      (mem_ownCells (g := cOcell d L)).mpr ⟨rfl, by show (SemLoc.dma cc0_scoped0.sem : SemLoc sig).isScoped .scVector = true; decide⟩⟩⟩)]

omit [FloatOps F] in
/-- The four scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## The held arrays, as the tile's memrefs address them -/

omit [FloatOps F] in
theorem pts_aBlk (f : Buf (Elt F) (aLoc d)) :
    ((aBlk L).view.loc (V d (cV L) (jV L)) ↦[(aBlk L).view.set]{fullShare} f : sProp 𝕄) = aLoc d ↦[blkSet L]{fullShare} f := rfl
omit [FloatOps F] in
theorem pts_bBlk (f : Buf (Elt F) (bLoc d)) :
    ((bBlk L).view.loc (V d (cV L) (jV L)) ↦[(bBlk L).view.set]{fullShare} f : sProp 𝕄) = bLoc d ↦[blkSet L]{fullShare} f := rfl
omit [FloatOps F] in
theorem pts_oBlk (f : Buf (Elt F) (oLoc d)) :
    ((oBlk L).view.loc (V d (cV L) (jV L)) ↦[(oBlk L).view.set]{fullShare} f : sProp 𝕄) = oLoc d ↦[outSet L]{fullShare} f := rfl
omit [FloatOps F] in
theorem pts_sA (f : Buf (Elt F) ((V d (cV L) (jV L)).loc cc0_scratch0)) :
    ((sA).view.loc (V d (cV L) (jV L)) ↦[(sA).view.set]{fullShare} f : sProp 𝕄) = (V d (cV L) (jV L)).loc cc0_scratch0 ↦{fullShare} f := by
  simp only [Memref.view_whole, View.set_whole]
omit [FloatOps F] in
theorem pts_sB (f : Buf (Elt F) ((V d (cV L) (jV L)).loc cc0_scratch1)) :
    ((sB).view.loc (V d (cV L) (jV L)) ↦[(sB).view.set]{fullShare} f : sProp 𝕄) = (V d (cV L) (jV L)).loc cc0_scratch1 ↦{fullShare} f := by
  simp only [Memref.view_whole, View.set_whole]
omit [FloatOps F] in
theorem pts_sD (f : Buf (Elt F) ((V d (cV L) (jV L)).loc cc0_scratch2)) :
    ((sD).view.loc (V d (cV L) (jV L)) ↦[(sD).view.set]{fullShare} f : sProp 𝕄) = (V d (cV L) (jV L)).loc cc0_scratch2 ↦{fullShare} f := by
  simp only [Memref.view_whole, View.set_whole]
omit [FloatOps F] in
theorem pts_sP (f : Buf (Elt F) ((V d (cV L) (jV L)).loc cc0_scratch3)) :
    ((sP).view.loc (V d (cV L) (jV L)) ↦[(sP).view.set]{fullShare} f : sProp 𝕄) = (V d (cV L) (jV L)).loc cc0_scratch3 ↦{fullShare} f := by
  simp only [Memref.view_whole, View.set_whole]

end Own

/-! ## The loops' invariants -/

section Inv

variable (d : Dev nD) (L : grid0.Coords)
variable (gA : Buf (Elt F) ((V d (cV L) (jV L)).loc cc0_scratch0)) (gB : Buf (Elt F) ((V d (cV L) (jV L)).loc cc0_scratch1))

/-- Before group k: the two row scratches as the copies left them, the partial-sum scratch at anything, the dots
    scratch with the row dots of the groups done. -/
def invO (k : Nat) (_ : Unit) : sProp 𝕄 :=
  iprop(((sA).view.loc (V d (cV L) (jV L)) ↦[(sA).view.set]{fullShare} gA)
    ∗ ((sB).view.loc (V d (cV L) (jV L)) ↦[(sB).view.set]{fullShare} gB)
    ∗ (∃ fP, (sP).view.loc (V d (cV L) (jV L)) ↦[(sP).view.set]{fullShare} fP)
    ∗ ∃ fD, ((sD).view.loc (V d (cV L) (jV L)) ↦[(sD).view.set]{fullShare} fD) ∗ ⌜DotOK (sA).view gA (sB).view gB (sD).view k fD⌝)

/-- Before trip q of group g: the partial-sum scratch with the lane sums of the group's rows done. -/
def invI (g : Fin k0_t1_loop.trips) (q : Nat) (_ : Unit) : sProp 𝕄 :=
  iprop(((sA).view.loc (V d (cV L) (jV L)) ↦[(sA).view.set]{fullShare} gA)
    ∗ ((sB).view.loc (V d (cV L) (jV L)) ↦[(sB).view.set]{fullShare} gB)
    ∗ ∃ fP, ((sP).view.loc (V d (cV L) (jV L)) ↦[(sP).view.set]{fullShare} fP) ∗ ⌜PartOK (sA).view gA (sB).view gB (sP).view g q fP⌝)

end Inv

/-! ## The result's words -/

section Final

open Idealize.ShloMosaic.ValueIdx

variable (d : Dev nD) (L : grid0.Coords)

omit [FloatOps F] in
/-- A row of the tile's block of the first argument, read through the block's view: the argument's row at the block's
    offset; -/
theorem read_aBlk (f : Buf (Elt F) (aLoc d)) (i c : Fin 128) (R : Fin 16384) (hR : R.val = k0_off1 L 0 + i.val) :
    (aBlk L).view.read (Elt F) f (ix2 i c) = f (ix2 R c) := by
  have e : (aBlk L).view.emb (ix2 i c) = ix2 R c := by
    funext a; apply Fin.ext
    match a with
    | ⟨0, _⟩ => show k0_off1 L 0 + 1 * i.val = R.val; omega
    | ⟨1, _⟩ =>
      have h1 : k0_off1 L 1 = 0 := congrFun (k0_off1_eq L) 1
      show k0_off1 L 1 + 1 * c.val = c.val; omega
  rw [View.read_apply, e]; rfl

omit [FloatOps F] in
/-- of the second. -/
theorem read_bBlk (f : Buf (Elt F) (bLoc d)) (i c : Fin 128) (R : Fin 16384) (hR : R.val = k0_off1 L 0 + i.val) :
    (bBlk L).view.read (Elt F) f (ix2 i c) = f (ix2 R c) := by
  have e : (bBlk L).view.emb (ix2 i c) = ix2 R c := by
    funext a; apply Fin.ext
    match a with
    | ⟨0, _⟩ => show k0_off1 L 0 + 1 * i.val = R.val; omega
    | ⟨1, _⟩ =>
      have h1 : k0_off1 L 1 = 0 := congrFun (k0_off1_eq L) 1
      show k0_off1 L 1 + 1 * c.val = c.val; omega
  rw [View.read_apply, e]; rfl

/-- The tile's words of the result after the copy-out of the dots scratch, all of whose 128 words are row dots of the
    two row scratches, which hold the tile's rows of the two arguments: the words of the row dots of the arguments. -/
theorem out_eq (gA : Buf (Elt F) ((V d (cV L) (jV L)).loc cc0_scratch0)) (gB : Buf (Elt F) ((V d (cV L) (jV L)).loc cc0_scratch1))
    (fD : Buf (Elt F) ((V d (cV L) (jV L)).loc cc0_scratch2)) (fo : Buf (Elt F) (oLoc d)) (XD : S128.Idx → Elt F .f32)
    (hA : ∀ (i c : Fin 128), (sA).view.read (Elt F) gA (ix2 i c) = (aBlk L).view.read (Elt F) (m (aLoc d)) (ix2 i c))
    (hB : ∀ (i c : Fin 128), (sB).view.read (Elt F) gB (ix2 i c) = (bBlk L).view.read (Elt F) (m (bLoc d)) (ix2 i c))
    (hXD : XD = (sD).view.read (Elt F) fD)
    (hD : DotOK (sA).view gA (sB).view gB (sD).view 8 fD) :
    ((oBlk L).view.loc (V d (cV L) (jV L)) ↦[(oBlk L).view.set]{fullShare} (oBlk L).view.writes (Elt F) fo [⟨Rect.whole S128, XD⟩] : sProp 𝕄)
      = oLoc d ↦[outSet L]{fullShare} outF m d := by
  subst hXD
  refine pointsTo_congr fun i hi => ?_
  obtain ⟨y, -, rfl⟩ := Finset.mem_map.mp hi
  have h1 := congrFun (View.read_writes_whole (oBlk L).view fo ((sD).view.read (Elt F) fD)) y
  have hlt : (y 0).val < 128 := (y 0).isLt
  have hy : y = ix1 (⟨(y 0).val, hlt⟩ : Fin 128) := by
    funext a; obtain rfl : a = 0 := Subsingleton.elim _ _; rfl
  have e1 : k0_off1 L 0 = 128 * (L 1).val + 128 * (L 0).val := congrFun (k0_off1_eq L) 0
  have e12 : k0_off12 L 0 = 128 * (L 1).val + 128 * (L 0).val := congrFun (k0_off12_eq L) 0
  have hemb : (((oBlk L).view.emb y) 0).val = k0_off12 L 0 + 1 * (y 0).val := rfl
  have h2 : outF m d ((oBlk L).view.emb y) = (sD).view.read (Elt F) fD y := by
    conv_rhs => rw [hy]
    rw [hD ⟨(y 0).val, hlt⟩ (by show (y 0).val < 16 * 8; omega)]
    unfold outF Cert.Spec.tilesOut
    congr 1
    · funext c
      exact ((hA _ c).trans (read_aBlk (F := F) d L (m (aLoc d)) ⟨(y 0).val, hlt⟩ c _ (by
        show (((oBlk L).view.emb y) 0).val = k0_off1 L 0 + (y 0).val; omega))).symm
    · funext c
      exact ((hB _ c).trans (read_bBlk (F := F) d L (m (bLoc d)) ⟨(y 0).val, hlt⟩ c _ (by
        show (((oBlk L).view.emb y) 0).val = k0_off1 L 0 + (y 0).val; omega))).symm
  exact (show (oBlk L).view.writes (Elt F) fo [⟨Rect.whole S128, (sD).view.read (Elt F) fD⟩] ((oBlk L).view.emb y)
    = (sD).view.read (Elt F) fD y from h1).trans h2.symm

end Final

/-- The task on vector subcore `(L 0, L 1)` of device `d`. -/
theorem tile_body (hF : (K (F := F)).Facts) (d : Dev nD) (L : grid0.Coords) (fo : Buf (Elt F) (oLoc d))
    (O : CellTallies nD τ sig (HIx 1)) (W : Waits sig (HIx 1)) (hO : ∀ g, O g none = 0) :
    iprop(levAts (K (F := F)).L (K (F := F)).lev ∗ tileIn m d L fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aW (Memref.isWhole_whole _) bW (Memref.isWhole_whole _) oW (Memref.isWhole_whole _)
            sA (Memref.isWhole_whole _) sB (Memref.isWhole_whole _) sD (Memref.isWhole_whole _) sP (Memref.isWhole_whole _)
            cc0_scratch4 cc0_scratch5 cc0_scoped0)
          fun _ => iprop(tileIn m d L (outF m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hc1 : k0_chk1 (k0_pay38 k0_pay1) := chk_of_val _ 0 (by omega) idx_val_0
  have hc2 : k0_chk2 (k0_pay39 k0_pay1) := chk_of_val _ 1 (by omega) idx_val_1
  have hc3 : k0_chk3 (k0_pay40 k0_pay1) := chk_of_val _ 2 (by omega) idx_val_2
  have hc4 : k0_chk4 (k0_pay41 k0_pay1) := chk_of_val _ 3 (by omega) idx_val_3
  have hc5 : k0_chk5 (k0_pay42 k0_pay1) := chk_of_val _ 4 (by omega) idx_val_4
  have hc6 : k0_chk6 (k0_pay43 k0_pay1) := chk_of_val _ 5 (by omega) idx_val_5
  have hc7 : k0_chk7 (k0_pay44 k0_pay1) := chk_of_val _ 6 (by omega) idx_val_6
  have hc8 : k0_chk8 (k0_pay45 k0_pay1) := chk_of_val _ 7 (by omega) idx_val_7
  have hc9 : k0_chk9 (k0_pay46 k0_pay1) := chk_of_val _ 8 (by omega) idx_val_8
  have hc10 : k0_chk10 (k0_pay47 k0_pay1) := chk_of_val _ 9 (by omega) idx_val_9
  have hc11 : k0_chk11 (addi k0_pay1 k0_pay48) := chk_of_val _ 10 (by omega) idx_val_10
  have hc12 : k0_chk12 k0_pay2 := chk_of_val _ 11 (by omega) idx_val_11
  have hc13 : k0_chk13 k0_pay3 := chk_of_val _ 12 (by omega) idx_val_12
  have hc14 : k0_chk14 k0_pay4 := chk_of_val _ 13 (by omega) idx_val_13
  have hc15 : k0_chk15 k0_pay5 := chk_of_val _ 14 (by omega) idx_val_14
  have hc16 : k0_chk16 k0_pay6 := chk_of_val _ 15 (by omega) idx_val_15
  have ht2 : Scf.trips k0_t2_loop.lb k0_t2_loop.ub k0_t2_loop.st = 4 := by decide +kernel
  have ht1 : Scf.trips k0_t1_loop.lb k0_t1_loop.ub k0_t1_loop.st = 8 := by decide +kernel
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, ⟨Ha, Hb, Ho⟩, ⟨⟨%f0, Hs0⟩, ⟨%f1, Hs1⟩, ⟨%f2, Hs2⟩, ⟨%f3, Hs3⟩, Hbufs⟩, ⟨HsemA, HsemB, HsemO, Hsems⟩, HO⟩
  ihave Hmw := ((K (F := F)).mayWaits_none (thr := V d (cV L) (jV L)) hO) $$ Hlv
  ihave Ha' := (Entails.of_eq (pts_aBlk (F := F) d L _).symm) $$ Ha
  ihave Hb' := (Entails.of_eq (pts_bBlk (F := F) d L _).symm) $$ Hb
  ihave Ho' := (Entails.of_eq (pts_oBlk (F := F) d L _).symm) $$ Ho
  ihave HsA := (Entails.of_eq (pts_sA (F := F) d L _).symm) $$ Hs0
  ihave HsB := (Entails.of_eq (pts_sB (F := F) d L _).symm) $$ Hs1
  ihave HsD := (Entails.of_eq (pts_sD (F := F) d L _).symm) $$ Hs2
  ihave HsP := (Entails.of_eq (pts_sP (F := F) d L _).symm) $$ Hs3
  sl_exec
  generalize hgA : (sA).view.writes (Elt F) (sA).view.junk _ = gA
  generalize hgB : (sB).view.writes (Elt F) (sB).view.junk _ = gB
  sl_for (invO (F := F) d L gA gB) $$ [HsA HsB HsP HsD]
  case region =>
    intro k _
    unfold invO
    iintro ⟨HsA, HsB, ⟨%fP, HsP⟩, %fD, HsD, %hD⟩
    sl_exec
    sl_for (invI (F := F) d L gA gB k) $$ [HsA HsB HsP]
    case region =>
      intro q _
      unfold invI
      iintro ⟨HsA, HsB, %fP, HsP, %hP⟩
      sl_exec
      sl_step
      isplitl [HsA]; · iexact HsA
      isplitl [HsB]; · iexact HsB
      iexists _; isplitl [HsP]; · iexact HsP
      ipureintro
      exact PartOK.step (sA).view gA (sB).view gB (sP).view k q fP hP _ _ _ _
        (fun R hR j => row0_eq (sA).view gA (sB).view gB k q R hR j) (fun R hR j => row1_eq (sA).view gA (sB).view gB k q R hR j)
        (fun R hR j => row2_eq (sA).view gA (sB).view gB k q R hR j) (fun R hR j => row3_eq (sA).view gA (sB).view gB k q R hR j)
    · unfold invI
      isplitl [HsA]; · iexact HsA
      isplitl [HsB]; · iexact HsB
      iexists _; isplitl [HsP]; · iexact HsP
      ipureintro
      exact PartOK.zero (sA).view gA (sB).view gB (sP).view k _
    iintro %_ HI
    unfold invI
    icases HI with ⟨HsA, HsB, %fP', HsP, %hP'⟩
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    iapply (SparseCore.wp_vectorLoadIdx 𝒱₀ (V d (cV L) (jV L)) none Set.univ (base := sP) (S := (sP).view.set) (q := fullShare) (f := fP') ((sP).view.set_slice_subset (Rect.whole S256))) $$ HsP; iintro HsP
    sl_exec
    sl_step
    isplitl [HsA]; · iexact HsA
    isplitl [HsB]; · iexact HsB
    isplitl [HsP]; · iexists _; iexact HsP
    iexists _; isplitl [HsD]; · iexact HsD
    ipureintro
    exact DotOK.step (sA).view gA (sB).view gB (sD).view k fD hD _ (fun i =>
      pay7_group (fun r => vrow (sA).view gA (rowIx k r)) (fun r => vrow (sB).view gB (rowIx k r))
        (View.read (Elt F) ((sP).access (Rect.whole cc0_scratch3.ty.shape)) fP')
        (fun r j hw => (congrFun (Memref.read_access_whole (Elt F) cc0_scratch3 fP') _).trans
          (hP' r j (by rw [ht2]; have := r.isLt; omega) hw))
        _ _ _ _ _ _ _ _ _ _ _ _ _ _ _ _ i)
  · unfold invO
    isplitl [HsA]; · iexact HsA
    isplitl [HsB]; · iexact HsB
    isplitl [HsP]; · iexists _; iexact HsP
    iexists _; isplitl [HsD]; · iexact HsD
    ipureintro
    exact DotOK.zero (sA).view gA (sB).view gB (sD).view _
  iintro %_ HI
  unfold invO
  icases HI with ⟨HsA, HsB, ⟨%fP, HsP⟩, %fD, HsD, %hD⟩
  sl_exec
  sl_step
  isplitl [Ha' Hb' Ho']
  · isplitl [Ha']; · iapply (Entails.of_eq (pts_aBlk (F := F) d L _)); iexact Ha'
    isplitl [Hb']; · iapply (Entails.of_eq (pts_bBlk (F := F) d L _)); iexact Hb'
    iapply (Entails.of_eq (out_eq (F := F) m d L gA gB fD fo _
      (fun i c => by rw [← hgA]; exact congrFun (View.read_writes_whole _ _ _) _)
      (fun i c => by rw [← hgB]; exact congrFun (View.read_writes_whole _ _ _) _)
      rfl (ht1 ▸ hD)))
    iexact Ho'
  isplitl [HsA HsB HsD HsP Hbufs]
  · isplitl [HsA]; · iexists _; iapply (Entails.of_eq (pts_sA (F := F) d L _)); iexact HsA
    isplitl [HsB]; · iexists _; iapply (Entails.of_eq (pts_sB (F := F) d L _)); iexact HsB
    isplitl [HsD]; · iexists _; iapply (Entails.of_eq (pts_sD (F := F) d L _)); iexact HsD
    isplitl [HsP]; · iexists _; iapply (Entails.of_eq (pts_sP (F := F) d L _)); iexact HsP
    iexact Hbufs
  isplitl [HsemA HsemB HsemO Hsems]
  · isplitl [HsemA]; · iexact HsemA
    isplitl [HsemB]; · iexact HsemB
    isplitl [HsemO]; · iexact HsemO
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KI

end
-- ==== Proof.KILaunch.lean ====
/-
  The launch of the kernel program: what the one SparseCore call hands its SparseCore and each tile and takes back
  (the two arguments whole and kept; the call's result, at anything going in and at the tiles' row dots coming
  back), how the arrays split into the sixteen tiles' rows and words, the launch element of the ghost state, @main on
  the TensorCore, and the program's run with every result named.
-/
import proofs.«209947_g87935160418510_cont_sun_m_973_20_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

abbrev aPts (d : Dev nD) : sProp 𝕄 := aLoc d ↦{fullShare} m (aLoc d)
abbrev bPts (d : Dev nD) : sProp 𝕄 := bLoc d ↦{fullShare} m (bLoc d)
abbrev oPts (d : Dev nD) (f : Buf (Elt F) (oLoc d)) : sProp 𝕄 := oLoc d ↦{fullShare} f

theorem nCore_grid : (K (F := F)).nCore 0 = grid0.bound 0 := rfl
theorem nSub_grid : (K (F := F)).nSub 0 = grid0.bound 1 := rfl

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The one call takes the two arguments and the result whole; each tile its rows and words; and brings them back,
    the result at the tiles' row dots. -/
def P : (K (F := F)).Pay (nD := nD) (Val := Elt F) (Name := ℕ) (U := UU) where
  st := fun q d _ => match q with | 0 => iprop(aPts m d ∗ bPts m d ∗ ∃ f, oPts d f)
  dn := fun q d _ => match q with | 0 => iprop(aPts m d ∗ bPts m d ∗ oPts d (outF m d))
  go := fun q d c i => match q with
    | 0 => iprop(∃ fo, tileIn m d (coordsV (Fin.cast nCore_grid c) (Fin.cast nSub_grid i)) fo)
  td := fun q d c i => match q with
    | 0 => tileIn m d (coordsV (Fin.cast nCore_grid c) (Fin.cast nSub_grid i)) (outF m d)
  x := fun _ _ => iprop(emp)

instance P_storable : (P (F := F) m).IsStorable where
  st q d _ := match q with
    | 0 => (inferInstance : BI.Storable (upEmb : UEmb _ 𝕄) iprop(aPts m d ∗ bPts m d ∗ ∃ f, oPts d f))
  dn q d _ := match q with
    | 0 => (inferInstance : BI.Storable (upEmb : UEmb _ 𝕄) iprop(aPts m d ∗ bPts m d ∗ oPts d (outF m d)))
  go q d c i := match q with
    | 0 => (inferInstance : BI.Storable (upEmb : UEmb _ 𝕄) iprop(∃ fo, tileIn m d (coordsV (Fin.cast nCore_grid c) (Fin.cast nSub_grid i)) fo))
  td q d c i := match q with
    | 0 => (inferInstance : BI.Storable (upEmb : UEmb _ 𝕄) (tileIn m d (coordsV (Fin.cast nCore_grid c) (Fin.cast nSub_grid i)) (outF m d)))

/-! ## The launch theorem's obligations -/

local notation "aW" => (Memref.whole Cert.KernelIdeal.main_arg0_scv : Memref Cert.KernelIdeal.sig Kind.scVector Space.hbm Cert.KernelIdeal.S16384x128 EltTy.f32)
local notation "bW" => (Memref.whole Cert.KernelIdeal.main_arg1_scv : Memref Cert.KernelIdeal.sig Kind.scVector Space.hbm Cert.KernelIdeal.S16384x128 EltTy.f32)
local notation "oW" => (Memref.whole Cert.KernelIdeal.main_v0_scv : Memref Cert.KernelIdeal.sig Kind.scVector Space.hbm Cert.KernelIdeal.S2048 EltTy.f32)
local notation "sA" => (Memref.whole Cert.KernelIdeal.cc0_scratch0 : Memref Cert.KernelIdeal.sig Kind.scVector Space.vmem Cert.KernelIdeal.S128x128 EltTy.f32)
local notation "sB" => (Memref.whole Cert.KernelIdeal.cc0_scratch1 : Memref Cert.KernelIdeal.sig Kind.scVector Space.vmem Cert.KernelIdeal.S128x128 EltTy.f32)
local notation "sD" => (Memref.whole Cert.KernelIdeal.cc0_scratch2 : Memref Cert.KernelIdeal.sig Kind.scVector Space.vmem Cert.KernelIdeal.S128 EltTy.f32)
local notation "sP" => (Memref.whole Cert.KernelIdeal.cc0_scratch3 : Memref Cert.KernelIdeal.sig Kind.scVector Space.vmem Cert.KernelIdeal.S256 EltTy.f32)

/-- The payloads of the one call, as equations. -/
theorem P_x (q : Fin 1) (thr : Thread nD τ) : (P (F := F) m).x q thr = iprop(emp) := rfl
theorem P_go (d : Dev nD) (c : Fin ((K (F := F)).nCore 0)) (i : Fin ((K (F := F)).nSub 0)) :
    (P (F := F) m).go 0 d c i = iprop(∃ fo, tileIn m d (coordsV (Fin.cast nCore_grid c) (Fin.cast nSub_grid i)) fo) := rfl
theorem P_td (d : Dev nD) (c : Fin ((K (F := F)).nCore 0)) (i : Fin ((K (F := F)).nSub 0)) :
    (P (F := F) m).td 0 d c i = tileIn m d (coordsV (Fin.cast nCore_grid c) (Fin.cast nSub_grid i)) (outF m d) := rfl
theorem P_st (d : Dev nD) (c : Fin ((K (F := F)).nCore 0)) :
    (P (F := F) m).st 0 d c = iprop(aPts m d ∗ bPts m d ∗ ∃ f, oPts d f) := rfl
theorem P_dn (d : Dev nD) (c : Fin ((K (F := F)).nCore 0)) :
    (P (F := F) m).dn 0 d c = iprop(aPts m d ∗ bPts m d ∗ oPts d (outF m d)) := rfl

/-- The body table's entry for a vector subcore is the tile's task at that subcore's coordinates. -/
theorem defs₀_vector (c : Fin τ.nSC) (s : Fin τ.nSub) :
    defs₀ (F := F) (.scVector c s) 0 ()
      = SparseCore.onTile hcore0 hsub0 (fun c s => cc0__sc_body (coordsV c s)
          aW (Memref.isWhole_whole _) bW (Memref.isWhole_whole _) oW (Memref.isWhole_whole _)
          sA (Memref.isWhole_whole _) sB (Memref.isWhole_whole _) sD (Memref.isWhole_whole _) sP (Memref.isWhole_whole _)
          cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's task from what the launch hands it: nothing of the kernel's own, and its rows and words with the
    result's words at some contents. -/
theorem tile_task (hF : (K (F := F)).Facts) (d : Dev nD) (L : grid0.Coords)
    (O : CellTallies nD τ sig (HIx 1)) (W : Waits sig (HIx 1)) (hO : ∀ g, O g none = 0) :
    iprop(levAts (K (F := F)).L (K (F := F)).lev ∗ emp ∗ (∃ fo, tileIn m d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aW (Memref.isWhole_whole _) bW (Memref.isWhole_whole _) oW (Memref.isWhole_whole _)
            sA (Memref.isWhole_whole _) sB (Memref.isWhole_whole _) sD (Memref.isWhole_whole _) sP (Memref.isWhole_whole _)
            cc0_scratch4 cc0_scratch5 cc0_scoped0)
          fun _ => iprop(tileIn m d L (outF m d) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  iintro ⟨Hlv, -, ⟨%fo, Hgo⟩, Hb, Hs, HO⟩
  iapply ((tile_body m hF d L fo O W hO).trans (wp_mono frame _ _ fun _ => obl_post))
  isplitl [Hlv]; · iexact Hlv
  isplitl [Hgo]; · iexact Hgo
  isplitl [Hb]; · iexact Hb
  isplitl [Hs]; · iexact Hs
  iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m hF d (coordsV ⟨_, hc.1⟩ ⟨_, hc.2⟩) O W hO

/-! ### How the arrays split into the tiles' rows and words -/

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A tile's rows of an argument are the elements of its rectangle; its words of the result likewise. -/
theorem blkSet_eq (L : grid0.Coords) : blkSet L = (blkR L).set := by
  show ((View.whole (main_arg0_scv : Ref sig .scVector)).slice (blkR L)).set = _
  rw [View.set_slice]; exact Finset.map_refl
theorem outSet_eq (L : grid0.Coords) : outSet L = (outR L).set := by
  show ((View.whole (main_v0_scv : Ref sig .scVector)).slice (outR L)).set = _
  rw [View.set_slice]; exact Finset.map_refl

/-- Tile `i`'s rows start at row `128 i` (one SparseCore: `c = 0`), so different tiles' rows are apart. -/
theorem blk_disjoint (c : Fin (grid0.bound 0)) :
    ∀ i ∈ (Finset.univ : Finset (Fin (grid0.bound 1))), ∀ j ∈ (Finset.univ : Finset (Fin (grid0.bound 1))), i ≠ j →
      Disjoint (blkSet (coordsV c i)) (blkSet (coordsV c j)) := by
  intro i _ j _ h
  rw [blkSet_eq, blkSet_eq]
  refine Rect.unit_disjoint 0 ?_
  rw [k0_off1_eq, k0_off1_eq]
  have hij : i.val ≠ j.val := fun e => h (Fin.ext e)
  simp only [coordsV_zero, coordsV_one, Matrix.cons_val_zero]
  show 128 * i.val + 128 * c.val + 128 ≤ 128 * j.val + 128 * c.val ∨ 128 * j.val + 128 * c.val + 128 ≤ 128 * i.val + 128 * c.val
  omega
theorem out_disjoint (c : Fin (grid0.bound 0)) :
    ∀ i ∈ (Finset.univ : Finset (Fin (grid0.bound 1))), ∀ j ∈ (Finset.univ : Finset (Fin (grid0.bound 1))), i ≠ j →
      Disjoint (outSet (coordsV c i)) (outSet (coordsV c j)) := by
  intro i _ j _ h
  rw [outSet_eq, outSet_eq]
  refine Rect.unit_disjoint 0 ?_
  rw [k0_off12_eq, k0_off12_eq]
  have hij : i.val ≠ j.val := fun e => h (Fin.ext e)
  simp only [coordsV_zero, coordsV_one, Matrix.cons_val_zero]
  show 128 * i.val + 128 * c.val + 128 ≤ 128 * j.val + 128 * c.val ∨ 128 * j.val + 128 * c.val + 128 ≤ 128 * i.val + 128 * c.val
  omega
/-- The sixteen tiles' words are all 2048 words of the result: word `x` is tile `x / 128`'s. -/
theorem out_cover (c : Fin (grid0.bound 0)) :
    (Finset.univ : Finset (Fin (grid0.bound 1))).biUnion (fun i => outSet (coordsV c i)) = Finset.univ := by
  ext x
  simp only [Finset.mem_biUnion, Finset.mem_univ, true_and, iff_true]
  have hx : (x 0).val < 2048 := (x 0).isLt
  have hc : c.val < 1 := c.isLt
  refine ⟨⟨(x 0).val / 128, by show _ < 16; omega⟩, ?_⟩
  rw [outSet_eq, Rect.mem_set_unit]
  intro a
  obtain rfl : a = 0 := Subsingleton.elim _ _
  rw [k0_off12_eq]
  simp only [coordsV_zero, coordsV_one, Matrix.cons_val_zero]
  show 128 * ((x 0).val / 128) + 128 * c.val ≤ (x 0).val ∧ (x 0).val < 128 * ((x 0).val / 128) + 128 * c.val + 128
  omega

/-- The rows of an argument that the sixteen tiles are handed. -/
abbrev tilesRows (c : Fin (grid0.bound 0)) : Finset S16384x128.Idx :=
  (Finset.univ : Finset (Fin (grid0.bound 1))).biUnion fun i => blkSet (coordsV c i)

omit [FloatOps F] in
/-- An argument whole is the tiles' rows of it and the rows no tile is handed. -/
theorem aPts_split (d : Dev nD) (c : Fin (grid0.bound 0)) (f : Buf (Elt F) (aLoc d)) :
    (aLoc d ↦{fullShare} f : sProp 𝕄)
      ⊣⊢ iprop((bigSep Finset.univ fun i : Fin (grid0.bound 1) => aLoc d ↦[blkSet (coordsV c i)]{fullShare} f)
          ∗ aLoc d ↦[Finset.univ \ tilesRows c]{fullShare} f) := by
  rw [← pointsTo_biUnion Finset.univ (ℓ := aLoc d) (fun i => blkSet (coordsV c i)) (blk_disjoint c)]
  exact pointsTo_split_subset (Finset.subset_univ _)
omit [FloatOps F] in
theorem bPts_split (d : Dev nD) (c : Fin (grid0.bound 0)) (f : Buf (Elt F) (bLoc d)) :
    (bLoc d ↦{fullShare} f : sProp 𝕄)
      ⊣⊢ iprop((bigSep Finset.univ fun i : Fin (grid0.bound 1) => bLoc d ↦[blkSet (coordsV c i)]{fullShare} f)
          ∗ bLoc d ↦[Finset.univ \ tilesRows c]{fullShare} f) := by
  rw [← pointsTo_biUnion Finset.univ (ℓ := bLoc d) (fun i => blkSet (coordsV c i)) (blk_disjoint c)]
  exact pointsTo_split_subset (Finset.subset_univ _)
omit [FloatOps F] in
/-- The result whole is the tiles' words of it. -/
theorem oPts_tiles (d : Dev nD) (c : Fin (grid0.bound 0)) (f : Buf (Elt F) (oLoc d)) :
    (oLoc d ↦{fullShare} f : sProp 𝕄) = bigSep Finset.univ fun i : Fin (grid0.bound 1) => oLoc d ↦[outSet (coordsV c i)]{fullShare} f := by
  rw [← pointsTo_biUnion Finset.univ (ℓ := oLoc d) (fun i => outSet (coordsV c i)) (out_disjoint c), out_cover c]

/-- The tiles' parts, array by array. -/
theorem tiles_eq (d : Dev nD) (c : Fin (grid0.bound 0)) (fo : Buf (Elt F) (oLoc d)) :
    (bigSep Finset.univ fun i : Fin (grid0.bound 1) => tileIn m d (coordsV c i) fo)
      = iprop((bigSep Finset.univ fun i : Fin (grid0.bound 1) => aLoc d ↦[blkSet (coordsV c i)]{fullShare} m (aLoc d))
          ∗ (bigSep Finset.univ fun i : Fin (grid0.bound 1) => bLoc d ↦[blkSet (coordsV c i)]{fullShare} m (bLoc d))
          ∗ bigSep Finset.univ fun i : Fin (grid0.bound 1) => oLoc d ↦[outSet (coordsV c i)]{fullShare} fo) := by
  unfold tileIn
  rw [bigSep_sep', bigSep_sep']
theorem tiles_in (d : Dev nD) (c : Fin (grid0.bound 0)) (f : Buf (Elt F) (oLoc d)) :
    (bigSep Finset.univ fun i : Fin (grid0.bound 1) => tileIn m d (coordsV c i) f)
      ⊢ bigSep Finset.univ fun i : Fin (grid0.bound 1) => iprop(∃ fo, tileIn m d (coordsV c i) fo) :=
  bigSep_mono fun i _ => by
    show tileIn m d (coordsV c i) f ⊢ iprop(∃ fo, tileIn m d (coordsV c i) fo)
    iintro H; iexists f; iexact H

theorem bigSep_tasks (Φ : Fin (grid0.bound 1) → sProp 𝕄) :
    (bigSep Finset.univ fun i : Fin ((K (F := F)).nSub 0) => Φ (Fin.cast nSub_grid i)) = bigSep Finset.univ Φ :=
  bigSep_congr fun _ _ => congrArg Φ (Fin.ext rfl)

/-- The split at SparseCore `c`'s coordinate: the tiles' rows of the two arguments and words of the result go out, the
    other rows stay behind; the tiles' parts back, the result's words all at the tiles' row dots, make the arrays whole. -/
theorem split_main (d : Dev nD) (c : Fin (grid0.bound 0)) :
    iprop(aPts m d ∗ bPts m d ∗ ∃ f, oPts d f) ⊢ |={Set.univ}=> iprop(
      (bigSep Finset.univ fun i : Fin (grid0.bound 1) => iprop(∃ fo, tileIn m d (coordsV c i) fo))
      ∗ ((bigSep Finset.univ fun i : Fin (grid0.bound 1) => tileIn m d (coordsV c i) (outF m d))
          -∗ iprop(aPts m d ∗ bPts m d ∗ oPts d (outF m d)))) := by
  iintro ⟨Ha, Hb, %f, Ho⟩
  imodintro
  ihave Ha' := (aPts_split d c _).1 $$ Ha
  icases Ha' with ⟨Ha1, Ha2⟩
  ihave Hb' := (bPts_split d c _).1 $$ Hb
  icases Hb' with ⟨Hb1, Hb2⟩
  ihave Ho' := (Entails.of_eq (oPts_tiles d c f)) $$ Ho
  isplitl [Ha1 Hb1 Ho']
  · iapply (tiles_in m d c f)
    iapply (Entails.of_eq (tiles_eq m d c f).symm)
    isplitl [Ha1]; · iexact Ha1
    isplitl [Hb1]; · iexact Hb1
    iexact Ho'
  iintro Htd
  ihave H := (Entails.of_eq (tiles_eq m d c (outF m d))) $$ Htd
  icases H with ⟨Ha1, Hb1, Ho1⟩
  isplitl [Ha1 Ha2]
  · iapply (aPts_split d c _).2
    isplitl [Ha1]; · iexact Ha1
    iexact Ha2
  isplitl [Hb1 Hb2]
  · iapply (bPts_split d c _).2
    isplitl [Hb1]; · iexact Hb1
    iexact Hb2
  iapply (Entails.of_eq (oPts_tiles d c (outF m d)).symm)
  iexact Ho1

theorem vecSplit : (K (F := F)).VecSplit' (P m) 0 := by
  intro d c
  show iprop(aPts m d ∗ bPts m d ∗ ∃ f, oPts d f) ⊢ |={Set.univ}=> iprop(
      (bigSep Finset.univ fun i : Fin ((K (F := F)).nSub 0) => iprop(∃ fo, tileIn m d (coordsV (Fin.cast nCore_grid c) (Fin.cast nSub_grid i)) fo))
      ∗ ((bigSep Finset.univ fun i : Fin ((K (F := F)).nSub 0) => tileIn m d (coordsV (Fin.cast nCore_grid c) (Fin.cast nSub_grid i)) (outF m d))
          -∗ iprop(aPts m d ∗ bPts m d ∗ oPts d (outF m d))))
  rw [bigSep_tasks (F := F) (fun i => iprop(∃ fo, tileIn m d (coordsV (Fin.cast nCore_grid c) i) fo)),
    bigSep_tasks (F := F) (fun i => tileIn m d (coordsV (Fin.cast nCore_grid c) i) (outF m d))]
  exact split_main m d (Fin.cast nCore_grid c)

/-! ## The launch element of the ghost state -/

/-- No pipeline has a prefetched table. -/
abbrev adm : (p : Fin 1) → (pcfgs (F := F) p).Adm := fun p => (cfgs p).toPCfg_adm

/-- What the launch element deals the TensorCore of `d` for the pipeline's region: its staging cells' ghost state and
    its transfers' duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
/-- The launch element's three parts: the handshakes' rounds, the staging cells' rounds, the counters' unit (dropped). -/
theorem ownU_split (a : UH) (b : UP) (k : Counters) : (ownU (a, (b, k)) : sProp 𝕄) ⊢ iprop(BI.own (EH a) ∗ BI.own (EP b)) := by
  iintro Hu
  ihave H := (ownU_pair _ _) $$ Hu
  icases H with ⟨HH, HR⟩
  ihave H' := (own_pair_emb (embR : Emb (UP × Counters) 𝕄) b k) $$ HR
  icases H' with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

omit [FloatOps F] in
/-- What a TensorCore is dealt, over the pipelines' configurations themselves. -/
theorem G_eq (d : Dev nD) :
    G (F := F) d = iprop((bigSep Finset.univ fun p : Fin 1 => Pipeline.cellsGhost cfgs (EP (F := F)) p d)
      ∗ bigSep Finset.univ fun p : Fin 1 => Pipeline.toksInit cfgs (EP (F := F)) p d) := by
  rw [bigSep_univ_of_subsingleton (0 : Fin 1), bigSep_univ_of_subsingleton (0 : Fin 1)]

omit [FloatOps F] in
/-- The staging cells' launch element funds every TensorCore's cells and duty tokens. -/
theorem fund_G :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => G (F := F) d) := by
  iintro H
  imod (Pipeline.fund_ghost cfgs (EP (F := F)) cellOf_inj) $$ H with ⟨Hc, Ht⟩
  imodintro
  rw [bigSep_congr fun d _ => G_eq (F := F) d, bigSep_sep']
  isplitl [Hc]; · iexact Hc
  iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund_G (F := F)) $$ HP with HG
  imodintro
  isplitl [HH]; · iexact HH
  isplitl [HG]; · iexact HG
  rw [show (bigSep Finset.univ fun thr : Thread nD τ => bigSep Finset.univ fun q : Fin 1 => (P m).x q thr) = (iprop(emp) : sProp 𝕄) from
    (bigSep_congr fun thr _ => (bigSep_congr fun q _ => P_x m q thr).trans (bigSep_emp' _)).trans (bigSep_emp' _)]
  iempintro

end Cert.Proof.KI

end
-- ==== Proof.KIRegion.lean ====
/-
  The TensorCore pipeline of the kernel program: four grid points, at point `t` rows `4096·t … 4096·t + 4095` of
  the two arguments staged in, the body storing them unchanged into the two copy results' blocks and their
  products' lane sums into the row-sum result's block, the three blocks written back.
-/
import proofs.«209947_g87935160418510_cont_sun_m_973_20_alg».proof.Proof.KICommon
import proofs.«209947_g87935160418510_cont_sun_m_973_20_alg».proof.Proof.Gen.KernelIdeal.Skeleton
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! ## The body's accesses and what it leaves in each result's block -/

abbrev rM : Rect S4096x128 := Rect.unit (s := S4096x128) ![0, 0] S4096x128.size inb_S4096x128_S4096x128_0_0
abbrev rV : Rect S4096 := Rect.unit (s := S4096) ![0] S4096.size inb_S4096_S4096_0

/-- The first copy result's block after the body: the first argument's block, stored whole. -/
def outC (x : Vec F S4096x128 .f32) : Vec F S4096x128 .f32 := View.canon [⟨rM, View.ld x rM⟩]
/-- The row-sum result's block after the body: the lane sums of the products of the two arguments' blocks. -/
def outS (x0 x1 : Vec F S4096x128 .f32) : Vec F S4096 .f32 := View.canon [⟨rV, k1_pay1 (View.ld x0 rM) (View.ld x1 rM)⟩]

theorem coverM (p0 : Vec F S4096x128 .f32) (y : S4096x128.Idx) :
    ∃ pc ∈ ([⟨rM, p0⟩] : List (View.Piece (Elt F) S4096x128 .f32)), y ∈ pc.1.set :=
  View.cover_of_tiled [⟨rM, p0⟩] S4096x128.size (by rfl) y
theorem coverV (p0 : Vec F S4096 .f32) (y : S4096.Idx) :
    ∃ pc ∈ ([⟨rV, p0⟩] : List (View.Piece (Elt F) S4096 .f32)), y ∈ pc.1.set :=
  View.cover_of_tiled [⟨rV, p0⟩] S4096.size (by rfl) y

set_option maxHeartbeats 1000000 in
/-- The body on whole staging memrefs: the two inputs at `x0`, `x1` and kept; the three outputs at anything going
    in, at `outC x0`, `outC x1`, `outS x0 x1` coming out. -/
theorem sound_tc (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096 .f32) (harg5 : arg5.IsWhole)
    (x0 x1 : Vec F S4096x128 .f32) (Kk : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outC x0) ∗ owns (c : Thread nD τ) arg4 fullShare (outC x1)
            ∗ owns (c : Thread nD τ) arg5 fullShare (outS x0 x1)) -∗ Kk ⟨⟩))
      ⊢ wp frame (wpE (defs₀ (F := F)) Variants.none c none) E (cc1__tc_body i arg1 harg1 arg2 harg2 arg3 harg3 arg4 harg4 arg5 harg5) Kk := by
  simp only [cc1__tc_body_eq_skeleton]; unfold cc1__tc_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  isplitl [H3]
  · iexists _; isplitr
    swap; · iexact H3
    ipureintro
    exact View.read_writes_eq_canon _ _ _ (coverM _)
  iexists _; isplitr
  swap; · iexact H4
  ipureintro
  exact View.read_writes_eq_canon _ _ _ (coverV _)

/-! ## The region at entry contents `Vv`: blocks, proof data, the body obligation -/

section Region

variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's current staging buffer holds its block at every point. -/
theorem before_in0_of {c : Dev nD} (dat : Dat τ (Elt F) (HIx 1) ℕ UU ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) (HIx 1) ℕ UU ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The region's invariant: the core's scoped buffers that are no staging buffer, and its generator register at some
    state; the body uses neither. -/
def ΦH (c : Dev nD) : sProp 𝕄 :=
  iprop(Pipeline.scopedRest (Ix := HIx 1) (Name := ℕ) (U := UU) (Lvl := ℕ) (Val := Elt F) spec1 c ∗ ∃ r, prngReg c r)

/-- The pipeline's proof data on core `c`: the arrays as the region finds them; after the body at point `t` each
    input's buffer at its block, each copy result's at the corresponding input's block stored whole, the row-sum
    result's at the lane sums of the blocks' products; nothing owed; the recorded waits bounded as the TensorCore's
    are after the SparseCore call. -/
def datTC (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => outC (iblk Vv c 0 t)
    | ⟨3, _⟩ => outC (iblk Vv c 1 t)
    | ⟨4, _⟩ => outS (iblk Vv c 0 t) (iblk Vv c 1 t)
  Φ _ := ΦH c
  q _ := fullShare
  owed _ := 0
  recorded _ := {p | (K (F := F)).lev ((c : Thread nD τ), p.1) p.2 ≤ 8}

theorem A_eq (c : Dev nD) (w : Fin cfg1.W) : (datTC Vv c).A w = Vv c (Pipeline.arrRef spec1 w) := by dsimp only [datTC]
theorem after_0 (c : Dev nD) (t : Fin cfg1.N) : (datTC Vv c).after 0 t = iblk Vv c 0 t := by dsimp only [datTC]
theorem after_1 (c : Dev nD) (t : Fin cfg1.N) : (datTC Vv c).after 1 t = iblk Vv c 1 t := by dsimp only [datTC]
theorem after_2 (c : Dev nD) (t : Fin cfg1.N) : (datTC Vv c).after 2 t = outC (iblk Vv c 0 t) := by dsimp only [datTC]
theorem after_3 (c : Dev nD) (t : Fin cfg1.N) : (datTC Vv c).after 3 t = outC (iblk Vv c 1 t) := by dsimp only [datTC]
theorem after_4 (c : Dev nD) (t : Fin cfg1.N) : (datTC Vv c).after 4 t = outS (iblk Vv c 0 t) (iblk Vv c 1 t) := by dsimp only [datTC]

theorem before_0 (c : Dev nD) (t : Fin cfg1.N) (d) : (datTC Vv c).before 0 t d = iblk Vv c 0 t :=
  before_in0_of Vv (datTC Vv c) (A_eq Vv c 0) (after_0 Vv c) t d
theorem before_1 (c : Dev nD) (t : Fin cfg1.N) (d) : (datTC Vv c).before 1 t d = iblk Vv c 1 t :=
  before_in1_of Vv (datTC Vv c) (A_eq Vv c 1) (after_1 Vv c) t d

/-- What the body is called with at point `t`, -/
def bodyPre (c : Dev nD) (t : Fin cfg1.N) : sProp 𝕄 :=
  iprop((datTC Vv c).Φ t.castSucc ∗ (datTC Vv c).owesAt none t.castSucc
    ∗ (∃ d, owns (c : Thread nD τ) (st1_0 t) fullShare ((datTC Vv c).before 0 t d))
    ∗ (∃ d, owns (c : Thread nD τ) (st1_1 t) fullShare ((datTC Vv c).before 1 t d))
    ∗ (∃ d, owns (c : Thread nD τ) (st1_2 t) fullShare ((datTC Vv c).before 2 t d))
    ∗ (∃ d, owns (c : Thread nD τ) (st1_3 t) fullShare ((datTC Vv c).before 3 t d))
    ∗ (∃ d, owns (c : Thread nD τ) (st1_4 t) fullShare ((datTC Vv c).before 4 t d)))

/-- and what it returns. -/
def bodyPost (c : Dev nD) (t : Fin cfg1.N) : sProp 𝕄 :=
  iprop((datTC Vv c).Φ t.succ ∗ (datTC Vv c).owesAt none t.succ
    ∗ owns (c : Thread nD τ) (st1_0 t) fullShare ((datTC Vv c).after 0 t)
    ∗ owns (c : Thread nD τ) (st1_1 t) fullShare ((datTC Vv c).after 1 t)
    ∗ owns (c : Thread nD τ) (st1_2 t) fullShare ((datTC Vv c).after 2 t)
    ∗ owns (c : Thread nD τ) (st1_3 t) fullShare ((datTC Vv c).after 3 t)
    ∗ owns (c : Thread nD τ) (st1_4 t) fullShare ((datTC Vv c).after 4 t))

theorem sound_body (c : Dev nD) (t : Fin cfg1.N) :
    bodyPre Vv c t ⊢ wp frame (wpE (defs₀ (F := F)) Variants.none c none) Set.univ (bodyAt1 t) (fun _ => bodyPost Vv c t) := by
  unfold bodyPre bodyPost bodyAt1
  simp only [before_0, before_1]
  rw [show (datTC Vv c).Φ t.succ = (datTC Vv c).Φ t.castSucc from rfl,
    show (datTC Vv c).owesAt none t.succ = (datTC Vv c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_tc c Set.univ _ _ _ _ _ _ _ _ _ _ _ (iblk Vv c 0 t) (iblk Vv c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (datTC (F := F) Vv c) (defs₀ (F := F)) Variants.none none Set.univ := fun t => by
  rw [bigSep_W1, bigSep_W1]
  exact sound_body Vv c t

end Region

/-! ## The region as a segment of @main, entered from the buffer contents `W1` -/

section Seg

open Idealize.ShloMosaic.StableHlo (held)

variable (W1 : Dev nD → Valuation τ sig (Elt F))

/-- The entry contents read at the TensorCore's references. -/
abbrev V1 : (c : Dev nD) → (b : Ref sig .tc) → Buf (Elt F) ((c : Thread nD τ).loc b) := fun c b => W1 c b

/-- The buffer contents at the region's exit: its five arrays at what the pipeline leaves (the two arguments as
    entered, each result's write-backs folded), every other buffer as entered. -/
def W2 (c : Dev nD) : Valuation τ sig (Elt F) :=
  Pipeline.withArrays spec1 c (W1 c) fun w => (datTC (V1 W1) c).arrAt w cfg1.N
theorem W2_arr (c : Dev nD) (w : Fin cfg1.W) :
    W2 W1 c (Proc.devRef .tc (Pipeline.arrRef spec1 w)) = (datTC (V1 W1) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 W1 c (Proc.devRef .tc b) = W1 c (Proc.devRef .tc b) := by
  unfold W2; exact Pipeline.withArrays_of_ne spec1 c _ _ b hb
abbrev V2 : (c : Dev nD) → (b : Ref sig .tc) → Buf (Elt F) ((c : Thread nD τ).loc b) := fun c b => W2 W1 c b
theorem hFarr (c : Dev nD) (w : Fin cfg1.W) : (datTC (V1 W1) c).arrAt w cfg1.N = V2 W1 c (Pipeline.arrRef spec1 w) :=
  (W2_arr W1 c w).symm
theorem hrest (c : Dev nD) : ∀ b, b ∉ Finset.univ.image (Pipeline.arrRef spec1) → V2 W1 c b = V1 W1 c b :=
  fun b hb => W2_of_ne W1 c b fun w e => hb (Finset.mem_image.mpr ⟨w, Finset.mem_univ _, e⟩)

/-- No pipeline has a prefetched table. -/
abbrev admR : (p : Fin 1) → (pcfgs (F := F) p).Adm := fun p => (cfgs p).toPCfg_adm
/-- The one pipeline's proof data, at the region's entry contents. -/
def pdats : (p : Fin 1) → (c : Dev nD) → Dat τ (Elt F) (HIx 1) ℕ UU ℕ (Pipeline.pin (pcfgs (F := F)) admR p) c
  | ⟨0, _⟩ => fun c => datTC (V1 W1) c

/-- What rides beside the buffers: the generator register at some state, and the TensorCore owing nothing, its
    recorded waits bounded as after the SparseCore call. -/
abbrev Rr (c : Dev nD) : sProp 𝕄 :=
  iprop((∃ r, prngReg c r) ∗ ∃ W, ⌜(K (F := F)).WBelow (c : Thread nD τ) W 8⌝ ∗ owes (c : Thread nD τ) (0 : CellTallies nD τ sig (HIx 1)) W)

set_option backward.isDefEq.respectTransparency.types false in
/-- The region over the thread state "every unscoped buffer at the boundary's contents, `Rr`": entered at `W1`,
    left at `W2`. -/
def regTC : Pipeline.RegionSeg (pcfgs (F := F)) admR (pdats W1) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (V1 W1) c).loose
  hwaits := Pipeline.hwaits_of_owed_zero _ _ _ _ (K (F := F)).L (K (F := F)).lev 0 fun _ _ => rfl
  pre c := iprop(held (c : Thread nD τ) (Pipeline.ucRefs τ sig) (W1 c) ∗ Rr c)
  post c := iprop(held (c : Thread nD τ) (Pipeline.ucRefs τ sig) (W2 W1 c) ∗ Rr c)
  X c := iprop(∃ r, prngReg c r)
  Y c := iprop(∃ r, prngReg c r)
  Z c := Pipeline.unscopedRest (Ix := HIx 1) (Name := ℕ) (U := UU) (Lvl := ℕ) spec1 c (V1 W1 c)
  hentry c := by
    rw [Pipeline.ownSems0_none]
    have hsplit := Pipeline.arrays_of_unscopedBufs (p := 0) (pcfgs (F := F)) admR (pdats W1) launch1.win launch1.arr_whole c
      ((pdats W1 0 c).share_full fun _ => rfl) (V1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats W1 0 c).Φ 0 = ΦH c from rfl]; unfold ΦH
    iintro ⟨Hp, -, Hr⟩
    isplitl [Hr]; · iexact Hr
    iexact Hp
  hout c := by
    rw [Pipeline.ownSems0_none, show (pdats W1 0 c).Φ (Fin.last _) = ΦH c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) admR (Ix := HIx 1) (Name := ℕ) (U := UU) (Lvl := ℕ)
      launch1.win launch1.arr_whole c (pdats W1) ((pdats W1 0 c).share_full fun _ => rfl)
      (V1 W1 c) (V2 W1 c) ((pdats W1 0 c).arrAt · cfg1.N) (hFarr W1 c) (hrest W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact le_of_eq_of_le ((K (F := F)).lev_none _) (Nat.zero_le _)
    iexact HO

end Seg

end Cert.Proof.KI

end
-- ==== Proof.KIMain.lean ====
/-
  @main on the TensorCore, and the program's run. @main starts the SparseCore call and waits for it (the two
  arguments and the call's result go to the tiles and come back, the result at the tiles' row dots), enters the
  TensorCore pipeline (the five arrays split out of the unscoped buffers and put back at what the pipeline leaves),
  and runs its two host operations (the zero offset, and the row sums overwritten from word 0 by the tiles' row dots).
-/
import proofs.«209947_g87935160418510_cont_sun_m_973_20_alg».proof.Proof.KILaunch
import proofs.«209947_g87935160418510_cont_sun_m_973_20_alg».proof.Proof.KIRegion

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic
open Idealize.ShloMosaic.Pipeline (Dat Seg HostSeg RegionSeg)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The buffer contents at each boundary of @main -/

/-- At launch. -/
abbrev W0 (d : Dev nD) : Valuation τ sig (Elt F) := fun b => m (d, b)
/-- After the SparseCore call: its result at the tiles' row dots. -/
def WS (d : Dev nD) : Valuation τ sig (Elt F) := Function.update (W0 m d) (Proc.devRef .tc main_v0) (outF m d)

/-- @main's two host operations after the pipeline. -/
abbrev tailOps : List (HloOp τ sig (Elt F)) :=
  [ StableHlo.nullary main_c (constantI S_ 32 0#32),
    StableHlo.binaryIndexed main_v1_2 main_v0 ![main_c] ⟨S_, .i32⟩ main_v2 ((fun x u i => Host.dynamicUpdateSlice x u (fun k => (i k (Shape.Idx.first h_S_)).toInt) updateFits_S16384_S2048) : (⟨S16384, .f32⟩ : BufTy).Contents (Elt F) → (⟨S2048, .f32⟩ : BufTy).Contents (Elt F) → (Fin 1 → (⟨S_, .i32⟩ : BufTy).Contents (Elt F)) → (⟨S16384, .f32⟩ : BufTy).Contents (Elt F)) ]

theorem tailOps_sub : (tailOps : List (HloOp τ sig (Elt F))).Forall fun op => op.bufs ⊆ StableHlo.tcRefs τ sig :=
  ⟨StableHlo.nullary_bufs_sub .., StableHlo.binaryIndexed_bufs_sub ..⟩
theorem tailOps_fresh : (tailOps : List (HloOp τ sig (Elt F))).Forall fun op => op.fresh = ∅ := by
  simp only [List.Forall]; repeat' constructor

/-- At @main's end. -/
abbrev WE (d : Dev nD) : Valuation τ sig (Elt F) := StableHlo.after tailOps (W2 (WS m) d)

/-- The host operations as a segment, from the pipeline's exit contents. -/
abbrev hsegT : HostSeg (Name := ℕ) (U := UU) (pcfgs (F := F)) defs₀ 𝒱₀ (K (F := F)).L (K (F := F)).lev :=
  HostSeg.ofOps _ _ _ _ _ (Pipeline.ucRefs τ sig) tailOps
    (fun op h => Pipeline.sub_ucRefs op ((List.forall_iff_forall_mem.mp tailOps_sub) op h))
    (fun op h => (List.forall_iff_forall_mem.mp tailOps_fresh) op h) (W2 (WS m)) Rr

/-- @main after the SparseCore call, as segments: the pipeline's region, the host operations. -/
abbrev segs : List (Seg (pcfgs (F := F)) admR (pdats (WS m)) none defs₀ 𝒱₀ (K (F := F)).L (K (F := F)).lev) :=
  [.region (regTC (WS m)), .host (hsegT m)]

theorem main_eq (d : Dev nD) :
    main (F := F) d = (K (F := F)).run d 0 >>= fun _ => SparseCore.liftProg (Seg.run (segs m)) := by
  rfl

/-! ## @main on the TensorCore -/

abbrev a' : DevRef τ sig := Proc.devRef .tc (main_arg0 : Ref sig .tc)
abbrev b' : DevRef τ sig := Proc.devRef .tc (main_arg1 : Ref sig .tc)
abbrev o' : DevRef τ sig := Proc.devRef .tc (main_v0 : Ref sig .tc)
/-- The three arrays the SparseCore call takes. -/
abbrev S3 : Finset (DevRef τ sig) := {a', b', o'}

omit [FloatOps F] in
theorem S3_sub : S3 ⊆ Pipeline.ucRefs τ sig := by decide

omit [FloatOps F] in
theorem held_S3 (d : Dev nD) (W : Valuation τ sig (Elt F)) :
    (held (T d) S3 W : sProp 𝕄) = iprop((aLoc d ↦{fullShare} W a') ∗ (bLoc d ↦{fullShare} W b') ∗ oLoc d ↦{fullShare} W o') := by
  unfold held S3
  rw [SparseCore.bigSep_insert' (by decide), SparseCore.bigSep_insert' (by decide), bigSep_singleton]

theorem WS_a (d : Dev nD) : WS m d a' = m (aLoc d) := Function.update_of_ne (show a' ≠ o' by decide) _ _
theorem WS_b (d : Dev nD) : WS m d b' = m (bLoc d) := Function.update_of_ne (show b' ≠ o' by decide) _ _
theorem WS_o (d : Dev nD) : WS m d o' = outF m d := Function.update_self _ _ _
theorem held_rest_WS (d : Dev nD) :
    (held (T d) (Pipeline.ucRefs τ sig \ S3) (WS m d) : sProp 𝕄) = held (T d) (Pipeline.ucRefs τ sig \ S3) (W0 m d) :=
  held_congr (T d) fun b hb => Function.update_of_ne (fun e => (Finset.mem_sdiff.mp hb).2 (by rw [e]; decide)) _ _

/-- After the call the unscoped buffers are held at the post-call contents. -/
theorem held_WS (d : Dev nD) :
    iprop(aPts m d ∗ bPts m d ∗ oPts d (outF m d) ∗ held (T d) (Pipeline.ucRefs τ sig \ S3) (W0 m d))
      ⊢ (held (T d) (Pipeline.ucRefs τ sig) (WS m d) : sProp 𝕄) := by
  rw [held_sub_split (T d) S3_sub (WS m d), held_S3, WS_a, WS_b, WS_o, held_rest_WS]
  iintro ⟨Ha, Hb, Ho, Hr⟩
  isplitl [Ha Hb Ho]
  · isplitl [Ha]; · iexact Ha
    isplitl [Hb]; · iexact Hb
    iexact Ho
  iexact Hr

theorem segs_nodup : (Seg.pipes (segs m)).Nodup := by
  simp only [segs, Seg.pipes_host, Seg.pipes_region, Seg.pipes_nil]; decide

theorem ghostOn_eq (d : Dev nD) :
    (Pipeline.ghostOn (pcfgs (F := F)) admR EP Finset.univ d : sProp 𝕄) = G (F := F) d :=
  bigSep_univ_of_subsingleton (0 : Fin 1)

theorem st0_eq (d : Dev nD) : (bigSep Finset.univ fun c : Fin ((K (F := F)).nCore 0) => (P m).st 0 d c) = iprop(aPts m d ∗ bPts m d ∗ ∃ f, oPts d f) :=
  bigSep_univ_of_subsingleton (0 : Fin 1)
theorem dn0_eq (d : Dev nD) : (bigSep Finset.univ fun c : Fin ((K (F := F)).nCore 0) => (P m).dn 0 d c) = iprop(aPts m d ∗ bPts m d ∗ oPts d (outF m d)) :=
  bigSep_univ_of_subsingleton (0 : Fin 1)

/-- What @main leaves the claim: every unscoped buffer at the end contents. -/
abbrev FIN (d : Dev nD) : sProp 𝕄 := held (T d) (Pipeline.ucRefs τ sig) (WE m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (W0 m d)
    from Pipeline.unscopedBufs_held d (W0 m d), held_sub_split (T d) S3_sub (W0 m d), held_S3]
  rw [main_eq m d, wp_bind]
  iintro ⟨#Hctx, Hst, ⟨Hb, ⟨⟨Ha, Hbb, Ho⟩, Hrest⟩, -, Hprng⟩, HG⟩
  iapply ((K (F := F)).wp_run (D (F := F)) 𝒱 (EH := EH) (P := P m) κ d 0) $$ [Hst Ha Hbb Ho Hb Hrest Hprng HG]
  isplitr; · iexact Hctx
  isplitl [Hst]; · iexact Hst
  isplitl [Ha Hbb Ho]
  · rw [st0_eq]
    isplitl [Ha]; · iexact Ha
    isplitl [Hbb]; · iexact Hbb
    iexists _; iexact Ho
  iintro ⟨Hst, Hdn⟩
  ihave Hdn' := (Entails.of_eq (dn0_eq m d)) $$ Hdn
  icases Hdn' with ⟨Ha, Hbb, Ho⟩
  ihave Hheld := (held_WS m d) $$ [Ha Hbb Ho Hrest]
  · isplitl [Ha]; · iexact Ha
    isplitl [Hbb]; · iexact Hbb
    isplitl [Ho]; · iexact Ho
    iexact Hrest
  ihave Hlev := (SparseCore.Cfg.ctx_levAts κ) $$ Hctx
  iapply ((K (F := F)).wp_liftProg (D (F := F)) 𝒱 (T d) Set.univ none (Seg.run (segs m)) _)
  iapply (Pipeline.wp_segs (pcfgs (F := F)) admR (pdats (WS m)) none cellOf_inj EP defs₀ 𝒱₀ (K (F := F)).L (K (F := F)).lev d
      (segs m) Finset.univ (fun c => (regTC (WS m)).pre c) (fun c => (hsegT m).post c) (segs_nodup m) (fun _ _ => Finset.mem_univ _)
      ⟨fun _ => .rfl, fun _ => .rfl, fun _ => .rfl⟩)
  rw [show (hsegT m).post d = iprop(held (d.tc : Thread nD τ) (Pipeline.ucRefs τ sig) (WE m d) ∗ Rr d) from rfl,
    show (regTC (WS m)).pre d = iprop(held (d.tc : Thread nD τ) (Pipeline.ucRefs τ sig) (WS m d) ∗ Rr d) from rfl,
    show ((0 : Fin 1) : ℕ) + 1 = 1 from rfl]
  unfold SparseCore.Cfg.tcSt
  rw [(K (F := F)).Otc_end d (le_refl 1)]
  icases Hst with ⟨⟨%W, %hW, HO⟩, Hst'⟩
  isplitl [Hst']
  · iintro ⟨-, Hh, -, %W', %hW', HO'⟩
    isplitl [HO' Hst']
    · isplitl [HO']
      · iexists W'; isplitr
        · ipureintro; exact hW'
        · iexact HO'
      · iexact Hst'
    · iexact Hh
  isplitl [Hb]; · iexact Hb
  isplitl [Hheld Hprng HO]
  · isplitl [Hheld]; · iexact Hheld
    isplitl [Hprng]; · iexists _; iexact Hprng
    iexists W; isplitr
    · ipureintro; exact hW
    · iexact HO
  isplitr; · iexact Hlev
  rw [ghostOn_eq]; iexact HG

/-! ## Reading the final memory -/

def fq (d : Dev nD) (s' : Phys nD τ sig (Elt F)) : Prop := ∀ b ∈ Pipeline.ucRefs τ sig, s'.mem.mem (d, b) = WE m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all (Pipeline.ucRefs τ sig) (fun b => ((d, b) : Loc nD τ sig)) (WE m d) s') $$ [Hh HSI]
  · isplitl [Hh] <;> iassumption
  icases Hr with ⟨%h, -⟩
  ipureintro; exact h

/-! ## The program's run -/

/-- Every unscoped buffer of every device ends at @main's end contents. -/
def QC : PUnit × MemSt nD τ sig (Elt F) → Prop := fun r => ∀ c : Dev nD, ∀ b ∈ Pipeline.ucRefs τ sig, r.2.mem (c, b) = WE m c b

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

/-! ## The end contents at the arguments and the results -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The first argument ends as launched: no host operation writes it, the pipeline reads it through an input window,
    the SparseCore call hands it back. -/
theorem WE_arg0 (d : Dev nD) : WE m d a' = m (aLoc d) :=
  calc WE m d a'
    _ = W2 (WS m) d a' := by unfold WE; after_results
    _ = WS m d a' := (W2_arr (WS m) d 0).trans (((datTC (V1 (WS m)) d).arrAt_in 0 rfl _).trans (A_eq (V1 (WS m)) d 0))
    _ = m (aLoc d) := WS_a m d
theorem WE_arg1 (d : Dev nD) : WE m d b' = m (bLoc d) :=
  calc WE m d b'
    _ = W2 (WS m) d b' := by unfold WE; after_results
    _ = WS m d b' := (W2_arr (WS m) d 1).trans (((datTC (V1 (WS m)) d).arrAt_in 1 rfl _).trans (A_eq (V1 (WS m)) d 1))
    _ = m (bLoc d) := WS_b m d
/-- The two copy results end at what the pipeline's write-backs leave in them. -/
theorem WE_copy0 (d : Dev nD) : WE m d (Proc.devRef .tc main_v1_0) = (datTC (V1 (WS m)) d).arrAt 2 cfg1.N :=
  (show WE m d (Proc.devRef .tc main_v1_0) = W2 (WS m) d (Proc.devRef .tc main_v1_0) by unfold WE; after_results).trans (W2_arr (WS m) d 2)
theorem WE_copy1 (d : Dev nD) : WE m d (Proc.devRef .tc main_v1_1) = (datTC (V1 (WS m)) d).arrAt 3 cfg1.N :=
  (show WE m d (Proc.devRef .tc main_v1_1) = W2 (WS m) d (Proc.devRef .tc main_v1_1) by unfold WE; after_results).trans (W2_arr (WS m) d 3)
/-- The first result ends at the pipeline's row sums overwritten from word 0 by the tiles' row dots. -/
theorem WE_sum (d : Dev nD) :
    WE m d (Proc.devRef .tc main_v2)
      = Host.dynamicUpdateSlice ((datTC (V1 (WS m)) d).arrAt 4 cfg1.N) (outF m d) (fun _ => (0 : Int)) updateFits_S16384_S2048 := by
  unfold WE
  after_results
  rw [W2_arr (WS m) d 4, W2_of_ne (WS m) d main_v0 (by decide), WS_o]
  refine congrArg (fun idx => Host.dynamicUpdateSlice ((datTC (V1 (WS m)) d).arrAt 4 cfg1.N) (outF m d) idx updateFits_S16384_S2048) ?_
  funext k
  obtain rfl : k = 0 := Subsingleton.elim _ _
  show BitVec.toInt ((StableHlo.nullary main_c (constantI S_ 32 0#32) _).result (W2 (WS m) d) (Proc.devRef .tc main_c) (Shape.Idx.first h_S_)) = 0
  rw [StableHlo.nullary_result]
  rfl

end Cert.Proof.KI

end
-- ==== Proof.SpecIdeal.lean ====
/-
  At the ideal instance the tiles' row dot is the plain sum of the row's 128 products: the balanced trees are sums
  (addition of extended reals is commutative and associative), and the sixteen lanes' eight chunks enumerate the 128
  columns once each, column `16·k + j` for chunk `k` and lane `j`.
-/
import proofs.«209947_g87935160418510_cont_sun_m_973_20_alg».proof.Proof.Spec
import Idealize.ShloMosaic.PureOps.Ideal
import Idealize.ShloMosaic.PureOps.Ideal.Laws
import Mathlib.Algebra.BigOperators.Fin

noncomputable section

namespace Cert.Spec

open Idealize.ShloMosaic Idealize.ShloMosaic.ValueIdx

theorem sum8_ideal (p : Fin 8 → Ideal .f32) : sum8 (F := Ideal) p = ∑ k : Fin 8, p k := by
  rw [Fin.sum_univ_eight]
  show (p 0 + p 1 + (p 2 + p 3)) + (p 4 + p 5 + (p 6 + p 7)) = _
  simp only [add_assoc]

theorem sum16_ideal (p : Fin 16 → Ideal .f32) : sum16 (F := Ideal) p = ∑ j : Fin 16, p j := by
  unfold sum16
  rw [sum8_ideal, sum8_ideal]
  rw [show (∑ j : Fin 16, p j) = ∑ j : Fin (8 + 8), p j from rfl, Fin.sum_univ_add]
  refine congrArg₂ (· + ·) (Finset.sum_congr rfl fun k _ => ?_) (Finset.sum_congr rfl fun k _ => ?_)
  · exact congrArg p (Fin.ext rfl)
  · exact congrArg p (Fin.ext rfl)

/-- A row's dot at the ideal instance: the sum over the 128 columns of the products. -/
theorem rowDot_ideal (u v : Fin 128 → Ideal .f32) : rowDot (F := Ideal) u v = ∑ c : Fin 128, u c * v c := by
  unfold rowDot lanePart
  rw [sum16_ideal]
  simp only [sum8_ideal]
  rw [Finset.sum_comm]
  rw [show (∑ c : Fin 128, u c * v c) = ∑ c : Fin (8 * 16), u c * v c from rfl,
    ← (finProdFinEquiv (m := 8) (n := 16)).sum_comp, Fintype.sum_prod_type]
  refine Finset.sum_congr rfl fun k _ => Finset.sum_congr rfl fun j _ => ?_
  have e : (finProdFinEquiv (m := 8) (n := 16) (k, j) : Fin (8 * 16)) = col k j := Fin.ext (by
    show j.val + 16 * k.val = 16 * k.val + j.val; omega)
  rw [e]; rfl

/-- Each row's sum over the 128 columns of the products of two arrays' entries. -/
def rowSums (a b : SA.Idx → Ideal .f32) : SR.Idx → Ideal .f32 :=
  fun i => ∑ k : Fin 128, a (ix2 (i 0) k) * b (ix2 (i 0) k)

/-- At the ideal instance the tiles' result holds, at word `r`, row `r`'s sum of products. -/
theorem tilesOut_ideal (a b : SA.Idx → Ideal .f32) (r : SO.Idx) :
    tilesOut (F := Ideal) a b r = ∑ k : Fin 128, a (ix2 ⟨(r 0).val, lt_of_lt_of_le (r 0).isLt (by decide)⟩ k) * b (ix2 ⟨(r 0).val, lt_of_lt_of_le (r 0).isLt (by decide)⟩ k) := by
  unfold tilesOut
  rw [rowDot_ideal]
  rfl

end Cert.Spec

end
-- ==== Proof.KIValue.lean ====
/-
  What the TensorCore pipeline leaves in its three result arrays, as whole-array functions of the arrays it
  entered with: the two copy results are the two arguments; at the ideal instance the row-sum result holds, at
  row `r`, the sum over the 128 columns of the products of the two arguments' entries.
-/
import proofs.«209947_g87935160418510_cont_sun_m_973_20_alg».proof.Proof.KIRegion
import proofs.«209947_g87935160418510_cont_sun_m_973_20_alg».proof.Proof.SpecIdeal
import Idealize.ShloMosaic.Lib.Pipeline.Value
import Idealize.ShloMosaic.Lib.ValueIdx
import Idealize.ShloMosaic.PureOps.Ideal.Laws

set_option maxRecDepth 16384

noncomputable section

namespace Cert.Proof.KI

open Cert.KernelIdeal Cert.KernelIdeal.Gen

open Idealize.ShloMosaic Idealize.ShloMosaic.TcCoe Idealize.ShloMosaic.ValueIdx
open Idealize.SL Idealize.SL.Sem
open Idealize.ShloMosaic.Pipeline (Dat)

section Copies

variable {F : FTy → Type} [FloatOps F]
variable (Vv : (c : Dev nD) → (b : Ref sig .tc) → Buf (Elt F) ((c : Thread nD τ).loc b))

theorem zerosM : (![0, 0] : Fin 2 → Nat) = fun _ => 0 := funext fun a => by fin_cases a <;> rfl
theorem zerosV : (![0] : Fin 1 → Nat) = fun _ => 0 := funext fun a => by fin_cases a <;> rfl

/-- The printed index maps, decided over the grid: at every point each result's block sits at the row block of the
    arguments' blocks, and no window moves along the columns. -/
theorem blocks_aligned : ∀ t : Fin cfg1.N, win1_0.index t (0 : Fin 2) = win1_2.index t (0 : Fin 2)
    ∧ win1_0.index t (1 : Fin 2) = win1_2.index t (1 : Fin 2)
    ∧ win1_1.index t (0 : Fin 2) = win1_3.index t (0 : Fin 2)
    ∧ win1_1.index t (1 : Fin 2) = win1_3.index t (1 : Fin 2)
    ∧ win1_0.index t (0 : Fin 2) = win1_4.index t (0 : Fin 1)
    ∧ win1_1.index t (0 : Fin 2) = win1_4.index t (0 : Fin 1)
    ∧ win1_0.index t (1 : Fin 2) = 0
    ∧ win1_1.index t (1 : Fin 2) = 0 :=
  (by decide +kernel : ∀ t : Fin grid1.N, _)

/-- Every one of the four row blocks is some point's, for each result. -/
theorem rowBlock_onto2 : ∀ q : Fin 4, ∃ t : Fin cfg1.N, win1_2.index t = ![q.val, 0] :=
  (by decide +kernel : ∀ q : Fin 4, ∃ t : Fin grid1.N, win1_2.index t = ![q.val, 0])
theorem rowBlock_onto3 : ∀ q : Fin 4, ∃ t : Fin cfg1.N, win1_3.index t = ![q.val, 0] :=
  (by decide +kernel : ∀ q : Fin 4, ∃ t : Fin grid1.N, win1_3.index t = ![q.val, 0])
theorem rowBlock_onto4 : ∀ q : Fin 4, ∃ t : Fin cfg1.N, win1_4.index t = ![q.val] :=
  (by decide +kernel : ∀ q : Fin 4, ∃ t : Fin grid1.N, win1_4.index t = ![q.val])

/-- What point `t` writes back to the first copy result is block `t` of the first argument as the region found it. -/
theorem flushed2_eq (c : Dev nD) (t : Fin cfg1.N) :
    (datTC Vv c).flushed 2 t = ((cfg1.win 2).blk t).view.read (Elt F) (Vv c main_arg0 : S16384x128.Idx → Elt F .f32) := by
  show (cfg1.win 2).cut (grid1.coords t) ((datTC Vv c).after 2 t) = _
  rw [after_2]
  unfold outC
  rw [View.canon_unit_zero zerosM]
  simp only [View.ld_unit_zero (S := S4096x128) zerosM]
  obtain ⟨e0, e1, -, -, -, -, -, -⟩ := blocks_aligned t
  funext j
  show Vv c main_arg0 (((cfg1.win 0).blk t).view.emb j) = Vv c main_arg0 (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 128 + 1 * (j 1).val = win1_2.index t (1 : Fin 2) * 128 + 1 * (j 1).val; omega
  rw [h0]

/-- What point `t` writes back to the second copy result is block `t` of the second argument as the region found it. -/
theorem flushed3_eq (c : Dev nD) (t : Fin cfg1.N) :
    (datTC Vv c).flushed 3 t = ((cfg1.win 3).blk t).view.read (Elt F) (Vv c main_arg1 : S16384x128.Idx → Elt F .f32) := by
  show (cfg1.win 3).cut (grid1.coords t) ((datTC Vv c).after 3 t) = _
  rw [after_3]
  unfold outC
  rw [View.canon_unit_zero zerosM]
  simp only [View.ld_unit_zero (S := S4096x128) zerosM]
  obtain ⟨-, -, e2, e3, -, -, -, -⟩ := blocks_aligned t
  funext j
  show Vv c main_arg1 (((cfg1.win 1).blk t).view.emb j) = Vv c main_arg1 (((cfg1.win 3).blk t).view.emb j)
  have h1 : ((cfg1.win 1).blk t).view.emb j = ((cfg1.win 3).blk t).view.emb j := by
    funext a; apply Fin.ext
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 128 + 1 * (j 1).val = win1_3.index t (1 : Fin 2) * 128 + 1 * (j 1).val; omega
  rw [h1]

/-- An index of a copy result is in point `t`'s block iff each coordinate is in the block's range on its axis. -/
theorem mem_blk2 (t : Fin cfg1.N) (i : S16384x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v1_0).slice (win1_2.rect t)).set ↔ _
  rw [View.set_slice_whole, Rect.mem_set_unit]
  exact Iff.rfl
theorem mem_blk3 (t : Fin cfg1.N) (i : S16384x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v1_1).slice (win1_3.rect t)).set ↔ _
  rw [View.set_slice_whole, Rect.mem_set_unit]
  exact Iff.rfl

/-- Every index of a copy result is in the block of the point that stages its row block: row `r` is point `r / 4096`'s. -/
theorem cover2 (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  obtain ⟨t, ht⟩ := rowBlock_onto2 ⟨(i 0).val / 4096, by omega⟩
  have q0 : win1_2.index t (0 : Fin 2) = (i 0).val / 4096 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 128 ≤ (i 1).val ∧ (i 1).val < win1_2.index t (1 : Fin 2) * 128 + 128; omega
theorem cover3 (i : S16384x128.Idx) : ∃ t : Fin cfg1.N, (cfg1.win 3).flush t = true ∧ i ∈ ((cfg1.win 3).blk t).view.set := by
  have hi0 : (i 0).val < 16384 := (i 0).isLt
  have hi1 : (i 1).val < 128 := (i 1).isLt
  obtain ⟨t, ht⟩ := rowBlock_onto3 ⟨(i 0).val / 4096, by omega⟩
  have q0 : win1_3.index t (0 : Fin 2) = (i 0).val / 4096 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- The first copy result ends holding the first argument as the region found it. -/
theorem copy0_final (c : Dev nD) :
    (datTC Vv c).arrAt 2 cfg1.N = (Vv c main_arg0 : S16384x128.Idx → Elt F .f32) :=
  (datTC Vv c).arrAt_eq_of_cover 2 (Vv c main_arg0 : S16384x128.Idx → Elt F .f32) (fun t _ => flushed2_eq Vv c t) cover2

/-- The second copy result ends holding the second argument as the region found it. -/
theorem copy1_final (c : Dev nD) :
    (datTC Vv c).arrAt 3 cfg1.N = (Vv c main_arg1 : S16384x128.Idx → Elt F .f32) :=
  (datTC Vv c).arrAt_eq_of_cover 3 (Vv c main_arg1 : S16384x128.Idx → Elt F .f32) (fun t _ => flushed3_eq Vv c t) cover3

end Copies

/-- Each row's sum over the 128 columns of the products of two arrays' entries. -/
def rowSums (a0 a1 : S16384x128.Idx → Ideal .f32) : S16384.Idx → Ideal .f32 :=
  fun i => ∑ k : Fin 128, a0 (ix2 (i 0) k) * a1 (ix2 (i 0) k)

/-- The body's lane sums of two blocks' products, at the ideal instance and at a row of the block: the sum over the
    128 columns of the products. -/
theorem laneSums_apply (x0 x1 : FVec Ideal S4096x128 .f32) (j : S4096.Idx) :
    k1_pay1 (F := Ideal) x0 x1 j = ∑ k : Fin 128, x0 (ix2 (j 0) k) * x1 (ix2 (j 0) k) := by
  unfold k1_pay1
  refine (Ideal.multiReduction_add_single (mulf x0 x1) 0x00000000#32 reduces_S4096x128_S4096 (.inl rfl) rfl j).trans ?_
  refine Finset.sum_congr rfl fun k _ => ?_
  have e : reduces_S4096x128_S4096.lift j k = ix2 (j 0) k := by
    funext a; apply Fin.ext
    match a with
    | ⟨0, _⟩ => rfl
    | ⟨1, _⟩ => rfl
  rw [e]; rfl

/-- An index of the row-sum result is in point `t`'s block iff it is in the block's range. -/
theorem mem_blk4 (t : Fin cfg1.N) (i : S16384.Idx) :
    i ∈ ((cfg1.win 4).blk t).view.set ↔ ∀ a : Fin 1, win1_4.index t a * S4096.size a ≤ (i a).val ∧ (i a).val < win1_4.index t a * S4096.size a + S4096.size a := by
  show i ∈ ((View.whole main_v1_2).slice (win1_4.rect t)).set ↔ _
  rw [View.set_slice_whole, Rect.mem_set_unit]
  exact Iff.rfl

/-- Every row of the row-sum result is in the block of the point that stages its row block. -/
theorem cover4 (i : S16384.Idx) : ∃ t : Fin cfg1.N, (cfg1.win 4).flush t = true ∧ i ∈ ((cfg1.win 4).blk t).view.set := by
  have hi0 : (i 0).val < 16384 := (i 0).isLt
  obtain ⟨t, ht⟩ := rowBlock_onto4 ⟨(i 0).val / 4096, by omega⟩
  have q0 : win1_4.index t (0 : Fin 1) = (i 0).val / 4096 := congrFun ht 0
  refine ⟨t, flush1_4 t, ?_⟩
  rw [mem_blk4]
  intro a
  match a with
  | ⟨0, _⟩ => show win1_4.index t (0 : Fin 1) * 4096 ≤ (i 0).val ∧ (i 0).val < win1_4.index t (0 : Fin 1) * 4096 + 4096; omega

/-- What point `t` writes back to the row-sum result is block `t` of the row sums of the two arguments as the region
    found them. -/
theorem flushed4_eq (Vv : (c : Dev nD) → (b : Ref sig .tc) → Buf (Elt Ideal) ((c : Thread nD τ).loc b)) (c : Dev nD) (t : Fin cfg1.N) :
    (datTC (F := Ideal) Vv c).flushed 4 t
      = ((cfg1.win 4).blk t).view.read (Elt Ideal) (rowSums (Vv c main_arg0) (Vv c main_arg1)) := by
  show (cfg1.win 4).cut (grid1.coords t) ((datTC (F := Ideal) Vv c).after 4 t) = _
  rw [after_4]
  unfold outS
  rw [View.canon_unit_zero zerosV]
  simp only [View.ld_unit_zero (S := S4096x128) zerosM]
  obtain ⟨-, -, -, -, e4, e5, e6, e7⟩ := blocks_aligned t
  funext j
  show k1_pay1 (F := Ideal) (iblk Vv c 0 t) (iblk Vv c 1 t) j = rowSums (Vv c main_arg0) (Vv c main_arg1) (((cfg1.win 4).blk t).view.emb j)
  refine (laneSums_apply _ _ j).trans ?_
  unfold rowSums
  refine Finset.sum_congr rfl fun k _ => ?_
  show (show S16384x128.Idx → Ideal .f32 from Vv c main_arg0) (((cfg1.win 0).blk t).view.emb (ix2 (j 0) k))
      * (show S16384x128.Idx → Ideal .f32 from Vv c main_arg1) (((cfg1.win 1).blk t).view.emb (ix2 (j 0) k))
    = (show S16384x128.Idx → Ideal .f32 from Vv c main_arg0) (ix2 ((((cfg1.win 4).blk t).view.emb j) 0) k)
      * (show S16384x128.Idx → Ideal .f32 from Vv c main_arg1) (ix2 ((((cfg1.win 4).blk t).view.emb j) 0) k)
  have h0 : ((cfg1.win 0).blk t).view.emb (ix2 (j 0) k) = ix2 ((((cfg1.win 4).blk t).view.emb j) 0) k := by
    funext a; apply Fin.ext
    match a with
    | ⟨0, _⟩ => show win1_0.index t (0 : Fin 2) * 4096 + 1 * (j 0).val = win1_4.index t (0 : Fin 1) * 4096 + 1 * (j 0).val; omega
    | ⟨1, _⟩ => show win1_0.index t (1 : Fin 2) * 128 + 1 * k.val = k.val; omega
  have h1 : ((cfg1.win 1).blk t).view.emb (ix2 (j 0) k) = ix2 ((((cfg1.win 4).blk t).view.emb j) 0) k := by
    funext a; apply Fin.ext
    match a with
    | ⟨0, _⟩ => show win1_1.index t (0 : Fin 2) * 4096 + 1 * (j 0).val = win1_4.index t (0 : Fin 1) * 4096 + 1 * (j 0).val; omega
    | ⟨1, _⟩ => show win1_1.index t (1 : Fin 2) * 128 + 1 * k.val = k.val; omega
  rw [h0, h1]
  rfl

/-- At the ideal instance the row-sum result ends holding each row's sum of products. -/
theorem sum_final (Vv : (c : Dev nD) → (b : Ref sig .tc) → Buf (Elt Ideal) ((c : Thread nD τ).loc b)) (c : Dev nD) :
    ((datTC (F := Ideal) Vv c).arrAt 4 cfg1.N : S16384.Idx → Ideal .f32)
      = fun i : S16384.Idx => ∑ k : Fin 128, (show S16384x128.Idx → Ideal .f32 from Vv c main_arg0) (ix2 (i 0) k)
          * (show S16384x128.Idx → Ideal .f32 from Vv c main_arg1) (ix2 (i 0) k) :=
  (datTC (F := Ideal) Vv c).arrAt_eq_of_cover 4 (rowSums (Vv c main_arg0) (Vv c main_arg1)) (fun t _ => flushed4_eq Vv c t) cover4

end Cert.Proof.KI

end
-- ==== Proof.KIIdeal.lean ====
/-
  The kernel program's first result at the ideal instance. The host's last operation overwrites words 0 … 2047 of
  the pipeline's row sums with the tiles' row dots; at the ideal instance both are each row's sum of products (the
  tiles' balanced trees over chunks and lanes enumerate the row's 128 columns once each), so the whole array is.
-/
import proofs.«209947_g87935160418510_cont_sun_m_973_20_alg».proof.Proof.KIMain
import proofs.«209947_g87935160418510_cont_sun_m_973_20_alg».proof.Proof.KIValue

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore (T)
open Idealize.SL Idealize.SL.Sem

variable (m : (ℓ : Loc nD τ sig) → Buf (Elt Ideal) ℓ)

/-- Row sums with words 0 … 2047 overwritten by the tiles' row dots are, at the ideal instance, the row sums. -/
theorem dus_rowSums (a b : S16384x128.Idx → Ideal .f32) (x : S16384.Idx → Ideal .f32) (u : S2048.Idx → Ideal .f32)
    (hx : x = Cert.Spec.rowSums a b) (hu : u = Cert.Spec.tilesOut (F := Ideal) a b) :
    Host.dynamicUpdateSlice x u (fun _ => (0 : Int)) updateFits_S16384_S2048 = Cert.Spec.rowSums a b := by
  subst hx hu
  rw [Host.dynamicUpdateSlice_eq_updateSlice _ _ _ updateFits_S16384_S2048 (fun _ => 0)
    (fun a => by obtain rfl : a = (0 : Fin 1) := Subsingleton.elim _ _; rfl) updateFits_S16384_S2048]
  funext i
  unfold updateSlice
  split
  · rename_i hin
    rw [Cert.Spec.tilesOut_ideal]
    unfold Cert.Spec.rowSums
    refine Finset.sum_congr rfl fun k _ => ?_
    have e : (ix2 (⟨(i 0).val - 0, by have h : (i 0).val < 16384 := (i 0).isLt; omega⟩ : Fin 16384) k : Cert.Spec.SA.Idx) = ix2 (i 0) k :=
      congrArg (fun r => ix2 r k) (Fin.ext (Nat.sub_zero _))
    exact congrArg₂ (fun x y => a x * b y) e e
  · rfl

theorem WE_sum_ideal (d : Dev nD) :
    (WE (F := Ideal) m d (Proc.devRef .tc main_v2) : S16384.Idx → Ideal .f32) = Cert.Spec.rowSums (m (aLoc d)) (m (bLoc d)) := by
  rw [WE_sum]
  refine dus_rowSums (m (aLoc d)) (m (bLoc d)) _ _ ((sum_final (V1 (WS m)) d).trans ?_) rfl
  unfold Cert.Spec.rowSums
  funext i
  refine Finset.sum_congr rfl fun k _ => ?_
  exact congrArg₂ (fun (f g : S16384x128.Idx → Ideal .f32) => f (ix2 (i 0) k) * g (ix2 (i 0) k)) (WS_a m d) (WS_b m d)

theorem WE_copy0_ideal (d : Dev nD) : WE (F := Ideal) m d (Proc.devRef .tc main_v1_0) = m (aLoc d) := by
  rw [WE_copy0, copy0_final]; exact WS_a m d
theorem WE_copy1_ideal (d : Dev nD) : WE (F := Ideal) m d (Proc.devRef .tc main_v1_1) = m (bLoc d) := by
  rw [WE_copy1, copy1_final]; exact WS_b m d

end Cert.Proof.KI

end
-- ==== Proof.RefValue.lean ====
/-
  The reference's first result at the ideal instance: the host's sum over the second axis of the elementwise
  product, from the zero initial value, is each row's sum of products.
-/
import proofs.«209947_g87935160418510_cont_sun_m_973_20_alg».proof.Proof.Gen.ReferenceIdeal.Read
import proofs.«209947_g87935160418510_cont_sun_m_973_20_alg».proof.Proof.SpecIdeal

noncomputable section

namespace Cert.Proof.RefValue

open Cert.ReferenceIdeal Cert.ReferenceIdeal.Gen Idealize.ShloMosaic Idealize.ShloMosaic.ValueIdx

theorem ref_sum (x0 x1 : (⟨S16384x128, .f32⟩ : BufTy).Contents (Elt Ideal)) :
    Host.reduceAdd (mulf x0 x1) (constant S_ .f32 0x00000000#32) reducesTo_S16384x128_S16384_d1 h_S_
      = Cert.Spec.rowSums x0 x1 := by
  rw [Cert.ReferenceIdeal.Read.val_main_v1_eq]
  funext i
  rw [Cert.ReferenceIdeal.Read.val_main_v1_apply, Cert.ReferenceIdeal.Read.val_main_cst_apply]
  simp only [Cert.ReferenceIdeal.Read.val_main_v0_apply]
  show Ideal.ofBits .f32 0x00000000#32 + _ = _
  rw [Ideal.ofBits_zero_f32, zero_add]
  refine Finset.sum_congr rfl fun k _ => ?_
  have e : Cert.ReferenceIdeal.Read.idx_main_v1 i k = ix2 (i 0) k :=
    funext fun a => Fin.ext (by match a with | ⟨0, _⟩ => rfl | ⟨1, _⟩ => rfl)
  rw [e]; rfl

end Cert.Proof.RefValue

end
-- ==== Proof.lean ====
/-
  The certificate's five claims. The kernel program runs one SparseCore call (sixteen tiles, each the row dots of
  128 rows of the two arguments), one TensorCore pipeline (the two arguments copied, every row's lane sum of
  products) and one host update (the pipeline's row sums with words 0 … 2047 replaced by the tiles' row dots); the
  reference is the host's sum over the second axis of the elementwise product. Both frames of the kernel program are
  its run with every result named, at the word-level and at the ideal instance; the reference's is its generated run.
  At the ideal instance the tiles' balanced trees over eight column chunks and sixteen lanes are sums enumerating
  each row's 128 columns once, so both programs' first results are each row's sum of products, and the other two
  results are the arguments.
-/
import proofs.«209947_g87935160418510_cont_sun_m_973_20_alg».proof.Defs
import proofs.«209947_g87935160418510_cont_sun_m_973_20_alg».proof.Proof.Gen.Kernel
import proofs.«209947_g87935160418510_cont_sun_m_973_20_alg».proof.Proof.Gen.KernelIdeal
import proofs.«209947_g87935160418510_cont_sun_m_973_20_alg».proof.Proof.Gen.ReferenceIdeal
import proofs.«209947_g87935160418510_cont_sun_m_973_20_alg».proof.Proof.Gen.Pre_finite_inputs
import proofs.«209947_g87935160418510_cont_sun_m_973_20_alg».proof.Proof.Gen.ReferenceIdeal.Run
import proofs.«209947_g87935160418510_cont_sun_m_973_20_alg».proof.Proof.KBMain
import proofs.«209947_g87935160418510_cont_sun_m_973_20_alg».proof.Proof.KIIdeal
import proofs.«209947_g87935160418510_cont_sun_m_973_20_alg».proof.Proof.RefValue

noncomputable section

namespace Cert.Proof

open Idealize.ShloMosaic Idealize.SL.Sem

theorem frame_k : Cert.frame_Kernel := fun m g _ =>
  (θ_run Cert.Kernel.defs _ _).mono (fun r h c =>
      ⟨(h c _ (KB.mem_uc Cert.Kernel.main_arg0 (by decide))).trans (KB.WE_arg0 m c),
        (h c _ (KB.mem_uc Cert.Kernel.main_arg1 (by decide))).trans (KB.WE_arg1 m c)⟩)
    (KB.run_main (F := Bits) m g)

theorem frame_ki : Cert.frame_KernelIdeal := fun m g _ =>
  (θ_run Cert.KernelIdeal.defs _ _).mono (fun r h c =>
      ⟨(h c _ (KI.mem_uc Cert.KernelIdeal.main_arg0 (by decide))).trans (KI.WE_arg0 m c),
        (h c _ (KI.mem_uc Cert.KernelIdeal.main_arg1 (by decide))).trans (KI.WE_arg1 m c)⟩)
    (KI.run_main (F := Ideal) m g)

theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the first result at each row's sum of products and the other two at the arguments. -/
theorem algebraic : Cert.algebraic_KernelIdeal_ReferenceIdeal := by
  intro m g m' g' _ hagree
  refine ⟨fun c => Cert.Spec.rowSums (m (KI.aLoc c)) (m (KI.bLoc c)), fun c => m (KI.aLoc c), fun c => m (KI.bLoc c), ?_, ?_⟩
  · exact (θ_run Cert.KernelIdeal.defs _ _).mono (fun r h c =>
        ⟨(h c _ (KI.mem_uc Cert.KernelIdeal.main_v2 (by decide))).trans (KI.WE_sum_ideal m c),
          (h c _ (KI.mem_uc Cert.KernelIdeal.main_v1_0 (by decide))).trans (KI.WE_copy0_ideal m c),
          (h c _ (KI.mem_uc Cert.KernelIdeal.main_v1_1 (by decide))).trans (KI.WE_copy1_ideal m c),
          (h c _ (KI.mem_uc Cert.KernelIdeal.main_arg0 (by decide))).trans (KI.WE_arg0 m c),
          (h c _ (KI.mem_uc Cert.KernelIdeal.main_arg1 (by decide))).trans (KI.WE_arg1 m c)⟩)
      (KI.run_main (F := Ideal) m g)
  · refine (θ_run Cert.ReferenceIdeal.defs _ _).mono (fun _ h c => ⟨?_, ?_, ?_, (h c).2.2.2.1, (h c).2.2.2.2⟩)
      (Cert.ReferenceIdeal.Value.run (F := Ideal) m' g')
    · rw [(h c).1, (hagree c).1, (hagree c).2]
      exact RefValue.ref_sum _ _
    · rw [(h c).2.1]; exact (hagree c).1
    · rw [(h c).2.2.1]; exact (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
